-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S4096x16 .f32) (main_arg4 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S16384x4096 : Shape := ⟨2, ![16384, 4096]⟩
abbrev S1x4096 : Shape := ⟨2, ![1, 4096]⟩
abbrev S16384x16 : Shape := ⟨2, ![16384, 16]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 14
  | .vmem => 20
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S16384x4096, .f32⟩
  | .hbm, ⟨6, _⟩ => ⟨S16384x4096, .bf16⟩
  | .hbm, ⟨7, _⟩ => ⟨S4096x4096, .bf16⟩
  | .hbm, ⟨8, _⟩ => ⟨S4096x16, .bf16⟩
  | .hbm, ⟨9, _⟩ => ⟨S16x4096, .bf16⟩
  | .hbm, ⟨10, _⟩ => ⟨S1x4096, .f32⟩
  | .hbm, ⟨11, _⟩ => ⟨S16384x16, .bf16⟩
  | .hbm, ⟨12, _⟩ => ⟨S16384x4096, .f32⟩
  | .hbm, ⟨13, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x16, .bf16⟩
  | .local _ .vmem, ⟨3, _⟩ => ⟨S1024x16, .bf16⟩
  | .local _ .vmem, ⟨4, _⟩ => ⟨S1024x16, .bf16⟩
  | .local _ .vmem, ⟨5, _⟩ => ⟨S1024x16, .bf16⟩
  | .local _ .vmem, ⟨6, _⟩ => ⟨S1024x16, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x16, .bf16⟩
  | .local _ .vmem, ⟨12, _⟩ => ⟨S1024x16, .bf16⟩
  | .local _ .vmem, ⟨13, _⟩ => ⟨S16x1024, .bf16⟩
  | .local _ .vmem, ⟨14, _⟩ => ⟨S16x1024, .bf16⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x16 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S16x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x16_S1024x16_0_0 : (Rect.unit (s := S1024x16) ![0, 0] S1024x16.size inb_S1024x16_S1024x16_0_0).PackedRows (EltTy.packing .bf16)
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S1024x1024_S1024x16_S1024x16_1_0_0_1_n_n_wf : DotDims.WF S1024x1024 S1024x16 S1024x16 [1] [0] [0] [1] [] []
  dot_S1024x1024_S1024x1024_S1024x1024_1_0_0_1_n_n_wf : DotDims.WF S1024x1024 S1024x1024 S1024x1024 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .bf16 = 32 ∨ (Rect.block (s := S4096x16) S1024x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .bf16 = 32 ∨ (Rect.block (s := S16384x16) S1024x16.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x4096.size a
  hwx1_0 : ∀ i : grid1.Coords, EltTy.bits .bf16 = 32 ∨ (Rect.block (s := S16384x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S16384x16.size a
  hwx1_2 : ∀ i : grid1.Coords, EltTy.bits .bf16 = 32 ∨ (Rect.block (s := S16384x16) S1024x16.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1024.size a ≤ S16x4096.size a
  hwx1_3 : ∀ i : grid1.Coords, EltTy.bits .bf16 = 32 ∨ (Rect.block (s := S16x4096) S16x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S16384x4096.size a
  hwx1_5 : ∀ i : grid1.Coords, EltTy.bits .f32 = 32 ∨ (Rect.block (s := S16384x4096) S1024x1024.size (cc1_transform_5 i) (hinb1_5 i)).WholeWords (EltTy.packing .f32)

variable [Facts₀]

def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S16x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S4x4096x16 : Shape := ⟨3, ![4, 4096, 16]⟩
abbrev S_ : Shape := ⟨0, ![]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x4096x4096, .f32⟩
  | .hbm, ⟨6, _⟩ => ⟨S4x4096x16, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S1x1x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_0_01_1_n_n_wf : DotDims.WF S4x4096x4096 S4096x4096 S4x4096x4096 [2] [0] [0, 1] [1] [] []
  dot_S4x4096x4096_S4096x16_S4x4096x16_2_0_01_1_n_n_wf : DotDims.WF S4x4096x4096 S4096x16 S4x4096x16 [2] [0] [0, 1] [1] [] []
  dot_S4x4096x16_S16x4096_S4x4096x4096_2_0_01_1_n_n_wf : DotDims.WF S4x4096x16 S16x4096 S4x4096x4096 [2] [0] [0, 1] [1] [] []

variable [Facts₀]

def dot_S4x4096x4096_S4096x4096_S4x4096x4096_2_0_01_1_n_n : DotDims S4x4096x4096 S4096x4096 S4x4096x4096 where
  lhsContracting := [2]
  rhsContracting := [0]
  lhsNonContracting := [0, 1]
  rhsNonContracting := [1]
  lhsBatch := []
  rhsBatch := []
  wf := dot_S4x4096x4096_S4096x4096_S4x4096x4096_2_0_01_1_n_n_wf
def dot_S4x4096x4096_S4096x16_S4x4096x16_2_0_01_1_n_n : DotDims S4x4096x4096 S4096x16 S4x4096x16 where
  lhsContracting := [2]
  rhsContracting := [0]
  lhsNonContracting := [0, 1]
  rhsNonContracting := [1]
  lhsBatch := []
  rhsBatch := []
  wf := dot_S4x4096x4096_S4096x16_S4x4096x16_2_0_01_1_n_n_wf
def dot_S4x4096x16_S16x4096_S4x4096x4096_2_0_01_1_n_n : DotDims S4x4096x16 S16x4096 S4x4096x4096 where
  lhsContracting := [2]
  rhsContracting := [0]
  lhsNonContracting := [0, 1]
  rhsNonContracting := [1]
  lhsBatch := []
  rhsBatch := []
  wf := dot_S4x4096x16_S16x4096_S4x4096x4096_2_0_01_1_n_n_wf

class Facts : Prop extends Facts₀ where

variable [Facts]
-- ==== Proof.BitsProjShared.lean ====
import proofs.«123511_j75531294867844_2_alg».proof.Proof.Gen.Kernel.Launch
import proofs.«123511_j75531294867844_2_alg».proof.Proof.Gen.Kernel.Skeleton
import proofs.«123511_j75531294867844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the low-rank projection x·A, accumulated over the four blocks of 1024 columns of x

What the three whole-body runs of this region share. The grid's last coordinate k numbers the column blocks:
at k = 0 the accumulator is zeroed before the block's product is added, at k = 3 the result is stored into the
output block, and at k = 1, 2 only the accumulator changes. Point t of the grid has k = t mod 4. -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the point fetches it or the
    block has not moved since it was fetched, for any proof data over the entry contents that leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block of the array at every point, whether the point fetches it or the
    block has not moved since it was fetched, for any proof data over the entry contents that leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The two conditions of the body, decided over the grid -/

/-- "This is the first column block" (k = 0), as the body computes it from the grid coordinates. -/
abbrev atFirst0 (i : grid0.Coords) : Prop := (Scalar.cmpi .ne (Scalar.extui (Scalar.cmpi .eq (BitVec.ofNat 32 (i 1).val) 0#32)) 0#32) = 1#1
theorem atFirst0_iff : ∀ t : Fin cfg0.N, atFirst0 (grid0.coords t) ↔ t.val % 4 = 0 :=
  (by decide +kernel : ∀ t : Fin grid0.N, atFirst0 (grid0.coords t) ↔ t.val % 4 = 0)
/-- "This is the last column block" (k = 3), as the body computes it. -/
abbrev atLast0 (i : grid0.Coords) : Prop := k0_cond2 i = 1#1
theorem atLast0_iff : ∀ t : Fin cfg0.N, atLast0 (grid0.coords t) ↔ t.val % 4 = 3 :=
  (by decide +kernel : ∀ t : Fin grid0.N, atLast0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from the last column block the output block is neither stored into nor written back. -/
theorem idle0_out : ∀ t : Fin cfg0.N, ¬atLast0 (grid0.coords t) → cfg0.idle 2 (grid0.coords t) = true := by decide +kernel
theorem noFlush0_out : ∀ t : Fin cfg0.N, ¬atLast0 (grid0.coords t) → (cfg0.win 2).flush t = false := by decide +kernel
/-- At the last column block it is stored. -/
theorem live0_out : ∀ t : Fin cfg0.N, atLast0 (grid0.coords t) → cfg0.idle 2 (grid0.coords t) = false := by decide +kernel

/-! ## The memrefs the body is called with -/

/-- One staging buffer of the output window, through which its contents are stated. -/
abbrev viewOut0 : View sig .tc .vmem S1024x16 .bf16 := (Memref.whole cc0_stg2_0 : Memref sig .tc .vmem S1024x16 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x16 .bf16 := win0_2.stage (cfg0.slots t 2)
abbrev hs0_2 (t : Fin cfg0.N) : (ms0_2 t).IsWhole := hstage0_2 ((cfg0.slots t 2).cast nbuf0_2)
/-- The accumulator: a whole scoped buffer of the kernel's own, carried from one point to the next. -/
abbrev scM0 : Memref sig .tc .vmem S1024x16 .f32 := Memref.whole cc0_scratch0
abbrev viewScr0 : View sig .tc .vmem S1024x16 .f32 := scM0.view

/-- The core's scoped buffers this region's windows do not stage, each whole at some contents, with the accumulator's
    place taken by P. -/
def restWith0 (c : Dev nD) (P : sProp 𝕄) : sProp 𝕄 :=
  iprop(P ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region is entered with: the scoped rest with the accumulator at some contents, and the generator register. -/
theorem PhiA0_eq (c : Dev nD) :
    (Pipeline.ΦA spec0 c : sProp 𝕄)
      = iprop(restWith0 c iprop(∃ d, owns (c : Thread nD τ) scM0 fullShare d) ∗ (∃ r, prngReg c r)) := by
  unfold Pipeline.ΦA restWith0; rw [scopedRest0_eq]; simp only [scM0, owns_whole]; try rfl

end Cert.Kernel.Fr

end
-- ==== Proof.BitsProjRunFirst.lean ====
import proofs.«123511_j75531294867844_2_alg».proof.Proof.BitsProjShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 0 at the FIRST column block (k = 0): the accumulator, found at anything, is zeroed and the block's product added; the output block, idle here, is handed back as found. On whole memrefs, the inputs at their contents, the body runs to the continuation holding the
    inputs as they were and the accumulator (at the last block also the output block) with the pieces its stores wrote: the pieces are the witness the run finds. -/
noncomputable def runFirst0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : atFirst0 i) (hlast : ¬atLast0 i)
    (x0 : Vec F S1024x1024 .bf16) (x1 : Vec F S1024x16 .bf16) :
    { LS : List (View.Piece (Elt F) S1024x16 .f32) //
      ∀ (xi : Vec F S1024x16 .bf16) (E : Set ℕ) (K : PUnit → sProp 𝕄),
        iprop(owns (c : Thread nD τ) a0 fullShare x0 ∗ owns (c : Thread nD τ) a1 fullShare x1 ∗ owns (c : Thread nD τ) a2 fullShare xi ∗ (∃ d, owns (c : Thread nD τ) aS fullShare d)
            ∗ (iprop(owns (c : Thread nD τ) a0 fullShare x0 ∗ owns (c : Thread nD τ) a1 fullShare x1 ∗ owns (c : Thread nD τ) a2 fullShare xi ∗ (∃ f, aS.view.loc (c : Thread nD τ) ↦[aS.view.set]{fullShare} aS.view.writes (Elt F) f LS)) -∗ K ⟨⟩))
          ⊢ wp frame (wpE (defs₀ (F := F)) Variants.none c none) E (cc0__xa_kernel i a0 h0 a1 h1 a2 h2 aS hS) K } := by
  refine ⟨?_, fun xi E K => ?run⟩
  case run =>
    simp only [cc0__xa_kernel_eq_skeleton]; unfold cc0__xa_kernel_skel
    unfold owns
    iintro ⟨⟨%f0, %hf0, H0⟩, ⟨%f1, %hf1, H1⟩, ⟨%fO, %hfO, HO⟩, ⟨%dS, %fS, -, HS⟩, Hk⟩
    obtain rfl := h0.eq_unread hf0; obtain rfl := h1.eq_unread hf1; obtain rfl := h2.eq_unread hfO
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [HO]
    · iexists _; isplitr; · ipureintro; exact h2.read_unread _
      iexact HO
    iexists _; iexact HS

end Cert.Kernel.Fr

end
-- ==== Proof.BitsProjRunMid.lean ====
import proofs.«123511_j75531294867844_2_alg».proof.Proof.BitsProjRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 0 at a MIDDLE column block (k = 1, 2): the block's product is added to the accumulator as the point before left it; the output block, idle here, is handed back as found. On whole memrefs, the inputs at their contents, the body runs to the continuation holding the
    inputs as they were and the accumulator (at the last block also the output block) with the pieces its stores wrote: the pieces are the witness the run finds. -/
noncomputable def runMid0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : ¬atLast0 i)
    (x0 : Vec F S1024x1024 .bf16) (x1 : Vec F S1024x16 .bf16) (xs : Vec F S1024x16 .f32) :
    { LS : List (View.Piece (Elt F) S1024x16 .f32) //
      ∀ (xi : Vec F S1024x16 .bf16) (E : Set ℕ) (K : PUnit → sProp 𝕄),
        iprop(owns (c : Thread nD τ) a0 fullShare x0 ∗ owns (c : Thread nD τ) a1 fullShare x1 ∗ owns (c : Thread nD τ) a2 fullShare xi ∗ owns (c : Thread nD τ) aS fullShare xs
            ∗ (iprop(owns (c : Thread nD τ) a0 fullShare x0 ∗ owns (c : Thread nD τ) a1 fullShare x1 ∗ owns (c : Thread nD τ) a2 fullShare xi ∗ (∃ f, aS.view.loc (c : Thread nD τ) ↦[aS.view.set]{fullShare} aS.view.writes (Elt F) f LS)) -∗ K ⟨⟩))
          ⊢ wp frame (wpE (defs₀ (F := F)) Variants.none c none) E (cc0__xa_kernel i a0 h0 a1 h1 a2 h2 aS hS) K } := by
  refine ⟨?_, fun xi E K => ?run⟩
  case run =>
    simp only [cc0__xa_kernel_eq_skeleton]; unfold cc0__xa_kernel_skel
    unfold owns
    iintro ⟨⟨%f0, %hf0, H0⟩, ⟨%f1, %hf1, H1⟩, ⟨%fO, %hfO, HO⟩, ⟨%fS, %hfS, HS⟩, Hk⟩
    obtain rfl := h0.eq_unread hf0; obtain rfl := h1.eq_unread hf1; obtain rfl := h2.eq_unread hfO; obtain rfl := hS.eq_unread hfS
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [HO]
    · iexists _; isplitr; · ipureintro; exact h2.read_unread _
      iexact HO
    iexists _; iexact HS

end Cert.Kernel.Fr

end
-- ==== Proof.BitsProjRunLast.lean ====
import proofs.«123511_j75531294867844_2_alg».proof.Proof.BitsProjRunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 0 at the LAST column block (k = 3): the block's product is added to the accumulator as the point before left it, and the result is stored into the output block, found at anything. On whole memrefs, the inputs at their contents, the body runs to the continuation holding the
    inputs as they were and the accumulator (at the last block also the output block) with the pieces its stores wrote: the pieces are the witness the run finds. -/
noncomputable def runLast0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i)
    (x0 : Vec F S1024x1024 .bf16) (x1 : Vec F S1024x16 .bf16) (xs : Vec F S1024x16 .f32) :
    Σ' (LO : List (View.Piece (Elt F) S1024x16 .bf16)), { LS : List (View.Piece (Elt F) S1024x16 .f32) //
      ∀ (E : Set ℕ) (K : PUnit → sProp 𝕄),
        iprop(owns (c : Thread nD τ) a0 fullShare x0 ∗ owns (c : Thread nD τ) a1 fullShare x1 ∗ (∃ d, owns (c : Thread nD τ) a2 fullShare d) ∗ owns (c : Thread nD τ) aS fullShare xs
            ∗ (iprop(owns (c : Thread nD τ) a0 fullShare x0 ∗ owns (c : Thread nD τ) a1 fullShare x1 ∗ (∃ f, a2.view.loc (c : Thread nD τ) ↦[a2.view.set]{fullShare} a2.view.writes (Elt F) f LO) ∗ (∃ f, aS.view.loc (c : Thread nD τ) ↦[aS.view.set]{fullShare} aS.view.writes (Elt F) f LS)) -∗ K ⟨⟩))
          ⊢ wp frame (wpE (defs₀ (F := F)) Variants.none c none) E (cc0__xa_kernel i a0 h0 a1 h1 a2 h2 aS hS) K } := by
  refine ⟨?_, ?_, fun E K => ?run⟩
  case run =>
    simp only [cc0__xa_kernel_eq_skeleton]; unfold cc0__xa_kernel_skel
    unfold owns
    iintro ⟨⟨%f0, %hf0, H0⟩, ⟨%f1, %hf1, H1⟩, ⟨%dO, %fO, -, HO⟩, ⟨%fS, %hfS, HS⟩, Hk⟩
    obtain rfl := h0.eq_unread hf0; obtain rfl := h1.eq_unread hf1; obtain rfl := hS.eq_unread hfS
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [HO]; · iexists _; iexact HO
    iexists _; iexact HS

end Cert.Kernel.Fr

end
-- ==== Proof.BitsProjFrame.lean ====
import proofs.«123511_j75531294867844_2_alg».proof.Proof.BitsProjRunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the accumulator and the output block hold point by point, the invariant, the proof data and the
    body obligation -/

/-- The first-block run's pieces for the accumulator tile it, so they cover it. -/
theorem scrCoverFirst0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : atFirst0 i) (hlast : ¬atLast0 i) (x0 : Vec F S1024x1024 .bf16) (x1 : Vec F S1024x16 .bf16) (y : S1024x16.Idx) :
    ∃ pc ∈ (runFirst0 c i a0 h0 a1 h1 a2 h2 aS hS hfirst hlast x0 x1).1, y ∈ pc.1.set :=
  View.cover_of_tiledL (runFirst0 c i a0 h0 a1 h1 a2 h2 aS hS hfirst hlast x0 x1).1 S1024x16.size (by sl_kernel_rfl) y
/-- What the first block leaves in the accumulator: its pieces read back. -/
def scrFirst0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : atFirst0 i) (hlast : ¬atLast0 i) (x0 : Vec F S1024x1024 .bf16) (x1 : Vec F S1024x16 .bf16) : Vec F S1024x16 .f32 :=
  viewScr0.read (Elt F) (viewScr0.writes (Elt F) viewScr0.junk (runFirst0 c i a0 h0 a1 h1 a2 h2 aS hS hfirst hlast x0 x1).1)

theorem scrCoverMid0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : ¬atLast0 i) (x0 : Vec F S1024x1024 .bf16) (x1 : Vec F S1024x16 .bf16) (xs : Vec F S1024x16 .f32) (y : S1024x16.Idx) :
    ∃ pc ∈ (runMid0 c i a0 h0 a1 h1 a2 h2 aS hS hfirst hlast x0 x1 xs).1, y ∈ pc.1.set :=
  View.cover_of_tiledL (runMid0 c i a0 h0 a1 h1 a2 h2 aS hS hfirst hlast x0 x1 xs).1 S1024x16.size (by sl_kernel_rfl) y
/-- What a middle block leaves in the accumulator, from what the point before left (xs). -/
def scrMid0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : ¬atLast0 i) (x0 : Vec F S1024x1024 .bf16) (x1 : Vec F S1024x16 .bf16) (xs : Vec F S1024x16 .f32) : Vec F S1024x16 .f32 :=
  viewScr0.read (Elt F) (viewScr0.writes (Elt F) viewScr0.junk (runMid0 c i a0 h0 a1 h1 a2 h2 aS hS hfirst hlast x0 x1 xs).1)

theorem scrCoverLast0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) (y : S1024x16.Idx) :
    ∃ pc ∈ (runLast0 c i a0 h0 a1 h1 a2 h2 aS hS hfirst hlast x0 x1 xs).2.1, y ∈ pc.1.set :=
  View.cover_of_tiledL (runLast0 c i a0 h0 a1 h1 a2 h2 aS hS hfirst hlast x0 x1 xs).2.1 S1024x16.size (by sl_kernel_rfl) y
/-- What the last block leaves in the accumulator. -/
def scrLast0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) : Vec F S1024x16 .f32 :=
  viewScr0.read (Elt F) (viewScr0.writes (Elt F) viewScr0.junk (runLast0 c i a0 h0 a1 h1 a2 h2 aS hS hfirst hlast x0 x1 xs).2.1)
theorem outCover0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) (y : S1024x16.Idx) :
    ∃ pc ∈ (runLast0 c i a0 h0 a1 h1 a2 h2 aS hS hfirst hlast x0 x1 xs).1, y ∈ pc.1.set :=
  View.cover_of_tiledL (runLast0 c i a0 h0 a1 h1 a2 h2 aS hS hfirst hlast x0 x1 xs).1 S1024x16.size (by sl_kernel_rfl) y
/-- What the last block stores into the output block. -/
def outLast0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) : Vec F S1024x16 .bf16 :=
  viewOut0.read (Elt F) (viewOut0.writes (Elt F) viewOut0.junk (runLast0 c i a0 h0 a1 h1 a2 h2 aS hS hfirst hlast x0 x1 xs).1)

/-! ## The accumulation -/

/-- What the accumulator holds after the body at position n: at a first block (n ≡ 0 mod 4) the first-block run's result,
    otherwise the middle or last run's over what position n - 1 left. -/
def accAt0 (c : Dev nD) : (n : ℕ) → n < cfg0.N → Vec F S1024x16 .f32
  | 0, hn => scrFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((atFirst0_iff ⟨0, hn⟩).mpr (Nat.zero_mod _)) (fun h => (fun h' => by (try dsimp only at h'); omega) ((atLast0_iff ⟨0, hn⟩).mp h)) (blk0 V c 0 ⟨0, hn⟩) (blk0 V c 1 ⟨0, hn⟩)
  | n + 1, hn =>
    if h0 : (n + 1) % 4 = 0 then
      scrFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((atFirst0_iff ⟨n + 1, hn⟩).mpr h0) (fun h => (fun h' => by (try dsimp only at h'); omega) ((atLast0_iff ⟨n + 1, hn⟩).mp h)) (blk0 V c 0 ⟨n + 1, hn⟩) (blk0 V c 1 ⟨n + 1, hn⟩)
    else if h3 : (n + 1) % 4 = 3 then
      scrLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((atFirst0_iff ⟨n + 1, hn⟩).mp h)) ((atLast0_iff ⟨n + 1, hn⟩).mpr h3) (blk0 V c 0 ⟨n + 1, hn⟩) (blk0 V c 1 ⟨n + 1, hn⟩) (accAt0 c n (Nat.lt_of_succ_lt hn))
    else
      scrMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((atFirst0_iff ⟨n + 1, hn⟩).mp h)) (fun h => h3 ((atLast0_iff ⟨n + 1, hn⟩).mp h)) (blk0 V c 0 ⟨n + 1, hn⟩) (blk0 V c 1 ⟨n + 1, hn⟩) (accAt0 c n (Nat.lt_of_succ_lt hn))

theorem accAt0_first (c : Dev nD) (t : Fin cfg0.N) (h0 : t.val % 4 = 0) (hF : atFirst0 (grid0.coords t)) (hL : ¬atLast0 (grid0.coords t)) :
    accAt0 V c t.val t.isLt = scrFirst0 c (grid0.coords t) (ms0_0 t) (hs0_0 t) (ms0_1 t) (hs0_1 t) (ms0_2 t) (hs0_2 t) scM0 (Memref.isWhole_whole _) hF hL (blk0 V c 0 t) (blk0 V c 1 t) := by
  obtain ⟨n, hn⟩ := t
  cases n with
  | zero => exact rfl
  | succ n => exact (dif_pos h0).trans rfl

theorem accAt0_last (c : Dev nD) (t : Fin cfg0.N) (h0 : ¬t.val % 4 = 0) (h3 : t.val % 4 = 3) (hF : ¬atFirst0 (grid0.coords t)) (hL : atLast0 (grid0.coords t)) :
    accAt0 V c t.val t.isLt = scrLast0 c (grid0.coords t) (ms0_0 t) (hs0_0 t) (ms0_1 t) (hs0_1 t) (ms0_2 t) (hs0_2 t) scM0 (Memref.isWhole_whole _) hF hL (blk0 V c 0 t) (blk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

theorem accAt0_mid (c : Dev nD) (t : Fin cfg0.N) (h0 : ¬t.val % 4 = 0) (h3 : ¬t.val % 4 = 3) (hF : ¬atFirst0 (grid0.coords t)) (hL : ¬atLast0 (grid0.coords t)) :
    accAt0 V c t.val t.isLt = scrMid0 c (grid0.coords t) (ms0_0 t) (hs0_0 t) (ms0_1 t) (hs0_1 t) (ms0_2 t) (hs0_2 t) scM0 (Memref.isWhole_whole _) hF hL (blk0 V c 0 t) (blk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

/-- What the output window's staging buffer holds after the body at point t: at a last block what that run stores, over the
    accumulator as the point before left it; elsewhere the window is idle and this value is never consulted. -/
def outAt0 (c : Dev nD) (t : Fin cfg0.N) : Vec F S1024x16 .bf16 :=
  if h3 : t.val % 4 = 3 then
    outLast0 c (grid0.coords t) (ms0_0 t) (hs0_0 t) (ms0_1 t) (hs0_1 t) (ms0_2 t) (hs0_2 t) scM0 (Memref.isWhole_whole _) (fun h => (fun h' => by (try dsimp only at h'); omega) ((atFirst0_iff t).mp h)) ((atLast0_iff t).mpr h3) (blk0 V c 0 t) (blk0 V c 1 t) (accAt0 V c (t.val - 1) (Nat.lt_of_le_of_lt (Nat.sub_le _ _) t.isLt))
  else viewOut0.read (Elt F) viewOut0.junk

theorem outAt0_last (c : Dev nD) (t : Fin cfg0.N) (h3 : t.val % 4 = 3) (hF : ¬atFirst0 (grid0.coords t)) (hL : atLast0 (grid0.coords t)) :
    outAt0 V c t = outLast0 c (grid0.coords t) (ms0_0 t) (hs0_0 t) (ms0_1 t) (hs0_1 t) (ms0_2 t) (hs0_2 t) scM0 (Memref.isWhole_whole _) hF hL (blk0 V c 0 t) (blk0 V c 1 t) (accAt0 V c (t.val - 1) (Nat.lt_of_le_of_lt (Nat.sub_le _ _) t.isLt)) :=
  dif_pos h3

/-! ## The region invariant -/

/-- Before position n: at the region's entry the scoped rest at anything; afterwards the scoped rest with the accumulator at
    what position n - 1 left in it; the generator register at some state throughout. -/
def inv0 (c : Dev nD) : (n : ℕ) → n ≤ cfg0.N → sProp 𝕄
  | 0, _ => Pipeline.ΦA spec0 c
  | n + 1, hn => iprop(restWith0 c (owns (c : Thread nD τ) scM0 fullShare (accAt0 V c n hn)) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(restWith0 c (owns (c : Thread nD τ) scM0 fullShare (accAt0 V c n hn)) ∗ (∃ r, prngReg c r)) := rfl
theorem inv0_pos (c : Dev nD) (n : ℕ) (h : n ≤ cfg0.N) (hz : n ≠ 0) :
    inv0 V c n h = iprop(restWith0 c (owns (c : Thread nD τ) scM0 fullShare (accAt0 V c (n - 1) (by omega))) ∗ (∃ r, prngReg c r)) := by
  cases n with
  | zero => exact absurd rfl hz
  | succ n => rfl

/-! ## The proof data -/

/-- The region's proof data on core c: the arrays as the region finds them; after the body at point t each input's buffer at
    its block and the output's at outAt; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => outAt0 V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = outAt0 V c t := by dsimp only [dat0]
theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's position mod 4 says which run applies; the invariant
    hands the body the accumulator at what the point before left (at anything at the very first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 4 = 0
  · have hF : atFirst0 (grid0.coords t) := (atFirst0_iff t).mpr h0
    have hL : ¬atLast0 (grid0.coords t) := fun h => by have h' := (atLast0_iff t).mp h; omega
    rw [Dat.leavesExact_idle (dat0 V c) 2 t (idle0_out t hL) (noFlush0_out t hL)]
    rw [accAt0_first V c t h0 hF hL]
    unfold scrFirst0; (try dsimp only)
    by_cases hz : t.val = 0
    ·
      rw [inv0_castSucc V c t, inv0_zero V c _ _ hz, PhiA0_eq]
      unfold restWith0
      iintro ⟨⟨⟨HS, HT⟩, Hg⟩, Ho, ⟨%d0, H0⟩, ⟨%d1, H1⟩, ⟨%d2, H2⟩⟩
      iapply ((runFirst0 c (grid0.coords t) _ _ _ _ _ _ _ _ hF hL (blk0 V c 0 t) (blk0 V c 1 t)).2 _ Set.univ _)
      isplitl [H0]; · iexact H0
      isplitl [H1]; · iexact H1
      isplitl [H2]; · iexact H2
      isplitl [HS]; · iexact HS
      iintro ⟨H0, H1, H2, ⟨%eS, HS⟩⟩
      isplitl [HS HT Hg]
      · isplitl [HS HT]
        ·
          isplitl [HS]
          · unfold owns; iexists _; isplitr
            swap; · iexact HS
            ipureintro; exact View.read_writes_of_cover _ _ _ _ _ (scrCoverFirst0 c _ _ _ _ _ _ _ _ _ _ _ _ _)
          iexact HT
        iexact Hg
      isplitl [Ho]; · iexact Ho
      isplitl [H0]; · iexact H0
      isplitl [H1]; · iexact H1
      iexists _; iexact H2
    ·
      rw [inv0_castSucc V c t, inv0_pos V c _ _ hz]
      unfold restWith0
      iintro ⟨⟨⟨HS, HT⟩, Hg⟩, Ho, ⟨%d0, H0⟩, ⟨%d1, H1⟩, ⟨%d2, H2⟩⟩
      iapply ((runFirst0 c (grid0.coords t) _ _ _ _ _ _ _ _ hF hL (blk0 V c 0 t) (blk0 V c 1 t)).2 _ Set.univ _)
      isplitl [H0]; · iexact H0
      isplitl [H1]; · iexact H1
      isplitl [H2]; · iexact H2
      isplitl [HS]; · iexists _; iexact HS
      iintro ⟨H0, H1, H2, ⟨%eS, HS⟩⟩
      isplitl [HS HT Hg]
      · isplitl [HS HT]
        ·
          isplitl [HS]
          · unfold owns; iexists _; isplitr
            swap; · iexact HS
            ipureintro; exact View.read_writes_of_cover _ _ _ _ _ (scrCoverFirst0 c _ _ _ _ _ _ _ _ _ _ _ _ _)
          iexact HT
        iexact Hg
      isplitl [Ho]; · iexact Ho
      isplitl [H0]; · iexact H0
      isplitl [H1]; · iexact H1
      iexists _; iexact H2
  · have hF : ¬atFirst0 (grid0.coords t) := fun h => h0 ((atFirst0_iff t).mp h)
    have hz : t.val ≠ 0 := fun h => h0 (by rw [h])
    by_cases h3 : t.val % 4 = 3
    · have hL : atLast0 (grid0.coords t) := (atLast0_iff t).mpr h3
      rw [show (dat0 V c).leavesExact 2 t = owns (c : Thread nD τ) (ms0_2 t) fullShare ((dat0 V c).after 2 t) from by
        unfold Dat.leavesExact; rw [live0_out t hL], after0_2]
      rw [outAt0_last V c t h3 hF hL, accAt0_last V c t h0 h3 hF hL]
      unfold outLast0 scrLast0; (try dsimp only)
      rw [inv0_castSucc V c t, inv0_pos V c _ _ hz]
      unfold restWith0
      iintro ⟨⟨⟨HS, HT⟩, Hg⟩, Ho, ⟨%d0, H0⟩, ⟨%d1, H1⟩, ⟨%d2, H2⟩⟩
      iapply ((runLast0 c (grid0.coords t) _ _ _ _ _ _ _ _ hF hL (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%eO, H2⟩, ⟨%eS, HS⟩⟩
      isplitl [HS HT Hg]
      · isplitl [HS HT]
        ·
          isplitl [HS]
          · unfold owns; iexists _; isplitr
            swap; · iexact HS
            ipureintro; exact View.read_writes_of_cover _ _ _ _ _ (scrCoverLast0 c _ _ _ _ _ _ _ _ _ _ _ _ _ _)
          iexact HT
        iexact Hg
      isplitl [Ho]; · iexact Ho
      isplitl [H0]; · iexact H0
      isplitl [H1]; · iexact H1
      unfold owns; iexists _; isplitr
      swap; · iexact H2
      ipureintro; exact View.read_writes_of_cover _ _ _ _ _ (outCover0 c _ _ _ _ _ _ _ _ _ _ _ _ _ _)
    · have hL : ¬atLast0 (grid0.coords t) := fun h => h3 ((atLast0_iff t).mp h)
      rw [Dat.leavesExact_idle (dat0 V c) 2 t (idle0_out t hL) (noFlush0_out t hL)]
      rw [accAt0_mid V c t h0 h3 hF hL]
      unfold scrMid0; (try dsimp only)
      rw [inv0_castSucc V c t, inv0_pos V c _ _ hz]
      unfold restWith0
      iintro ⟨⟨⟨HS, HT⟩, Hg⟩, Ho, ⟨%d0, H0⟩, ⟨%d1, H1⟩, ⟨%d2, H2⟩⟩
      iapply ((runMid0 c (grid0.coords t) _ _ _ _ _ _ _ _ hF hL (blk0 V c 0 t) (blk0 V c 1 t) _).2 _ Set.univ _)
      isplitl [H0]; · iexact H0
      isplitl [H1]; · iexact H1
      isplitl [H2]; · iexact H2
      isplitl [HS]; · iexact HS
      iintro ⟨H0, H1, H2, ⟨%eS, HS⟩⟩
      isplitl [HS HT Hg]
      · isplitl [HS HT]
        ·
          isplitl [HS]
          · unfold owns; iexists _; isplitr
            swap; · iexact HS
            ipureintro; exact View.read_writes_of_cover _ _ _ _ _ (scrCoverMid0 c _ _ _ _ _ _ _ _ _ _ _ _ _ _)
          iexact HT
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point the invariant gives the entry form back: the accumulator's contents are forgotten. -/
theorem inv0_out (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, PhiA0_eq]
  unfold restWith0
  iintro ⟨⟨HS, HT⟩, Hg⟩
  isplitl [HS HT]
  ·
    isplitl [HS]
    · iexists _; iexact HS
    iexact HT
  iexact Hg

theorem inv0_last (c : Dev nD) : (dat0 V c).Φ (Fin.last cfg0.N) ⊢ Pipeline.ΦA spec0 c :=
  inv0_out V c _ (by rw [Fin.val_last]; have : cfg0.N = 64 := N_0; omega)

end Cert.Kernel.Fr

end
-- ==== Proof.BitsDenseShared.lean ====
import proofs.«123511_j75531294867844_2_alg».proof.Proof.Gen.Kernel.Launch
import proofs.«123511_j75531294867844_2_alg».proof.Proof.Gen.Kernel.Skeleton
import proofs.«123511_j75531294867844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the dense product x·W accumulated over the four blocks of 1024 columns of x, the low-rank correction and the bias added at the last block

What the three whole-body runs of this region share. The grid's last coordinate k numbers the column blocks:
at k = 0 the accumulator is zeroed before the block's product is added, at k = 3 the result is stored into the
output block, and at k = 1, 2 only the accumulator changes. Point t of the grid has k = t mod 4. -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether the point fetches it or the
    block has not moved since it was fetched, for any proof data over the entry contents that leaves the block in place. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block of the array at every point, whether the point fetches it or the
    block has not moved since it was fetched, for any proof data over the entry contents that leaves the block in place. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block of the array at every point, whether the point fetches it or the
    block has not moved since it was fetched, for any proof data over the entry contents that leaves the block in place. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds its block of the array at every point, whether the point fetches it or the
    block has not moved since it was fetched, for any proof data over the entry contents that leaves the block in place. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current staging buffer holds its block of the array at every point, whether the point fetches it or the
    block has not moved since it was fetched, for any proof data over the entry contents that leaves the block in place. -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, decided over the grid -/

/-- "This is the first column block" (k = 0), as the body computes it from the grid coordinates. -/
abbrev atFirst1 (i : grid1.Coords) : Prop := (Scalar.cmpi .ne (Scalar.extui (Scalar.cmpi .eq (BitVec.ofNat 32 (i 2).val) 0#32)) 0#32) = 1#1
theorem atFirst1_iff : ∀ t : Fin cfg1.N, atFirst1 (grid1.coords t) ↔ t.val % 4 = 0 :=
  (by decide +kernel : ∀ t : Fin grid1.N, atFirst1 (grid1.coords t) ↔ t.val % 4 = 0)
/-- "This is the last column block" (k = 3), as the body computes it. -/
abbrev atLast1 (i : grid1.Coords) : Prop := k1_cond2 i = 1#1
theorem atLast1_iff : ∀ t : Fin cfg1.N, atLast1 (grid1.coords t) ↔ t.val % 4 = 3 :=
  (by decide +kernel : ∀ t : Fin grid1.N, atLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Away from the last column block the output block is neither stored into nor written back. -/
theorem idle1_out : ∀ t : Fin cfg1.N, ¬atLast1 (grid1.coords t) → cfg1.idle 5 (grid1.coords t) = true := by decide +kernel
theorem noFlush1_out : ∀ t : Fin cfg1.N, ¬atLast1 (grid1.coords t) → (cfg1.win 5).flush t = false := by decide +kernel
/-- At the last column block it is stored. -/
theorem live1_out : ∀ t : Fin cfg1.N, atLast1 (grid1.coords t) → cfg1.idle 5 (grid1.coords t) = false := by decide +kernel

/-! ## The memrefs the body is called with -/

/-- One staging buffer of the output window, through which its contents are stated. -/
abbrev viewOut1 : View sig .tc .vmem S1024x1024 .f32 := (Memref.whole cc1_stg5_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x16 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from one point to the next. -/
abbrev scM1 : Memref sig .tc .vmem S1024x1024 .f32 := Memref.whole cc1_scratch0
abbrev viewScr1 : View sig .tc .vmem S1024x1024 .f32 := scM1.view

/-- The core's scoped buffers this region's windows do not stage, each whole at some contents, with the accumulator's
    place taken by P. -/
def restWith1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P)

/-- What the region is entered with: the scoped rest with the accumulator at some contents, and the generator register. -/
theorem PhiA1_eq (c : Dev nD) :
    (Pipeline.ΦA spec1 c : sProp 𝕄)
      = iprop(restWith1 c iprop(∃ d, owns (c : Thread nD τ) scM1 fullShare d) ∗ (∃ r, prngReg c r)) := by
  unfold Pipeline.ΦA restWith1; rw [scopedRest1_eq]; simp only [scM1, owns_whole]; try rfl

end Cert.Kernel.Fr

end
-- ==== Proof.BitsDenseRunFirst.lean ====
import proofs.«123511_j75531294867844_2_alg».proof.Proof.BitsDenseShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 1 at the FIRST column block (k = 0): the accumulator, found at anything, is zeroed and the block's product added; the output block, idle here, is handed back as found. On whole memrefs, the inputs at their contents, the body runs to the continuation holding the
    inputs as they were and the accumulator (at the last block also the output block) with the pieces its stores wrote: the pieces are the witness the run finds. -/
noncomputable def runFirst1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : atFirst1 i) (hlast : ¬atLast1 i)
    (x0 : Vec F S1024x1024 .bf16) (x1 : Vec F S1024x1024 .bf16) (x2 : Vec F S1024x16 .bf16) (x3 : Vec F S16x1024 .bf16) (x4 : Vec F S1x1024 .f32) :
    { LS : List (View.Piece (Elt F) S1024x1024 .f32) //
      ∀ (xi : Vec F S1024x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xi ∗ (∃ d, owns (c : Thread nD τ) aS fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xi ∗ (∃ f, aS.view.loc (c : Thread nD τ) ↦[aS.view.set]{fullShare} aS.view.writes (Elt F) f LS)) -∗ K ⟨⟩))
          ⊢ wp frame (wpE (defs₀ (F := F)) Variants.none c none) E (cc1__main_kernel i a0 h0 a1 h1 a2 h2 a3 h3 a4 h4 a5 h5 aS hS) K } := by
  refine ⟨?_, fun xi E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%dS, %fS, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hfO
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HO]
    · iexists _; isplitr; · ipureintro; exact h5.read_unread _
      iexact HO
    iexists _; iexact HS

end Cert.Kernel.Fr

end
-- ==== Proof.BitsDenseRunMid.lean ====
import proofs.«123511_j75531294867844_2_alg».proof.Proof.BitsDenseRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 1 at a MIDDLE column block (k = 1, 2): the block's product is added to the accumulator as the point before left it; the output block, idle here, is handed back as found. On whole memrefs, the inputs at their contents, the body runs to the continuation holding the
    inputs as they were and the accumulator (at the last block also the output block) with the pieces its stores wrote: the pieces are the witness the run finds. -/
noncomputable def runMid1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : ¬atLast1 i)
    (x0 : Vec F S1024x1024 .bf16) (x1 : Vec F S1024x1024 .bf16) (x2 : Vec F S1024x16 .bf16) (x3 : Vec F S16x1024 .bf16) (x4 : Vec F S1x1024 .f32) (xs : Vec F S1024x1024 .f32) :
    { LS : List (View.Piece (Elt F) S1024x1024 .f32) //
      ∀ (xi : Vec F S1024x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xi ∗ owns (c : Thread nD τ) aS fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xi ∗ (∃ f, aS.view.loc (c : Thread nD τ) ↦[aS.view.set]{fullShare} aS.view.writes (Elt F) f LS)) -∗ K ⟨⟩))
          ⊢ wp frame (wpE (defs₀ (F := F)) Variants.none c none) E (cc1__main_kernel i a0 h0 a1 h1 a2 h2 a3 h3 a4 h4 a5 h5 aS hS) K } := by
  refine ⟨?_, fun xi E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fS, %hfS, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hfO; obtain rfl := hS.eq_unread hfS
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HO]
    · iexists _; isplitr; · ipureintro; exact h5.read_unread _
      iexact HO
    iexists _; iexact HS

end Cert.Kernel.Fr

end
-- ==== Proof.BitsDenseRunLast.lean ====
import proofs.«123511_j75531294867844_2_alg».proof.Proof.BitsDenseRunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 1 at the LAST column block (k = 3): the block's product is added to the accumulator as the point before left it, and the result is stored into the output block, found at anything. On whole memrefs, the inputs at their contents, the body runs to the continuation holding the
    inputs as they were and the accumulator (at the last block also the output block) with the pieces its stores wrote: the pieces are the witness the run finds. -/
noncomputable def runLast1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i)
    (x0 : Vec F S1024x1024 .bf16) (x1 : Vec F S1024x1024 .bf16) (x2 : Vec F S1024x16 .bf16) (x3 : Vec F S16x1024 .bf16) (x4 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ owns (c : Thread nD τ) aS fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f LO) ∗ (∃ f, aS.view.loc (c : Thread nD τ) ↦[aS.view.set]{fullShare} aS.view.writes (Elt F) f LS)) -∗ K ⟨⟩))
          ⊢ wp frame (wpE (defs₀ (F := F)) Variants.none c none) E (cc1__main_kernel i a0 h0 a1 h1 a2 h2 a3 h3 a4 h4 a5 h5 aS hS) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fS, %hfS, HS⟩, Hk⟩
    obtain rfl := h0.eq_unread hf0; obtain rfl := h1.eq_unread hf1; obtain rfl := h2.eq_unread hf2; obtain rfl := h3.eq_unread hf3; obtain rfl := h4.eq_unread hf4; obtain rfl := hS.eq_unread hfS
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HO]; · iexists _; iexact HO
    iexists _; iexact HS

end Cert.Kernel.Fr

end
-- ==== Proof.BitsDenseFrame.lean ====
import proofs.«123511_j75531294867844_2_alg».proof.Proof.BitsDenseRunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the accumulator and the output block hold point by point, the invariant, the proof data and the
    body obligation -/

/-- The first-block run's pieces for the accumulator tile it, so they cover it. -/
theorem scrCoverFirst1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : atFirst1 i) (hlast : ¬atLast1 i) (x0 : Vec F S1024x1024 .bf16) (x1 : Vec F S1024x1024 .bf16) (x2 : Vec F S1024x16 .bf16) (x3 : Vec F S16x1024 .bf16) (x4 : Vec F S1x1024 .f32) (y : S1024x1024.Idx) :
    ∃ pc ∈ (runFirst1 c i a0 h0 a1 h1 a2 h2 a3 h3 a4 h4 a5 h5 aS hS hfirst hlast x0 x1 x2 x3 x4).1, y ∈ pc.1.set :=
  View.cover_of_tiledL (runFirst1 c i a0 h0 a1 h1 a2 h2 a3 h3 a4 h4 a5 h5 aS hS hfirst hlast x0 x1 x2 x3 x4).1 S1024x1024.size (by sl_kernel_rfl) y
/-- What the first block leaves in the accumulator: its pieces read back. -/
def scrFirst1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : atFirst1 i) (hlast : ¬atLast1 i) (x0 : Vec F S1024x1024 .bf16) (x1 : Vec F S1024x1024 .bf16) (x2 : Vec F S1024x16 .bf16) (x3 : Vec F S16x1024 .bf16) (x4 : Vec F S1x1024 .f32) : Vec F S1024x1024 .f32 :=
  viewScr1.read (Elt F) (viewScr1.writes (Elt F) viewScr1.junk (runFirst1 c i a0 h0 a1 h1 a2 h2 a3 h3 a4 h4 a5 h5 aS hS hfirst hlast x0 x1 x2 x3 x4).1)

theorem scrCoverMid1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : ¬atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) (y : S1024x1024.Idx) :
    ∃ pc ∈ (runMid1 c i a0 h0 a1 h1 a2 h2 a3 h3 a4 h4 a5 h5 aS hS hfirst hlast x0 x1 x2 x3 x4 xs).1, y ∈ pc.1.set :=
  View.cover_of_tiledL (runMid1 c i a0 h0 a1 h1 a2 h2 a3 h3 a4 h4 a5 h5 aS hS hfirst hlast x0 x1 x2 x3 x4 xs).1 S1024x1024.size (by sl_kernel_rfl) y
/-- What a middle block leaves in the accumulator, from what the point before left (xs). -/
def scrMid1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : ¬atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) : Vec F S1024x1024 .f32 :=
  viewScr1.read (Elt F) (viewScr1.writes (Elt F) viewScr1.junk (runMid1 c i a0 h0 a1 h1 a2 h2 a3 h3 a4 h4 a5 h5 aS hS hfirst hlast x0 x1 x2 x3 x4 xs).1)

theorem scrCoverLast1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) (y : S1024x1024.Idx) :
    ∃ pc ∈ (runLast1 c i a0 h0 a1 h1 a2 h2 a3 h3 a4 h4 a5 h5 aS hS hfirst hlast x0 x1 x2 x3 x4 xs).2.1, y ∈ pc.1.set :=
  View.cover_of_tiledL (runLast1 c i a0 h0 a1 h1 a2 h2 a3 h3 a4 h4 a5 h5 aS hS hfirst hlast x0 x1 x2 x3 x4 xs).2.1 S1024x1024.size (by sl_kernel_rfl) y
/-- What the last block leaves in the accumulator. -/
def scrLast1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) : Vec F S1024x1024 .f32 :=
  viewScr1.read (Elt F) (viewScr1.writes (Elt F) viewScr1.junk (runLast1 c i a0 h0 a1 h1 a2 h2 a3 h3 a4 h4 a5 h5 aS hS hfirst hlast x0 x1 x2 x3 x4 xs).2.1)
theorem outCover1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) (y : S1024x1024.Idx) :
    ∃ pc ∈ (runLast1 c i a0 h0 a1 h1 a2 h2 a3 h3 a4 h4 a5 h5 aS hS hfirst hlast x0 x1 x2 x3 x4 xs).1, y ∈ pc.1.set :=
  View.cover_of_tiledL (runLast1 c i a0 h0 a1 h1 a2 h2 a3 h3 a4 h4 a5 h5 aS hS hfirst hlast x0 x1 x2 x3 x4 xs).1 S1024x1024.size (by sl_kernel_rfl) y
/-- What the last block stores into the output block. -/
def outLast1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) : Vec F S1024x1024 .f32 :=
  viewOut1.read (Elt F) (viewOut1.writes (Elt F) viewOut1.junk (runLast1 c i a0 h0 a1 h1 a2 h2 a3 h3 a4 h4 a5 h5 aS hS hfirst hlast x0 x1 x2 x3 x4 xs).1)

/-! ## The accumulation -/

/-- What the accumulator holds after the body at position n: at a first block (n ≡ 0 mod 4) the first-block run's result,
    otherwise the middle or last run's over what position n - 1 left. -/
def accAt1 (c : Dev nD) : (n : ℕ) → n < cfg1.N → Vec F S1024x1024 .f32
  | 0, hn => scrFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((atFirst1_iff ⟨0, hn⟩).mpr (Nat.zero_mod _)) (fun h => (fun h' => by (try dsimp only at h'); omega) ((atLast1_iff ⟨0, hn⟩).mp h)) (blk1 V c 0 ⟨0, hn⟩) (blk1 V c 1 ⟨0, hn⟩) (blk1 V c 2 ⟨0, hn⟩) (blk1 V c 3 ⟨0, hn⟩) (blk1 V c 4 ⟨0, hn⟩)
  | n + 1, hn =>
    if h0 : (n + 1) % 4 = 0 then
      scrFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((atFirst1_iff ⟨n + 1, hn⟩).mpr h0) (fun h => (fun h' => by (try dsimp only at h'); omega) ((atLast1_iff ⟨n + 1, hn⟩).mp h)) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩)
    else if h3 : (n + 1) % 4 = 3 then
      scrLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((atFirst1_iff ⟨n + 1, hn⟩).mp h)) ((atLast1_iff ⟨n + 1, hn⟩).mpr h3) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (accAt1 c n (Nat.lt_of_succ_lt hn))
    else
      scrMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((atFirst1_iff ⟨n + 1, hn⟩).mp h)) (fun h => h3 ((atLast1_iff ⟨n + 1, hn⟩).mp h)) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (accAt1 c n (Nat.lt_of_succ_lt hn))

theorem accAt1_first (c : Dev nD) (t : Fin cfg1.N) (h0 : t.val % 4 = 0) (hF : atFirst1 (grid1.coords t)) (hL : ¬atLast1 (grid1.coords t)) :
    accAt1 V c t.val t.isLt = scrFirst1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hF hL (blk1 V c 0 t) (blk1 V c 1 t) (blk1 V c 2 t) (blk1 V c 3 t) (blk1 V c 4 t) := by
  obtain ⟨n, hn⟩ := t
  cases n with
  | zero => exact rfl
  | succ n => exact (dif_pos h0).trans rfl

theorem accAt1_last (c : Dev nD) (t : Fin cfg1.N) (h0 : ¬t.val % 4 = 0) (h3 : t.val % 4 = 3) (hF : ¬atFirst1 (grid1.coords t)) (hL : atLast1 (grid1.coords t)) :
    accAt1 V c t.val t.isLt = scrLast1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hF hL (blk1 V c 0 t) (blk1 V c 1 t) (blk1 V c 2 t) (blk1 V c 3 t) (blk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

theorem accAt1_mid (c : Dev nD) (t : Fin cfg1.N) (h0 : ¬t.val % 4 = 0) (h3 : ¬t.val % 4 = 3) (hF : ¬atFirst1 (grid1.coords t)) (hL : ¬atLast1 (grid1.coords t)) :
    accAt1 V c t.val t.isLt = scrMid1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hF hL (blk1 V c 0 t) (blk1 V c 1 t) (blk1 V c 2 t) (blk1 V c 3 t) (blk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

/-- What the output window's staging buffer holds after the body at point t: at a last block what that run stores, over the
    accumulator as the point before left it; elsewhere the window is idle and this value is never consulted. -/
def outAt1 (c : Dev nD) (t : Fin cfg1.N) : Vec F S1024x1024 .f32 :=
  if h3 : t.val % 4 = 3 then
    outLast1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => (fun h' => by (try dsimp only at h'); omega) ((atFirst1_iff t).mp h)) ((atLast1_iff t).mpr h3) (blk1 V c 0 t) (blk1 V c 1 t) (blk1 V c 2 t) (blk1 V c 3 t) (blk1 V c 4 t) (accAt1 V c (t.val - 1) (Nat.lt_of_le_of_lt (Nat.sub_le _ _) t.isLt))
  else viewOut1.read (Elt F) viewOut1.junk

theorem outAt1_last (c : Dev nD) (t : Fin cfg1.N) (h3 : t.val % 4 = 3) (hF : ¬atFirst1 (grid1.coords t)) (hL : atLast1 (grid1.coords t)) :
    outAt1 V c t = outLast1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hF hL (blk1 V c 0 t) (blk1 V c 1 t) (blk1 V c 2 t) (blk1 V c 3 t) (blk1 V c 4 t) (accAt1 V c (t.val - 1) (Nat.lt_of_le_of_lt (Nat.sub_le _ _) t.isLt)) :=
  dif_pos h3

/-! ## The region invariant -/

/-- Before position n: at the region's entry the scoped rest at anything; afterwards the scoped rest with the accumulator at
    what position n - 1 left in it; the generator register at some state throughout. -/
def inv1 (c : Dev nD) : (n : ℕ) → n ≤ cfg1.N → sProp 𝕄
  | 0, _ => Pipeline.ΦA spec1 c
  | n + 1, hn => iprop(restWith1 c (owns (c : Thread nD τ) scM1 fullShare (accAt1 V c n hn)) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop(restWith1 c (owns (c : Thread nD τ) scM1 fullShare (accAt1 V c n hn)) ∗ (∃ r, prngReg c r)) := rfl
theorem inv1_pos (c : Dev nD) (n : ℕ) (h : n ≤ cfg1.N) (hz : n ≠ 0) :
    inv1 V c n h = iprop(restWith1 c (owns (c : Thread nD τ) scM1 fullShare (accAt1 V c (n - 1) (by omega))) ∗ (∃ r, prngReg c r)) := by
  cases n with
  | zero => exact absurd rfl hz
  | succ n => rfl

/-! ## The proof data -/

/-- The region's proof data on core c: the arrays as the region finds them; after the body at point t each input's buffer at
    its block and the output's at outAt; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outAt1 V c t
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem inv1_castSucc (c : Dev nD) (t : Fin cfg1.N) :
    (dat1 V c).Φ t.castSucc = inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = outAt1 V c t := by dsimp only [dat1]
theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d
theorem held1_2 (c : Dev nD) (t : Fin cfg1.N) (d) : (dat1 V c).before 2 t d = blk1 V c 2 t :=
  held1_2_of V (dat1 V c) (A_eq1 V c 2) (after1_2 V c) t d
theorem held1_3 (c : Dev nD) (t : Fin cfg1.N) (d) : (dat1 V c).before 3 t d = blk1 V c 3 t :=
  held1_3_of V (dat1 V c) (A_eq1 V c 3) (after1_3 V c) t d
theorem held1_4 (c : Dev nD) (t : Fin cfg1.N) (d) : (dat1 V c).before 4 t d = blk1 V c 4 t :=
  held1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's position mod 4 says which run applies; the invariant
    hands the body the accumulator at what the point before left (at anything at the very first point) and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  by_cases h0 : t.val % 4 = 0
  · have hF : atFirst1 (grid1.coords t) := (atFirst1_iff t).mpr h0
    have hL : ¬atLast1 (grid1.coords t) := fun h => by have h' := (atLast1_iff t).mp h; omega
    rw [Dat.leavesExact_idle (dat1 V c) 5 t (idle1_out t hL) (noFlush1_out t hL)]
    rw [accAt1_first V c t h0 hF hL]
    unfold scrFirst1; (try dsimp only)
    by_cases hz : t.val = 0
    ·
      rw [inv1_castSucc V c t, inv1_zero V c _ _ hz, PhiA1_eq]
      unfold restWith1
      iintro ⟨⟨⟨HR0, HR1, HR2, HR3, HR4, HR5, HR6, HS⟩, Hg⟩, Ho, ⟨%d0, H0⟩, ⟨%d1, H1⟩, ⟨%d2, H2⟩, ⟨%d3, H3⟩, ⟨%d4, H4⟩, ⟨%d5, H5⟩⟩
      iapply ((runFirst1 c (grid1.coords t) _ _ _ _ _ _ _ _ _ _ _ _ _ _ hF hL (blk1 V c 0 t) (blk1 V c 1 t) (blk1 V c 2 t) (blk1 V c 3 t) (blk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%eS, HS⟩⟩
      isplitl [HR0 HR1 HR2 HR3 HR4 HR5 HR6 HS Hg]
      · isplitl [HR0 HR1 HR2 HR3 HR4 HR5 HR6 HS]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS
          ipureintro; exact View.read_writes_of_cover _ _ _ _ _ (scrCoverFirst1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [inv1_castSucc V c t, inv1_pos V c _ _ hz]
      unfold restWith1
      iintro ⟨⟨⟨HR0, HR1, HR2, HR3, HR4, HR5, HR6, HS⟩, Hg⟩, Ho, ⟨%d0, H0⟩, ⟨%d1, H1⟩, ⟨%d2, H2⟩, ⟨%d3, H3⟩, ⟨%d4, H4⟩, ⟨%d5, H5⟩⟩
      iapply ((runFirst1 c (grid1.coords t) _ _ _ _ _ _ _ _ _ _ _ _ _ _ hF hL (blk1 V c 0 t) (blk1 V c 1 t) (blk1 V c 2 t) (blk1 V c 3 t) (blk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%eS, HS⟩⟩
      isplitl [HR0 HR1 HR2 HR3 HR4 HR5 HR6 HS Hg]
      · isplitl [HR0 HR1 HR2 HR3 HR4 HR5 HR6 HS]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS
          ipureintro; exact View.read_writes_of_cover _ _ _ _ _ (scrCoverFirst1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hF : ¬atFirst1 (grid1.coords t) := fun h => h0 ((atFirst1_iff t).mp h)
    have hz : t.val ≠ 0 := fun h => h0 (by rw [h])
    by_cases h3 : t.val % 4 = 3
    · have hL : atLast1 (grid1.coords t) := (atLast1_iff t).mpr h3
      rw [show (dat1 V c).leavesExact 5 t = owns (c : Thread nD τ) (ms1_5 t) fullShare ((dat1 V c).after 5 t) from by
        unfold Dat.leavesExact; rw [live1_out t hL], after1_5]
      rw [outAt1_last V c t h3 hF hL, accAt1_last V c t h0 h3 hF hL]
      unfold outLast1 scrLast1; (try dsimp only)
      rw [inv1_castSucc V c t, inv1_pos V c _ _ hz]
      unfold restWith1
      iintro ⟨⟨⟨HR0, HR1, HR2, HR3, HR4, HR5, HR6, HS⟩, Hg⟩, Ho, ⟨%d0, H0⟩, ⟨%d1, H1⟩, ⟨%d2, H2⟩, ⟨%d3, H3⟩, ⟨%d4, H4⟩, ⟨%d5, H5⟩⟩
      iapply ((runLast1 c (grid1.coords t) _ _ _ _ _ _ _ _ _ _ _ _ _ _ hF hL (blk1 V c 0 t) (blk1 V c 1 t) (blk1 V c 2 t) (blk1 V c 3 t) (blk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eO, H5⟩, ⟨%eS, HS⟩⟩
      isplitl [HR0 HR1 HR2 HR3 HR4 HR5 HR6 HS Hg]
      · isplitl [HR0 HR1 HR2 HR3 HR4 HR5 HR6 HS]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS
          ipureintro; exact View.read_writes_of_cover _ _ _ _ _ (scrCoverLast1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCover1 c _ _ _ _ _ _ _ _ _ _ _ _ _ _ _ _ _ _ _ _ _ _ _)
    · have hL : ¬atLast1 (grid1.coords t) := fun h => h3 ((atLast1_iff t).mp h)
      rw [Dat.leavesExact_idle (dat1 V c) 5 t (idle1_out t hL) (noFlush1_out t hL)]
      rw [accAt1_mid V c t h0 h3 hF hL]
      unfold scrMid1; (try dsimp only)
      rw [inv1_castSucc V c t, inv1_pos V c _ _ hz]
      unfold restWith1
      iintro ⟨⟨⟨HR0, HR1, HR2, HR3, HR4, HR5, HR6, HS⟩, Hg⟩, Ho, ⟨%d0, H0⟩, ⟨%d1, H1⟩, ⟨%d2, H2⟩, ⟨%d3, H3⟩, ⟨%d4, H4⟩, ⟨%d5, H5⟩⟩
      iapply ((runMid1 c (grid1.coords t) _ _ _ _ _ _ _ _ _ _ _ _ _ _ hF hL (blk1 V c 0 t) (blk1 V c 1 t) (blk1 V c 2 t) (blk1 V c 3 t) (blk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%eS, HS⟩⟩
      isplitl [HR0 HR1 HR2 HR3 HR4 HR5 HR6 HS Hg]
      · isplitl [HR0 HR1 HR2 HR3 HR4 HR5 HR6 HS]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS
          ipureintro; exact View.read_writes_of_cover _ _ _ _ _ (scrCoverMid1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives the entry form back: the accumulator's contents are forgotten. -/
theorem inv1_out (c : Dev nD) (t : Fin (cfg1.N + 1)) (ht : t.val ≠ 0) : (dat1 V c).Φ t ⊢ Pipeline.ΦA spec1 c := by
  rw [show (dat1 V c).Φ t = inv1 V c t.val (Nat.le_of_lt_succ t.isLt) from rfl, inv1_pos V c _ _ ht, PhiA1_eq]
  unfold restWith1
  iintro ⟨⟨HR0, HR1, HR2, HR3, HR4, HR5, HR6, HS⟩, Hg⟩
  isplitl [HR0 HR1 HR2 HR3 HR4 HR5 HR6 HS]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS
  iexact Hg

theorem inv1_last (c : Dev nD) : (dat1 V c).Φ (Fin.last cfg1.N) ⊢ Pipeline.ΦA spec1 c :=
  inv1_out V c _ (by rw [Fin.val_last]; have : cfg1.N = 256 := N_1; omega)

end Cert.Kernel.Fr

end
-- ==== Proof.BitsWholeRun.lean ====
import proofs.«123511_j75531294867844_2_alg».proof.Proof.BitsProjFrame
import proofs.«123511_j75531294867844_2_alg».proof.Proof.BitsDenseFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The whole run: the program's items from the launch to the return

The buffers' contents at each boundary between items, a fold from the launch memory: a host stretch applies its operations; a
region leaves each of its arrays at what its write-backs fold to and every other buffer as it found it. -/

variable (m : (ℓ : Loc nD τ sig) → Buf (Elt F) ℓ) (ρ : Dev nD → PrngReg)

/-- Core c's buffers at launch. -/
abbrev B0 : Dev nD → Valuation τ sig (Elt F) := fun c b => (s₀ m ρ).mem ((c : Dev nD), b)
/-- After the first host stretch: the reshape and the changes of format (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit (region 1's entry). -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- At region 1's exit. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)
/-- After the last host stretch, the reshape of the result (the return). -/
abbrev B4 : Dev nD → Valuation τ sig (Elt F) := fun c => StableHlo.after hostOps2 (B3 m ρ c)

/-! ### The arguments end as launched: no host operation writes one and no region has one among its arrays -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents, the generator register at some state. -/
abbrev Tₙ (c : Dev nD) : sProp 𝕄 := iprop(StableHlo.held (c : Thread nD τ) (Pipeline.ucRefs τ sig) (B4 m ρ c) ∗ ∃ r, prngReg c r)

/-! ## The regions as items -/

set_option backward.isDefEq.respectTransparency.types false in
/-- Region 0 over the thread state: entered from every unscoped buffer at the contents before it, left at the contents after it.
    Its arrays are split out of the unscoped buffers and put back at what the write-backs leave; the generator register and the
    scoped rest go into the invariant and come back, the accumulator's contents forgotten; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from inv0_last (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after it.
    Its arrays are split out of the unscoped buffers and put back at what the write-backs leave; the generator register and the
    scoped rest go into the invariant and come back, the accumulator's contents forgotten; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from inv1_last (E2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates, nothing
    faulting, and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (B3 m ρ c))
          ∗ ((∃ r, prngReg c r) ∗ ∃ W, owes (c : Thread nD τ) (0 : CellTallies nD τ sig Unit) W))
        ⊢ iprop((StableHlo.held (c : Thread nD τ) (Pipeline.ucRefs τ sig) (B4 m ρ c) ∗ ∃ r, prngReg c r)
          ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun _ h => h)

/-- THE FRAME: the program terminates, nothing faulting, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run m ρ)

end Cert.Kernel.Fr

end
-- ==== Proof.ProjShared.lean ====
import proofs.«123511_j75531294867844_2_alg».proof.Proof.Gen.KernelIdeal.Launch
import proofs.«123511_j75531294867844_2_alg».proof.Proof.Gen.KernelIdeal.Skeleton
import proofs.«123511_j75531294867844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the low-rank projection x·A, accumulated over the four blocks of 1024 columns of x

What the three whole-body runs of this region share. The grid's last coordinate k numbers the column blocks:
at k = 0 the accumulator is zeroed before the block's product is added, at k = 3 the result is stored into the
output block, and at k = 1, 2 only the accumulator changes. Point t of the grid has k = t mod 4. -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, whether the point fetches it or the
    block has not moved since it was fetched, for any proof data over the entry contents that leaves the block in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block of the array at every point, whether the point fetches it or the
    block has not moved since it was fetched, for any proof data over the entry contents that leaves the block in place. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The two conditions of the body, decided over the grid -/

/-- "This is the first column block" (k = 0), as the body computes it from the grid coordinates. -/
abbrev atFirst0 (i : grid0.Coords) : Prop := (Scalar.cmpi .ne (Scalar.extui (Scalar.cmpi .eq (BitVec.ofNat 32 (i 1).val) 0#32)) 0#32) = 1#1
theorem atFirst0_iff : ∀ t : Fin cfg0.N, atFirst0 (grid0.coords t) ↔ t.val % 4 = 0 :=
  (by decide +kernel : ∀ t : Fin grid0.N, atFirst0 (grid0.coords t) ↔ t.val % 4 = 0)
/-- "This is the last column block" (k = 3), as the body computes it. -/
abbrev atLast0 (i : grid0.Coords) : Prop := k0_cond2 i = 1#1
theorem atLast0_iff : ∀ t : Fin cfg0.N, atLast0 (grid0.coords t) ↔ t.val % 4 = 3 :=
  (by decide +kernel : ∀ t : Fin grid0.N, atLast0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from the last column block the output block is neither stored into nor written back. -/
theorem idle0_out : ∀ t : Fin cfg0.N, ¬atLast0 (grid0.coords t) → cfg0.idle 2 (grid0.coords t) = true := by decide +kernel
theorem noFlush0_out : ∀ t : Fin cfg0.N, ¬atLast0 (grid0.coords t) → (cfg0.win 2).flush t = false := by decide +kernel
/-- At the last column block it is stored. -/
theorem live0_out : ∀ t : Fin cfg0.N, atLast0 (grid0.coords t) → cfg0.idle 2 (grid0.coords t) = false := by decide +kernel

/-! ## The memrefs the body is called with -/

/-- One staging buffer of the output window, through which its contents are stated. -/
abbrev viewOut0 : View sig .tc .vmem S1024x16 .bf16 := (Memref.whole cc0_stg2_0 : Memref sig .tc .vmem S1024x16 .bf16).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x16 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x16 .bf16 := win0_2.stage (cfg0.slots t 2)
abbrev hs0_2 (t : Fin cfg0.N) : (ms0_2 t).IsWhole := hstage0_2 ((cfg0.slots t 2).cast nbuf0_2)
/-- The accumulator: a whole scoped buffer of the kernel's own, carried from one point to the next. -/
abbrev scM0 : Memref sig .tc .vmem S1024x16 .f32 := Memref.whole cc0_scratch0
abbrev viewScr0 : View sig .tc .vmem S1024x16 .f32 := scM0.view

/-- The core's scoped buffers this region's windows do not stage, each whole at some contents, with the accumulator's
    place taken by P. -/
def restWith0 (c : Dev nD) (P : sProp 𝕄) : sProp 𝕄 :=
  iprop(P ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region is entered with: the scoped rest with the accumulator at some contents, and the generator register. -/
theorem PhiA0_eq (c : Dev nD) :
    (Pipeline.ΦA spec0 c : sProp 𝕄)
      = iprop(restWith0 c iprop(∃ d, owns (c : Thread nD τ) scM0 fullShare d) ∗ (∃ r, prngReg c r)) := by
  unfold Pipeline.ΦA restWith0; rw [scopedRest0_eq]; simp only [scM0, owns_whole]; try rfl

end Cert.KernelIdeal.Fr

end
-- ==== Proof.ProjRunFirst.lean ====
import proofs.«123511_j75531294867844_2_alg».proof.Proof.ProjShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 0 at the FIRST column block (k = 0): the accumulator, found at anything, is zeroed and the block's product added; the output block, idle here, is handed back as found. On whole memrefs, the inputs at their contents, the body runs to the continuation holding the
    inputs as they were and the accumulator (at the last block also the output block) with the pieces its stores wrote: the pieces are the witness the run finds. -/
noncomputable def runFirst0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : atFirst0 i) (hlast : ¬atLast0 i)
    (x0 : Vec F S1024x1024 .bf16) (x1 : Vec F S1024x16 .bf16) :
    { LS : List (View.Piece (Elt F) S1024x16 .f32) //
      ∀ (xi : Vec F S1024x16 .bf16) (E : Set ℕ) (K : PUnit → sProp 𝕄),
        iprop(owns (c : Thread nD τ) a0 fullShare x0 ∗ owns (c : Thread nD τ) a1 fullShare x1 ∗ owns (c : Thread nD τ) a2 fullShare xi ∗ (∃ d, owns (c : Thread nD τ) aS fullShare d)
            ∗ (iprop(owns (c : Thread nD τ) a0 fullShare x0 ∗ owns (c : Thread nD τ) a1 fullShare x1 ∗ owns (c : Thread nD τ) a2 fullShare xi ∗ (∃ f, aS.view.loc (c : Thread nD τ) ↦[aS.view.set]{fullShare} aS.view.writes (Elt F) f LS)) -∗ K ⟨⟩))
          ⊢ wp frame (wpE (defs₀ (F := F)) Variants.none c none) E (cc0__xa_kernel i a0 h0 a1 h1 a2 h2 aS hS) K } := by
  refine ⟨?_, fun xi E K => ?run⟩
  case run =>
    simp only [cc0__xa_kernel_eq_skeleton]; unfold cc0__xa_kernel_skel
    unfold owns
    iintro ⟨⟨%f0, %hf0, H0⟩, ⟨%f1, %hf1, H1⟩, ⟨%fO, %hfO, HO⟩, ⟨%dS, %fS, -, HS⟩, Hk⟩
    obtain rfl := h0.eq_unread hf0; obtain rfl := h1.eq_unread hf1; obtain rfl := h2.eq_unread hfO
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [HO]
    · iexists _; isplitr; · ipureintro; exact h2.read_unread _
      iexact HO
    iexists _; iexact HS

end Cert.KernelIdeal.Fr

end
-- ==== Proof.ProjRunMid.lean ====
import proofs.«123511_j75531294867844_2_alg».proof.Proof.ProjRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 0 at a MIDDLE column block (k = 1, 2): the block's product is added to the accumulator as the point before left it; the output block, idle here, is handed back as found. On whole memrefs, the inputs at their contents, the body runs to the continuation holding the
    inputs as they were and the accumulator (at the last block also the output block) with the pieces its stores wrote: the pieces are the witness the run finds. -/
noncomputable def runMid0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : ¬atLast0 i)
    (x0 : Vec F S1024x1024 .bf16) (x1 : Vec F S1024x16 .bf16) (xs : Vec F S1024x16 .f32) :
    { LS : List (View.Piece (Elt F) S1024x16 .f32) //
      ∀ (xi : Vec F S1024x16 .bf16) (E : Set ℕ) (K : PUnit → sProp 𝕄),
        iprop(owns (c : Thread nD τ) a0 fullShare x0 ∗ owns (c : Thread nD τ) a1 fullShare x1 ∗ owns (c : Thread nD τ) a2 fullShare xi ∗ owns (c : Thread nD τ) aS fullShare xs
            ∗ (iprop(owns (c : Thread nD τ) a0 fullShare x0 ∗ owns (c : Thread nD τ) a1 fullShare x1 ∗ owns (c : Thread nD τ) a2 fullShare xi ∗ (∃ f, aS.view.loc (c : Thread nD τ) ↦[aS.view.set]{fullShare} aS.view.writes (Elt F) f LS)) -∗ K ⟨⟩))
          ⊢ wp frame (wpE (defs₀ (F := F)) Variants.none c none) E (cc0__xa_kernel i a0 h0 a1 h1 a2 h2 aS hS) K } := by
  refine ⟨?_, fun xi E K => ?run⟩
  case run =>
    simp only [cc0__xa_kernel_eq_skeleton]; unfold cc0__xa_kernel_skel
    unfold owns
    iintro ⟨⟨%f0, %hf0, H0⟩, ⟨%f1, %hf1, H1⟩, ⟨%fO, %hfO, HO⟩, ⟨%fS, %hfS, HS⟩, Hk⟩
    obtain rfl := h0.eq_unread hf0; obtain rfl := h1.eq_unread hf1; obtain rfl := h2.eq_unread hfO; obtain rfl := hS.eq_unread hfS
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [HO]
    · iexists _; isplitr; · ipureintro; exact h2.read_unread _
      iexact HO
    iexists _; iexact HS

end Cert.KernelIdeal.Fr

end
-- ==== Proof.ProjRunLast.lean ====
import proofs.«123511_j75531294867844_2_alg».proof.Proof.ProjRunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 0 at the LAST column block (k = 3): the block's product is added to the accumulator as the point before left it, and the result is stored into the output block, found at anything. On whole memrefs, the inputs at their contents, the body runs to the continuation holding the
    inputs as they were and the accumulator (at the last block also the output block) with the pieces its stores wrote: the pieces are the witness the run finds. -/
noncomputable def runLast0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i)
    (x0 : Vec F S1024x1024 .bf16) (x1 : Vec F S1024x16 .bf16) (xs : Vec F S1024x16 .f32) :
    Σ' (LO : List (View.Piece (Elt F) S1024x16 .bf16)), { LS : List (View.Piece (Elt F) S1024x16 .f32) //
      ∀ (E : Set ℕ) (K : PUnit → sProp 𝕄),
        iprop(owns (c : Thread nD τ) a0 fullShare x0 ∗ owns (c : Thread nD τ) a1 fullShare x1 ∗ (∃ d, owns (c : Thread nD τ) a2 fullShare d) ∗ owns (c : Thread nD τ) aS fullShare xs
            ∗ (iprop(owns (c : Thread nD τ) a0 fullShare x0 ∗ owns (c : Thread nD τ) a1 fullShare x1 ∗ (∃ f, a2.view.loc (c : Thread nD τ) ↦[a2.view.set]{fullShare} a2.view.writes (Elt F) f LO) ∗ (∃ f, aS.view.loc (c : Thread nD τ) ↦[aS.view.set]{fullShare} aS.view.writes (Elt F) f LS)) -∗ K ⟨⟩))
          ⊢ wp frame (wpE (defs₀ (F := F)) Variants.none c none) E (cc0__xa_kernel i a0 h0 a1 h1 a2 h2 aS hS) K } := by
  refine ⟨?_, ?_, fun E K => ?run⟩
  case run =>
    simp only [cc0__xa_kernel_eq_skeleton]; unfold cc0__xa_kernel_skel
    unfold owns
    iintro ⟨⟨%f0, %hf0, H0⟩, ⟨%f1, %hf1, H1⟩, ⟨%dO, %fO, -, HO⟩, ⟨%fS, %hfS, HS⟩, Hk⟩
    obtain rfl := h0.eq_unread hf0; obtain rfl := h1.eq_unread hf1; obtain rfl := hS.eq_unread hfS
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [HO]; · iexists _; iexact HO
    iexists _; iexact HS

end Cert.KernelIdeal.Fr

end
-- ==== Proof.ProjFrame.lean ====
import proofs.«123511_j75531294867844_2_alg».proof.Proof.ProjRunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the accumulator and the output block hold point by point, the invariant, the proof data and the
    body obligation -/

/-- The first-block run's pieces for the accumulator tile it, so they cover it. -/
theorem scrCoverFirst0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : atFirst0 i) (hlast : ¬atLast0 i) (x0 : Vec F S1024x1024 .bf16) (x1 : Vec F S1024x16 .bf16) (y : S1024x16.Idx) :
    ∃ pc ∈ (runFirst0 c i a0 h0 a1 h1 a2 h2 aS hS hfirst hlast x0 x1).1, y ∈ pc.1.set :=
  View.cover_of_tiledL (runFirst0 c i a0 h0 a1 h1 a2 h2 aS hS hfirst hlast x0 x1).1 S1024x16.size (by sl_kernel_rfl) y
/-- What the first block leaves in the accumulator: its pieces read back. -/
def scrFirst0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : atFirst0 i) (hlast : ¬atLast0 i) (x0 : Vec F S1024x1024 .bf16) (x1 : Vec F S1024x16 .bf16) : Vec F S1024x16 .f32 :=
  viewScr0.read (Elt F) (viewScr0.writes (Elt F) viewScr0.junk (runFirst0 c i a0 h0 a1 h1 a2 h2 aS hS hfirst hlast x0 x1).1)

theorem scrCoverMid0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : ¬atLast0 i) (x0 : Vec F S1024x1024 .bf16) (x1 : Vec F S1024x16 .bf16) (xs : Vec F S1024x16 .f32) (y : S1024x16.Idx) :
    ∃ pc ∈ (runMid0 c i a0 h0 a1 h1 a2 h2 aS hS hfirst hlast x0 x1 xs).1, y ∈ pc.1.set :=
  View.cover_of_tiledL (runMid0 c i a0 h0 a1 h1 a2 h2 aS hS hfirst hlast x0 x1 xs).1 S1024x16.size (by sl_kernel_rfl) y
/-- What a middle block leaves in the accumulator, from what the point before left (xs). -/
def scrMid0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : ¬atLast0 i) (x0 : Vec F S1024x1024 .bf16) (x1 : Vec F S1024x16 .bf16) (xs : Vec F S1024x16 .f32) : Vec F S1024x16 .f32 :=
  viewScr0.read (Elt F) (viewScr0.writes (Elt F) viewScr0.junk (runMid0 c i a0 h0 a1 h1 a2 h2 aS hS hfirst hlast x0 x1 xs).1)

theorem scrCoverLast0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) (y : S1024x16.Idx) :
    ∃ pc ∈ (runLast0 c i a0 h0 a1 h1 a2 h2 aS hS hfirst hlast x0 x1 xs).2.1, y ∈ pc.1.set :=
  View.cover_of_tiledL (runLast0 c i a0 h0 a1 h1 a2 h2 aS hS hfirst hlast x0 x1 xs).2.1 S1024x16.size (by sl_kernel_rfl) y
/-- What the last block leaves in the accumulator. -/
def scrLast0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) : Vec F S1024x16 .f32 :=
  viewScr0.read (Elt F) (viewScr0.writes (Elt F) viewScr0.junk (runLast0 c i a0 h0 a1 h1 a2 h2 aS hS hfirst hlast x0 x1 xs).2.1)
theorem outCover0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) (y : S1024x16.Idx) :
    ∃ pc ∈ (runLast0 c i a0 h0 a1 h1 a2 h2 aS hS hfirst hlast x0 x1 xs).1, y ∈ pc.1.set :=
  View.cover_of_tiledL (runLast0 c i a0 h0 a1 h1 a2 h2 aS hS hfirst hlast x0 x1 xs).1 S1024x16.size (by sl_kernel_rfl) y
/-- What the last block stores into the output block. -/
def outLast0 (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) : Vec F S1024x16 .bf16 :=
  viewOut0.read (Elt F) (viewOut0.writes (Elt F) viewOut0.junk (runLast0 c i a0 h0 a1 h1 a2 h2 aS hS hfirst hlast x0 x1 xs).1)

/-! ## The accumulation -/

/-- What the accumulator holds after the body at position n: at a first block (n ≡ 0 mod 4) the first-block run's result,
    otherwise the middle or last run's over what position n - 1 left. -/
def accAt0 (c : Dev nD) : (n : ℕ) → n < cfg0.N → Vec F S1024x16 .f32
  | 0, hn => scrFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((atFirst0_iff ⟨0, hn⟩).mpr (Nat.zero_mod _)) (fun h => (fun h' => by (try dsimp only at h'); omega) ((atLast0_iff ⟨0, hn⟩).mp h)) (blk0 V c 0 ⟨0, hn⟩) (blk0 V c 1 ⟨0, hn⟩)
  | n + 1, hn =>
    if h0 : (n + 1) % 4 = 0 then
      scrFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((atFirst0_iff ⟨n + 1, hn⟩).mpr h0) (fun h => (fun h' => by (try dsimp only at h'); omega) ((atLast0_iff ⟨n + 1, hn⟩).mp h)) (blk0 V c 0 ⟨n + 1, hn⟩) (blk0 V c 1 ⟨n + 1, hn⟩)
    else if h3 : (n + 1) % 4 = 3 then
      scrLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((atFirst0_iff ⟨n + 1, hn⟩).mp h)) ((atLast0_iff ⟨n + 1, hn⟩).mpr h3) (blk0 V c 0 ⟨n + 1, hn⟩) (blk0 V c 1 ⟨n + 1, hn⟩) (accAt0 c n (Nat.lt_of_succ_lt hn))
    else
      scrMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((atFirst0_iff ⟨n + 1, hn⟩).mp h)) (fun h => h3 ((atLast0_iff ⟨n + 1, hn⟩).mp h)) (blk0 V c 0 ⟨n + 1, hn⟩) (blk0 V c 1 ⟨n + 1, hn⟩) (accAt0 c n (Nat.lt_of_succ_lt hn))

theorem accAt0_first (c : Dev nD) (t : Fin cfg0.N) (h0 : t.val % 4 = 0) (hF : atFirst0 (grid0.coords t)) (hL : ¬atLast0 (grid0.coords t)) :
    accAt0 V c t.val t.isLt = scrFirst0 c (grid0.coords t) (ms0_0 t) (hs0_0 t) (ms0_1 t) (hs0_1 t) (ms0_2 t) (hs0_2 t) scM0 (Memref.isWhole_whole _) hF hL (blk0 V c 0 t) (blk0 V c 1 t) := by
  obtain ⟨n, hn⟩ := t
  cases n with
  | zero => exact rfl
  | succ n => exact (dif_pos h0).trans rfl

theorem accAt0_last (c : Dev nD) (t : Fin cfg0.N) (h0 : ¬t.val % 4 = 0) (h3 : t.val % 4 = 3) (hF : ¬atFirst0 (grid0.coords t)) (hL : atLast0 (grid0.coords t)) :
    accAt0 V c t.val t.isLt = scrLast0 c (grid0.coords t) (ms0_0 t) (hs0_0 t) (ms0_1 t) (hs0_1 t) (ms0_2 t) (hs0_2 t) scM0 (Memref.isWhole_whole _) hF hL (blk0 V c 0 t) (blk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

theorem accAt0_mid (c : Dev nD) (t : Fin cfg0.N) (h0 : ¬t.val % 4 = 0) (h3 : ¬t.val % 4 = 3) (hF : ¬atFirst0 (grid0.coords t)) (hL : ¬atLast0 (grid0.coords t)) :
    accAt0 V c t.val t.isLt = scrMid0 c (grid0.coords t) (ms0_0 t) (hs0_0 t) (ms0_1 t) (hs0_1 t) (ms0_2 t) (hs0_2 t) scM0 (Memref.isWhole_whole _) hF hL (blk0 V c 0 t) (blk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

/-- What the output window's staging buffer holds after the body at point t: at a last block what that run stores, over the
    accumulator as the point before left it; elsewhere the window is idle and this value is never consulted. -/
def outAt0 (c : Dev nD) (t : Fin cfg0.N) : Vec F S1024x16 .bf16 :=
  if h3 : t.val % 4 = 3 then
    outLast0 c (grid0.coords t) (ms0_0 t) (hs0_0 t) (ms0_1 t) (hs0_1 t) (ms0_2 t) (hs0_2 t) scM0 (Memref.isWhole_whole _) (fun h => (fun h' => by (try dsimp only at h'); omega) ((atFirst0_iff t).mp h)) ((atLast0_iff t).mpr h3) (blk0 V c 0 t) (blk0 V c 1 t) (accAt0 V c (t.val - 1) (Nat.lt_of_le_of_lt (Nat.sub_le _ _) t.isLt))
  else viewOut0.read (Elt F) viewOut0.junk

theorem outAt0_last (c : Dev nD) (t : Fin cfg0.N) (h3 : t.val % 4 = 3) (hF : ¬atFirst0 (grid0.coords t)) (hL : atLast0 (grid0.coords t)) :
    outAt0 V c t = outLast0 c (grid0.coords t) (ms0_0 t) (hs0_0 t) (ms0_1 t) (hs0_1 t) (ms0_2 t) (hs0_2 t) scM0 (Memref.isWhole_whole _) hF hL (blk0 V c 0 t) (blk0 V c 1 t) (accAt0 V c (t.val - 1) (Nat.lt_of_le_of_lt (Nat.sub_le _ _) t.isLt)) :=
  dif_pos h3

/-! ## The region invariant -/

/-- Before position n: at the region's entry the scoped rest at anything; afterwards the scoped rest with the accumulator at
    what position n - 1 left in it; the generator register at some state throughout. -/
def inv0 (c : Dev nD) : (n : ℕ) → n ≤ cfg0.N → sProp 𝕄
  | 0, _ => Pipeline.ΦA spec0 c
  | n + 1, hn => iprop(restWith0 c (owns (c : Thread nD τ) scM0 fullShare (accAt0 V c n hn)) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(restWith0 c (owns (c : Thread nD τ) scM0 fullShare (accAt0 V c n hn)) ∗ (∃ r, prngReg c r)) := rfl
theorem inv0_pos (c : Dev nD) (n : ℕ) (h : n ≤ cfg0.N) (hz : n ≠ 0) :
    inv0 V c n h = iprop(restWith0 c (owns (c : Thread nD τ) scM0 fullShare (accAt0 V c (n - 1) (by omega))) ∗ (∃ r, prngReg c r)) := by
  cases n with
  | zero => exact absurd rfl hz
  | succ n => rfl

/-! ## The proof data -/

/-- The region's proof data on core c: the arrays as the region finds them; after the body at point t each input's buffer at
    its block and the output's at outAt; the invariant above; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => outAt0 V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = outAt0 V c t := by dsimp only [dat0]
theorem held0_0 (c : Dev nD) (t : Fin cfg0.N) (d) : (dat0 V c).before 0 t d = blk0 V c 0 t :=
  held0_0_of V (dat0 V c) (A_eq0 V c 0) (after0_0 V c) t d
theorem held0_1 (c : Dev nD) (t : Fin cfg0.N) (d) : (dat0 V c).before 1 t d = blk0 V c 1 t :=
  held0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the point's position mod 4 says which run applies; the invariant
    hands the body the accumulator at what the point before left (at anything at the very first point) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 4 = 0
  · have hF : atFirst0 (grid0.coords t) := (atFirst0_iff t).mpr h0
    have hL : ¬atLast0 (grid0.coords t) := fun h => by have h' := (atLast0_iff t).mp h; omega
    rw [Dat.leavesExact_idle (dat0 V c) 2 t (idle0_out t hL) (noFlush0_out t hL)]
    rw [accAt0_first V c t h0 hF hL]
    unfold scrFirst0; (try dsimp only)
    by_cases hz : t.val = 0
    ·
      rw [inv0_castSucc V c t, inv0_zero V c _ _ hz, PhiA0_eq]
      unfold restWith0
      iintro ⟨⟨⟨HS, HT⟩, Hg⟩, Ho, ⟨%d0, H0⟩, ⟨%d1, H1⟩, ⟨%d2, H2⟩⟩
      iapply ((runFirst0 c (grid0.coords t) _ _ _ _ _ _ _ _ hF hL (blk0 V c 0 t) (blk0 V c 1 t)).2 _ Set.univ _)
      isplitl [H0]; · iexact H0
      isplitl [H1]; · iexact H1
      isplitl [H2]; · iexact H2
      isplitl [HS]; · iexact HS
      iintro ⟨H0, H1, H2, ⟨%eS, HS⟩⟩
      isplitl [HS HT Hg]
      · isplitl [HS HT]
        ·
          isplitl [HS]
          · unfold owns; iexists _; isplitr
            swap; · iexact HS
            ipureintro; exact View.read_writes_of_cover _ _ _ _ _ (scrCoverFirst0 c _ _ _ _ _ _ _ _ _ _ _ _ _)
          iexact HT
        iexact Hg
      isplitl [Ho]; · iexact Ho
      isplitl [H0]; · iexact H0
      isplitl [H1]; · iexact H1
      iexists _; iexact H2
    ·
      rw [inv0_castSucc V c t, inv0_pos V c _ _ hz]
      unfold restWith0
      iintro ⟨⟨⟨HS, HT⟩, Hg⟩, Ho, ⟨%d0, H0⟩, ⟨%d1, H1⟩, ⟨%d2, H2⟩⟩
      iapply ((runFirst0 c (grid0.coords t) _ _ _ _ _ _ _ _ hF hL (blk0 V c 0 t) (blk0 V c 1 t)).2 _ Set.univ _)
      isplitl [H0]; · iexact H0
      isplitl [H1]; · iexact H1
      isplitl [H2]; · iexact H2
      isplitl [HS]; · iexists _; iexact HS
      iintro ⟨H0, H1, H2, ⟨%eS, HS⟩⟩
      isplitl [HS HT Hg]
      · isplitl [HS HT]
        ·
          isplitl [HS]
          · unfold owns; iexists _; isplitr
            swap; · iexact HS
            ipureintro; exact View.read_writes_of_cover _ _ _ _ _ (scrCoverFirst0 c _ _ _ _ _ _ _ _ _ _ _ _ _)
          iexact HT
        iexact Hg
      isplitl [Ho]; · iexact Ho
      isplitl [H0]; · iexact H0
      isplitl [H1]; · iexact H1
      iexists _; iexact H2
  · have hF : ¬atFirst0 (grid0.coords t) := fun h => h0 ((atFirst0_iff t).mp h)
    have hz : t.val ≠ 0 := fun h => h0 (by rw [h])
    by_cases h3 : t.val % 4 = 3
    · have hL : atLast0 (grid0.coords t) := (atLast0_iff t).mpr h3
      rw [show (dat0 V c).leavesExact 2 t = owns (c : Thread nD τ) (ms0_2 t) fullShare ((dat0 V c).after 2 t) from by
        unfold Dat.leavesExact; rw [live0_out t hL], after0_2]
      rw [outAt0_last V c t h3 hF hL, accAt0_last V c t h0 h3 hF hL]
      unfold outLast0 scrLast0; (try dsimp only)
      rw [inv0_castSucc V c t, inv0_pos V c _ _ hz]
      unfold restWith0
      iintro ⟨⟨⟨HS, HT⟩, Hg⟩, Ho, ⟨%d0, H0⟩, ⟨%d1, H1⟩, ⟨%d2, H2⟩⟩
      iapply ((runLast0 c (grid0.coords t) _ _ _ _ _ _ _ _ hF hL (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%eO, H2⟩, ⟨%eS, HS⟩⟩
      isplitl [HS HT Hg]
      · isplitl [HS HT]
        ·
          isplitl [HS]
          · unfold owns; iexists _; isplitr
            swap; · iexact HS
            ipureintro; exact View.read_writes_of_cover _ _ _ _ _ (scrCoverLast0 c _ _ _ _ _ _ _ _ _ _ _ _ _ _)
          iexact HT
        iexact Hg
      isplitl [Ho]; · iexact Ho
      isplitl [H0]; · iexact H0
      isplitl [H1]; · iexact H1
      unfold owns; iexists _; isplitr
      swap; · iexact H2
      ipureintro; exact View.read_writes_of_cover _ _ _ _ _ (outCover0 c _ _ _ _ _ _ _ _ _ _ _ _ _ _)
    · have hL : ¬atLast0 (grid0.coords t) := fun h => h3 ((atLast0_iff t).mp h)
      rw [Dat.leavesExact_idle (dat0 V c) 2 t (idle0_out t hL) (noFlush0_out t hL)]
      rw [accAt0_mid V c t h0 h3 hF hL]
      unfold scrMid0; (try dsimp only)
      rw [inv0_castSucc V c t, inv0_pos V c _ _ hz]
      unfold restWith0
      iintro ⟨⟨⟨HS, HT⟩, Hg⟩, Ho, ⟨%d0, H0⟩, ⟨%d1, H1⟩, ⟨%d2, H2⟩⟩
      iapply ((runMid0 c (grid0.coords t) _ _ _ _ _ _ _ _ hF hL (blk0 V c 0 t) (blk0 V c 1 t) _).2 _ Set.univ _)
      isplitl [H0]; · iexact H0
      isplitl [H1]; · iexact H1
      isplitl [H2]; · iexact H2
      isplitl [HS]; · iexact HS
      iintro ⟨H0, H1, H2, ⟨%eS, HS⟩⟩
      isplitl [HS HT Hg]
      · isplitl [HS HT]
        ·
          isplitl [HS]
          · unfold owns; iexists _; isplitr
            swap; · iexact HS
            ipureintro; exact View.read_writes_of_cover _ _ _ _ _ (scrCoverMid0 c _ _ _ _ _ _ _ _ _ _ _ _ _ _)
          iexact HT
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point the invariant gives the entry form back: the accumulator's contents are forgotten. -/
theorem inv0_out (c : Dev nD) (t : Fin (cfg0.N + 1)) (ht : t.val ≠ 0) : (dat0 V c).Φ t ⊢ Pipeline.ΦA spec0 c := by
  rw [show (dat0 V c).Φ t = inv0 V c t.val (Nat.le_of_lt_succ t.isLt) from rfl, inv0_pos V c _ _ ht, PhiA0_eq]
  unfold restWith0
  iintro ⟨⟨HS, HT⟩, Hg⟩
  isplitl [HS HT]
  ·
    isplitl [HS]
    · iexists _; iexact HS
    iexact HT
  iexact Hg

theorem inv0_last (c : Dev nD) : (dat0 V c).Φ (Fin.last cfg0.N) ⊢ Pipeline.ΦA spec0 c :=
  inv0_out V c _ (by rw [Fin.val_last]; have : cfg0.N = 64 := N_0; omega)

end Cert.KernelIdeal.Fr

end
-- ==== Proof.DenseShared.lean ====
import proofs.«123511_j75531294867844_2_alg».proof.Proof.Gen.KernelIdeal.Launch
import proofs.«123511_j75531294867844_2_alg».proof.Proof.Gen.KernelIdeal.Skeleton
import proofs.«123511_j75531294867844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the dense product x·W accumulated over the four blocks of 1024 columns of x, the low-rank correction and the bias added at the last block

What the three whole-body runs of this region share. The grid's last coordinate k numbers the column blocks:
at k = 0 the accumulator is zeroed before the block's product is added, at k = 3 the result is stored into the
output block, and at k = 1, 2 only the accumulator changes. Point t of the grid has k = t mod 4. -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every point, whether the point fetches it or the
    block has not moved since it was fetched, for any proof data over the entry contents that leaves the block in place. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block of the array at every point, whether the point fetches it or the
    block has not moved since it was fetched, for any proof data over the entry contents that leaves the block in place. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block of the array at every point, whether the point fetches it or the
    block has not moved since it was fetched, for any proof data over the entry contents that leaves the block in place. -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds its block of the array at every point, whether the point fetches it or the
    block has not moved since it was fetched, for any proof data over the entry contents that leaves the block in place. -/
theorem held1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current staging buffer holds its block of the array at every point, whether the point fetches it or the
    block has not moved since it was fetched, for any proof data over the entry contents that leaves the block in place. -/
theorem held1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, decided over the grid -/

/-- "This is the first column block" (k = 0), as the body computes it from the grid coordinates. -/
abbrev atFirst1 (i : grid1.Coords) : Prop := (Scalar.cmpi .ne (Scalar.extui (Scalar.cmpi .eq (BitVec.ofNat 32 (i 2).val) 0#32)) 0#32) = 1#1
theorem atFirst1_iff : ∀ t : Fin cfg1.N, atFirst1 (grid1.coords t) ↔ t.val % 4 = 0 :=
  (by decide +kernel : ∀ t : Fin grid1.N, atFirst1 (grid1.coords t) ↔ t.val % 4 = 0)
/-- "This is the last column block" (k = 3), as the body computes it. -/
abbrev atLast1 (i : grid1.Coords) : Prop := k1_cond2 i = 1#1
theorem atLast1_iff : ∀ t : Fin cfg1.N, atLast1 (grid1.coords t) ↔ t.val % 4 = 3 :=
  (by decide +kernel : ∀ t : Fin grid1.N, atLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Away from the last column block the output block is neither stored into nor written back. -/
theorem idle1_out : ∀ t : Fin cfg1.N, ¬atLast1 (grid1.coords t) → cfg1.idle 5 (grid1.coords t) = true := by decide +kernel
theorem noFlush1_out : ∀ t : Fin cfg1.N, ¬atLast1 (grid1.coords t) → (cfg1.win 5).flush t = false := by decide +kernel
/-- At the last column block it is stored. -/
theorem live1_out : ∀ t : Fin cfg1.N, atLast1 (grid1.coords t) → cfg1.idle 5 (grid1.coords t) = false := by decide +kernel

/-! ## The memrefs the body is called with -/

/-- One staging buffer of the output window, through which its contents are stated. -/
abbrev viewOut1 : View sig .tc .vmem S1024x1024 .f32 := (Memref.whole cc1_stg5_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x16 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole scoped buffer of the kernel's own, carried from one point to the next. -/
abbrev scM1 : Memref sig .tc .vmem S1024x1024 .f32 := Memref.whole cc1_scratch0
abbrev viewScr1 : View sig .tc .vmem S1024x1024 .f32 := scM1.view

/-- The core's scoped buffers this region's windows do not stage, each whole at some contents, with the accumulator's
    place taken by P. -/
def restWith1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P)

/-- What the region is entered with: the scoped rest with the accumulator at some contents, and the generator register. -/
theorem PhiA1_eq (c : Dev nD) :
    (Pipeline.ΦA spec1 c : sProp 𝕄)
      = iprop(restWith1 c iprop(∃ d, owns (c : Thread nD τ) scM1 fullShare d) ∗ (∃ r, prngReg c r)) := by
  unfold Pipeline.ΦA restWith1; rw [scopedRest1_eq]; simp only [scM1, owns_whole]; try rfl

end Cert.KernelIdeal.Fr

end
-- ==== Proof.DenseRunFirst.lean ====
import proofs.«123511_j75531294867844_2_alg».proof.Proof.DenseShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 1 at the FIRST column block (k = 0): the accumulator, found at anything, is zeroed and the block's product added; the output block, idle here, is handed back as found. On whole memrefs, the inputs at their contents, the body runs to the continuation holding the
    inputs as they were and the accumulator (at the last block also the output block) with the pieces its stores wrote: the pieces are the witness the run finds. -/
noncomputable def runFirst1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : atFirst1 i) (hlast : ¬atLast1 i)
    (x0 : Vec F S1024x1024 .bf16) (x1 : Vec F S1024x1024 .bf16) (x2 : Vec F S1024x16 .bf16) (x3 : Vec F S16x1024 .bf16) (x4 : Vec F S1x1024 .f32) :
    { LS : List (View.Piece (Elt F) S1024x1024 .f32) //
      ∀ (xi : Vec F S1024x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xi ∗ (∃ d, owns (c : Thread nD τ) aS fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xi ∗ (∃ f, aS.view.loc (c : Thread nD τ) ↦[aS.view.set]{fullShare} aS.view.writes (Elt F) f LS)) -∗ K ⟨⟩))
          ⊢ wp frame (wpE (defs₀ (F := F)) Variants.none c none) E (cc1__main_kernel i a0 h0 a1 h1 a2 h2 a3 h3 a4 h4 a5 h5 aS hS) K } := by
  refine ⟨?_, fun xi E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%dS, %fS, -, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hfO
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HO]
    · iexists _; isplitr; · ipureintro; exact h5.read_unread _
      iexact HO
    iexists _; iexact HS

end Cert.KernelIdeal.Fr

end
-- ==== Proof.DenseRunMid.lean ====
import proofs.«123511_j75531294867844_2_alg».proof.Proof.DenseRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 1 at a MIDDLE column block (k = 1, 2): the block's product is added to the accumulator as the point before left it; the output block, idle here, is handed back as found. On whole memrefs, the inputs at their contents, the body runs to the continuation holding the
    inputs as they were and the accumulator (at the last block also the output block) with the pieces its stores wrote: the pieces are the witness the run finds. -/
noncomputable def runMid1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : ¬atLast1 i)
    (x0 : Vec F S1024x1024 .bf16) (x1 : Vec F S1024x1024 .bf16) (x2 : Vec F S1024x16 .bf16) (x3 : Vec F S16x1024 .bf16) (x4 : Vec F S1x1024 .f32) (xs : Vec F S1024x1024 .f32) :
    { LS : List (View.Piece (Elt F) S1024x1024 .f32) //
      ∀ (xi : Vec F S1024x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xi ∗ owns (c : Thread nD τ) aS fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare xi ∗ (∃ f, aS.view.loc (c : Thread nD τ) ↦[aS.view.set]{fullShare} aS.view.writes (Elt F) f LS)) -∗ K ⟨⟩))
          ⊢ wp frame (wpE (defs₀ (F := F)) Variants.none c none) E (cc1__main_kernel i a0 h0 a1 h1 a2 h2 a3 h3 a4 h4 a5 h5 aS hS) K } := by
  refine ⟨?_, fun xi E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fS, %hfS, HS⟩, Hk⟩
    obtain rfl := h0.eq_unread hf0; obtain rfl := h1.eq_unread hf1; obtain rfl := h2.eq_unread hf2; obtain rfl := h3.eq_unread hf3; obtain rfl := h4.eq_unread hf4; obtain rfl := h5.eq_unread hfO; obtain rfl := hS.eq_unread hfS
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HO]
    · iexists _; isplitr; · ipureintro; exact h5.read_unread _
      iexact HO
    iexists _; iexact HS

end Cert.KernelIdeal.Fr

end
-- ==== Proof.DenseRunLast.lean ====
import proofs.«123511_j75531294867844_2_alg».proof.Proof.DenseRunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body of region 1 at the LAST column block (k = 3): the block's product is added to the accumulator as the point before left it, and the result is stored into the output block, found at anything. On whole memrefs, the inputs at their contents, the body runs to the continuation holding the
    inputs as they were and the accumulator (at the last block also the output block) with the pieces its stores wrote: the pieces are the witness the run finds. -/
noncomputable def runLast1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i)
    (x0 : Vec F S1024x1024 .bf16) (x1 : Vec F S1024x1024 .bf16) (x2 : Vec F S1024x16 .bf16) (x3 : Vec F S16x1024 .bf16) (x4 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d) ∗ owns (c : Thread nD τ) aS fullShare xs
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ f, a5.view.loc (c : Thread nD τ) ↦[a5.view.set]{fullShare} a5.view.writes (Elt F) f LO) ∗ (∃ f, aS.view.loc (c : Thread nD τ) ↦[aS.view.set]{fullShare} aS.view.writes (Elt F) f LS)) -∗ K ⟨⟩))
          ⊢ wp frame (wpE (defs₀ (F := F)) Variants.none c none) E (cc1__main_kernel i a0 h0 a1 h1 a2 h2 a3 h3 a4 h4 a5 h5 aS hS) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fS, %hfS, HS⟩, Hk⟩
    obtain rfl := h0.eq_unread hf0; obtain rfl := h1.eq_unread hf1; obtain rfl := h2.eq_unread hf2; obtain rfl := h3.eq_unread hf3; obtain rfl := h4.eq_unread hf4; obtain rfl := hS.eq_unread hfS
    sl_exec (disch := first | exact hfirst | exact hlast)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HO]; · iexists _; iexact HO
    iexists _; iexact HS

end Cert.KernelIdeal.Fr

end
-- ==== Proof.DenseFrame.lean ====
import proofs.«123511_j75531294867844_2_alg».proof.Proof.DenseRunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the accumulator and the output block hold point by point, the invariant, the proof data and the
    body obligation -/

/-- The first-block run's pieces for the accumulator tile it, so they cover it. -/
theorem scrCoverFirst1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : atFirst1 i) (hlast : ¬atLast1 i) (x0 : Vec F S1024x1024 .bf16) (x1 : Vec F S1024x1024 .bf16) (x2 : Vec F S1024x16 .bf16) (x3 : Vec F S16x1024 .bf16) (x4 : Vec F S1x1024 .f32) (y : S1024x1024.Idx) :
    ∃ pc ∈ (runFirst1 c i a0 h0 a1 h1 a2 h2 a3 h3 a4 h4 a5 h5 aS hS hfirst hlast x0 x1 x2 x3 x4).1, y ∈ pc.1.set :=
  View.cover_of_tiledL (runFirst1 c i a0 h0 a1 h1 a2 h2 a3 h3 a4 h4 a5 h5 aS hS hfirst hlast x0 x1 x2 x3 x4).1 S1024x1024.size (by sl_kernel_rfl) y
/-- What the first block leaves in the accumulator: its pieces read back. -/
def scrFirst1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : atFirst1 i) (hlast : ¬atLast1 i) (x0 : Vec F S1024x1024 .bf16) (x1 : Vec F S1024x1024 .bf16) (x2 : Vec F S1024x16 .bf16) (x3 : Vec F S16x1024 .bf16) (x4 : Vec F S1x1024 .f32) : Vec F S1024x1024 .f32 :=
  viewScr1.read (Elt F) (viewScr1.writes (Elt F) viewScr1.junk (runFirst1 c i a0 h0 a1 h1 a2 h2 a3 h3 a4 h4 a5 h5 aS hS hfirst hlast x0 x1 x2 x3 x4).1)

theorem scrCoverMid1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : ¬atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) (y : S1024x1024.Idx) :
    ∃ pc ∈ (runMid1 c i a0 h0 a1 h1 a2 h2 a3 h3 a4 h4 a5 h5 aS hS hfirst hlast x0 x1 x2 x3 x4 xs).1, y ∈ pc.1.set :=
  View.cover_of_tiledL (runMid1 c i a0 h0 a1 h1 a2 h2 a3 h3 a4 h4 a5 h5 aS hS hfirst hlast x0 x1 x2 x3 x4 xs).1 S1024x1024.size (by sl_kernel_rfl) y
/-- What a middle block leaves in the accumulator, from what the point before left (xs). -/
def scrMid1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : ¬atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) : Vec F S1024x1024 .f32 :=
  viewScr1.read (Elt F) (viewScr1.writes (Elt F) viewScr1.junk (runMid1 c i a0 h0 a1 h1 a2 h2 a3 h3 a4 h4 a5 h5 aS hS hfirst hlast x0 x1 x2 x3 x4 xs).1)

theorem scrCoverLast1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) (y : S1024x1024.Idx) :
    ∃ pc ∈ (runLast1 c i a0 h0 a1 h1 a2 h2 a3 h3 a4 h4 a5 h5 aS hS hfirst hlast x0 x1 x2 x3 x4 xs).2.1, y ∈ pc.1.set :=
  View.cover_of_tiledL (runLast1 c i a0 h0 a1 h1 a2 h2 a3 h3 a4 h4 a5 h5 aS hS hfirst hlast x0 x1 x2 x3 x4 xs).2.1 S1024x1024.size (by sl_kernel_rfl) y
/-- What the last block leaves in the accumulator. -/
def scrLast1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) : Vec F S1024x1024 .f32 :=
  viewScr1.read (Elt F) (viewScr1.writes (Elt F) viewScr1.junk (runLast1 c i a0 h0 a1 h1 a2 h2 a3 h3 a4 h4 a5 h5 aS hS hfirst hlast x0 x1 x2 x3 x4 xs).2.1)
theorem outCover1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) (y : S1024x1024.Idx) :
    ∃ pc ∈ (runLast1 c i a0 h0 a1 h1 a2 h2 a3 h3 a4 h4 a5 h5 aS hS hfirst hlast x0 x1 x2 x3 x4 xs).1, y ∈ pc.1.set :=
  View.cover_of_tiledL (runLast1 c i a0 h0 a1 h1 a2 h2 a3 h3 a4 h4 a5 h5 aS hS hfirst hlast x0 x1 x2 x3 x4 xs).1 S1024x1024.size (by sl_kernel_rfl) y
/-- What the last block stores into the output block. -/
def outLast1 (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) : Vec F S1024x1024 .f32 :=
  viewOut1.read (Elt F) (viewOut1.writes (Elt F) viewOut1.junk (runLast1 c i a0 h0 a1 h1 a2 h2 a3 h3 a4 h4 a5 h5 aS hS hfirst hlast x0 x1 x2 x3 x4 xs).1)

/-! ## The accumulation -/

/-- What the accumulator holds after the body at position n: at a first block (n ≡ 0 mod 4) the first-block run's result,
    otherwise the middle or last run's over what position n - 1 left. -/
def accAt1 (c : Dev nD) : (n : ℕ) → n < cfg1.N → Vec F S1024x1024 .f32
  | 0, hn => scrFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((atFirst1_iff ⟨0, hn⟩).mpr (Nat.zero_mod _)) (fun h => (fun h' => by (try dsimp only at h'); omega) ((atLast1_iff ⟨0, hn⟩).mp h)) (blk1 V c 0 ⟨0, hn⟩) (blk1 V c 1 ⟨0, hn⟩) (blk1 V c 2 ⟨0, hn⟩) (blk1 V c 3 ⟨0, hn⟩) (blk1 V c 4 ⟨0, hn⟩)
  | n + 1, hn =>
    if h0 : (n + 1) % 4 = 0 then
      scrFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((atFirst1_iff ⟨n + 1, hn⟩).mpr h0) (fun h => (fun h' => by (try dsimp only at h'); omega) ((atLast1_iff ⟨n + 1, hn⟩).mp h)) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩)
    else if h3 : (n + 1) % 4 = 3 then
      scrLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((atFirst1_iff ⟨n + 1, hn⟩).mp h)) ((atLast1_iff ⟨n + 1, hn⟩).mpr h3) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (accAt1 c n (Nat.lt_of_succ_lt hn))
    else
      scrMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((atFirst1_iff ⟨n + 1, hn⟩).mp h)) (fun h => h3 ((atLast1_iff ⟨n + 1, hn⟩).mp h)) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (accAt1 c n (Nat.lt_of_succ_lt hn))

theorem accAt1_first (c : Dev nD) (t : Fin cfg1.N) (h0 : t.val % 4 = 0) (hF : atFirst1 (grid1.coords t)) (hL : ¬atLast1 (grid1.coords t)) :
    accAt1 V c t.val t.isLt = scrFirst1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hF hL (blk1 V c 0 t) (blk1 V c 1 t) (blk1 V c 2 t) (blk1 V c 3 t) (blk1 V c 4 t) := by
  obtain ⟨n, hn⟩ := t
  cases n with
  | zero => exact rfl
  | succ n => exact (dif_pos h0).trans rfl

theorem accAt1_last (c : Dev nD) (t : Fin cfg1.N) (h0 : ¬t.val % 4 = 0) (h3 : t.val % 4 = 3) (hF : ¬atFirst1 (grid1.coords t)) (hL : atLast1 (grid1.coords t)) :
    accAt1 V c t.val t.isLt = scrLast1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hF hL (blk1 V c 0 t) (blk1 V c 1 t) (blk1 V c 2 t) (blk1 V c 3 t) (blk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

theorem accAt1_mid (c : Dev nD) (t : Fin cfg1.N) (h0 : ¬t.val % 4 = 0) (h3 : ¬t.val % 4 = 3) (hF : ¬atFirst1 (grid1.coords t)) (hL : ¬atLast1 (grid1.coords t)) :
    accAt1 V c t.val t.isLt = scrMid1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hF hL (blk1 V c 0 t) (blk1 V c 1 t) (blk1 V c 2 t) (blk1 V c 3 t) (blk1 V c 4 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

/-- What the output window's staging buffer holds after the body at point t: at a last block what that run stores, over the
    accumulator as the point before left it; elsewhere the window is idle and this value is never consulted. -/
def outAt1 (c : Dev nD) (t : Fin cfg1.N) : Vec F S1024x1024 .f32 :=
  if h3 : t.val % 4 = 3 then
    outLast1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => (fun h' => by (try dsimp only at h'); omega) ((atFirst1_iff t).mp h)) ((atLast1_iff t).mpr h3) (blk1 V c 0 t) (blk1 V c 1 t) (blk1 V c 2 t) (blk1 V c 3 t) (blk1 V c 4 t) (accAt1 V c (t.val - 1) (Nat.lt_of_le_of_lt (Nat.sub_le _ _) t.isLt))
  else viewOut1.read (Elt F) viewOut1.junk

theorem outAt1_last (c : Dev nD) (t : Fin cfg1.N) (h3 : t.val % 4 = 3) (hF : ¬atFirst1 (grid1.coords t)) (hL : atLast1 (grid1.coords t)) :
    outAt1 V c t = outLast1 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hF hL (blk1 V c 0 t) (blk1 V c 1 t) (blk1 V c 2 t) (blk1 V c 3 t) (blk1 V c 4 t) (accAt1 V c (t.val - 1) (Nat.lt_of_le_of_lt (Nat.sub_le _ _) t.isLt)) :=
  dif_pos h3

/-! ## The region invariant -/

/-- Before position n: at the region's entry the scoped rest at anything; afterwards the scoped rest with the accumulator at
    what position n - 1 left in it; the generator register at some state throughout. -/
def inv1 (c : Dev nD) : (n : ℕ) → n ≤ cfg1.N → sProp 𝕄
  | 0, _ => Pipeline.ΦA spec1 c
  | n + 1, hn => iprop(restWith1 c (owns (c : Thread nD τ) scM1 fullShare (accAt1 V c n hn)) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop(restWith1 c (owns (c : Thread nD τ) scM1 fullShare (accAt1 V c n hn)) ∗ (∃ r, prngReg c r)) := rfl
theorem inv1_pos (c : Dev nD) (n : ℕ) (h : n ≤ cfg1.N) (hz : n ≠ 0) :
    inv1 V c n h = iprop(restWith1 c (owns (c : Thread nD τ) scM1 fullShare (accAt1 V c (n - 1) (by omega))) ∗ (∃ r, prngReg c r)) := by
  cases n with
  | zero => exact absurd rfl hz
  | succ n => rfl

/-! ## The proof data -/

/-- The region's proof data on core c: the arrays as the region finds them; after the body at point t each input's buffer at
    its block and the output's at outAt; the invariant above; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outAt1 V c t
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem inv1_castSucc (c : Dev nD) (t : Fin cfg1.N) :
    (dat1 V c).Φ t.castSucc = inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = outAt1 V c t := by dsimp only [dat1]
theorem held1_0 (c : Dev nD) (t : Fin cfg1.N) (d) : (dat1 V c).before 0 t d = blk1 V c 0 t :=
  held1_0_of V (dat1 V c) (A_eq1 V c 0) (after1_0 V c) t d
theorem held1_1 (c : Dev nD) (t : Fin cfg1.N) (d) : (dat1 V c).before 1 t d = blk1 V c 1 t :=
  held1_1_of V (dat1 V c) (A_eq1 V c 1) (after1_1 V c) t d
theorem held1_2 (c : Dev nD) (t : Fin cfg1.N) (d) : (dat1 V c).before 2 t d = blk1 V c 2 t :=
  held1_2_of V (dat1 V c) (A_eq1 V c 2) (after1_2 V c) t d
theorem held1_3 (c : Dev nD) (t : Fin cfg1.N) (d) : (dat1 V c).before 3 t d = blk1 V c 3 t :=
  held1_3_of V (dat1 V c) (A_eq1 V c 3) (after1_3 V c) t d
theorem held1_4 (c : Dev nD) (t : Fin cfg1.N) (d) : (dat1 V c).before 4 t d = blk1 V c 4 t :=
  held1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's position mod 4 says which run applies; the invariant
    hands the body the accumulator at what the point before left (at anything at the very first point) and takes it back at this
    point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  by_cases h0 : t.val % 4 = 0
  · have hF : atFirst1 (grid1.coords t) := (atFirst1_iff t).mpr h0
    have hL : ¬atLast1 (grid1.coords t) := fun h => by have h' := (atLast1_iff t).mp h; omega
    rw [Dat.leavesExact_idle (dat1 V c) 5 t (idle1_out t hL) (noFlush1_out t hL)]
    rw [accAt1_first V c t h0 hF hL]
    unfold scrFirst1; (try dsimp only)
    by_cases hz : t.val = 0
    ·
      rw [inv1_castSucc V c t, inv1_zero V c _ _ hz, PhiA1_eq]
      unfold restWith1
      iintro ⟨⟨⟨HR0, HR1, HR2, HR3, HR4, HR5, HR6, HS⟩, Hg⟩, Ho, ⟨%d0, H0⟩, ⟨%d1, H1⟩, ⟨%d2, H2⟩, ⟨%d3, H3⟩, ⟨%d4, H4⟩, ⟨%d5, H5⟩⟩
      iapply ((runFirst1 c (grid1.coords t) _ _ _ _ _ _ _ _ _ _ _ _ _ _ hF hL (blk1 V c 0 t) (blk1 V c 1 t) (blk1 V c 2 t) (blk1 V c 3 t) (blk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%eS, HS⟩⟩
      isplitl [HR0 HR1 HR2 HR3 HR4 HR5 HR6 HS Hg]
      · isplitl [HR0 HR1 HR2 HR3 HR4 HR5 HR6 HS]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS
          ipureintro; exact View.read_writes_of_cover _ _ _ _ _ (scrCoverFirst1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [inv1_castSucc V c t, inv1_pos V c _ _ hz]
      unfold restWith1
      iintro ⟨⟨⟨HR0, HR1, HR2, HR3, HR4, HR5, HR6, HS⟩, Hg⟩, Ho, ⟨%d0, H0⟩, ⟨%d1, H1⟩, ⟨%d2, H2⟩, ⟨%d3, H3⟩, ⟨%d4, H4⟩, ⟨%d5, H5⟩⟩
      iapply ((runFirst1 c (grid1.coords t) _ _ _ _ _ _ _ _ _ _ _ _ _ _ hF hL (blk1 V c 0 t) (blk1 V c 1 t) (blk1 V c 2 t) (blk1 V c 3 t) (blk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%eS, HS⟩⟩
      isplitl [HR0 HR1 HR2 HR3 HR4 HR5 HR6 HS Hg]
      · isplitl [HR0 HR1 HR2 HR3 HR4 HR5 HR6 HS]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS
          ipureintro; exact View.read_writes_of_cover _ _ _ _ _ (scrCoverFirst1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hF : ¬atFirst1 (grid1.coords t) := fun h => h0 ((atFirst1_iff t).mp h)
    have hz : t.val ≠ 0 := fun h => h0 (by rw [h])
    by_cases h3 : t.val % 4 = 3
    · have hL : atLast1 (grid1.coords t) := (atLast1_iff t).mpr h3
      rw [show (dat1 V c).leavesExact 5 t = owns (c : Thread nD τ) (ms1_5 t) fullShare ((dat1 V c).after 5 t) from by
        unfold Dat.leavesExact; rw [live1_out t hL], after1_5]
      rw [outAt1_last V c t h3 hF hL, accAt1_last V c t h0 h3 hF hL]
      unfold outLast1 scrLast1; (try dsimp only)
      rw [inv1_castSucc V c t, inv1_pos V c _ _ hz]
      unfold restWith1
      iintro ⟨⟨⟨HR0, HR1, HR2, HR3, HR4, HR5, HR6, HS⟩, Hg⟩, Ho, ⟨%d0, H0⟩, ⟨%d1, H1⟩, ⟨%d2, H2⟩, ⟨%d3, H3⟩, ⟨%d4, H4⟩, ⟨%d5, H5⟩⟩
      iapply ((runLast1 c (grid1.coords t) _ _ _ _ _ _ _ _ _ _ _ _ _ _ hF hL (blk1 V c 0 t) (blk1 V c 1 t) (blk1 V c 2 t) (blk1 V c 3 t) (blk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%eO, H5⟩, ⟨%eS, HS⟩⟩
      isplitl [HR0 HR1 HR2 HR3 HR4 HR5 HR6 HS Hg]
      · isplitl [HR0 HR1 HR2 HR3 HR4 HR5 HR6 HS]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS
          ipureintro; exact View.read_writes_of_cover _ _ _ _ _ (scrCoverLast1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCover1 c _ _ _ _ _ _ _ _ _ _ _ _ _ _ _ _ _ _ _ _ _ _ _)
    · have hL : ¬atLast1 (grid1.coords t) := fun h => h3 ((atLast1_iff t).mp h)
      rw [Dat.leavesExact_idle (dat1 V c) 5 t (idle1_out t hL) (noFlush1_out t hL)]
      rw [accAt1_mid V c t h0 h3 hF hL]
      unfold scrMid1; (try dsimp only)
      rw [inv1_castSucc V c t, inv1_pos V c _ _ hz]
      unfold restWith1
      iintro ⟨⟨⟨HR0, HR1, HR2, HR3, HR4, HR5, HR6, HS⟩, Hg⟩, Ho, ⟨%d0, H0⟩, ⟨%d1, H1⟩, ⟨%d2, H2⟩, ⟨%d3, H3⟩, ⟨%d4, H4⟩, ⟨%d5, H5⟩⟩
      iapply ((runMid1 c (grid1.coords t) _ _ _ _ _ _ _ _ _ _ _ _ _ _ hF hL (blk1 V c 0 t) (blk1 V c 1 t) (blk1 V c 2 t) (blk1 V c 3 t) (blk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%eS, HS⟩⟩
      isplitl [HR0 HR1 HR2 HR3 HR4 HR5 HR6 HS Hg]
      · isplitl [HR0 HR1 HR2 HR3 HR4 HR5 HR6 HS]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          unfold owns; iexists _; isplitr
          swap; · iexact HS
          ipureintro; exact View.read_writes_of_cover _ _ _ _ _ (scrCoverMid1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point the invariant gives the entry form back: the accumulator's contents are forgotten. -/
theorem inv1_out (c : Dev nD) (t : Fin (cfg1.N + 1)) (ht : t.val ≠ 0) : (dat1 V c).Φ t ⊢ Pipeline.ΦA spec1 c := by
  rw [show (dat1 V c).Φ t = inv1 V c t.val (Nat.le_of_lt_succ t.isLt) from rfl, inv1_pos V c _ _ ht, PhiA1_eq]
  unfold restWith1
  iintro ⟨⟨HR0, HR1, HR2, HR3, HR4, HR5, HR6, HS⟩, Hg⟩
  isplitl [HR0 HR1 HR2 HR3 HR4 HR5 HR6 HS]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS
  iexact Hg

theorem inv1_last (c : Dev nD) : (dat1 V c).Φ (Fin.last cfg1.N) ⊢ Pipeline.ΦA spec1 c :=
  inv1_out V c _ (by rw [Fin.val_last]; have : cfg1.N = 256 := N_1; omega)

end Cert.KernelIdeal.Fr

end
-- ==== Proof.WholeRun.lean ====
import proofs.«123511_j75531294867844_2_alg».proof.Proof.ProjFrame
import proofs.«123511_j75531294867844_2_alg».proof.Proof.DenseFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The whole run: the program's items from the launch to the return

The buffers' contents at each boundary between items, a fold from the launch memory: a host stretch applies its operations; a
region leaves each of its arrays at what its write-backs fold to and every other buffer as it found it. -/

variable (m : (ℓ : Loc nD τ sig) → Buf (Elt F) ℓ) (ρ : Dev nD → PrngReg)

/-- Core c's buffers at launch. -/
abbrev B0 : Dev nD → Valuation τ sig (Elt F) := fun c b => (s₀ m ρ).mem ((c : Dev nD), b)
/-- After the first host stretch: the reshape and the changes of format (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit (region 1's entry). -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- At region 1's exit. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)
/-- After the last host stretch, the reshape of the result (the return). -/
abbrev B4 : Dev nD → Valuation τ sig (Elt F) := fun c => StableHlo.after hostOps2 (B3 m ρ c)

/-! ### The arguments end as launched: no host operation writes one and no region has one among its arrays -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.reshape_writes, Finset.mem_singleton]
          repeat' apply And.intro
          all_goals exact StableHlo.devRef_ne_of_ne (by decide)))
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents, the generator register at some state. -/
abbrev Tₙ (c : Dev nD) : sProp 𝕄 := iprop(StableHlo.held (c : Thread nD τ) (Pipeline.ucRefs τ sig) (B4 m ρ c) ∗ ∃ r, prngReg c r)

/-! ## The regions as items -/

set_option backward.isDefEq.respectTransparency.types false in
/-- Region 0 over the thread state: entered from every unscoped buffer at the contents before it, left at the contents after it.
    Its arrays are split out of the unscoped buffers and put back at what the write-backs leave; the generator register and the
    scoped rest go into the invariant and come back, the accumulator's contents forgotten; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from inv0_last (E1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after it.
    Its arrays are split out of the unscoped buffers and put back at what the write-backs leave; the generator register and the
    scoped rest go into the invariant and come back, the accumulator's contents forgotten; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from inv1_last (E2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates, nothing
    faulting, and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (B3 m ρ c))
          ∗ ((∃ r, prngReg c r) ∗ ∃ W, owes (c : Thread nD τ) (0 : CellTallies nD τ sig Unit) W))
        ⊢ iprop((StableHlo.held (c : Thread nD τ) (Pipeline.ucRefs τ sig) (B4 m ρ c) ∗ ∃ r, prngReg c r)
          ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun _ h => h)

/-- THE FRAME: the program terminates, nothing faulting, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run m ρ)

end Cert.KernelIdeal.Fr

end
-- ==== Proof.BoundaryReads.lean ====
import proofs.«123511_j75531294867844_2_alg».proof.Proof.WholeRun
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # What the regions find and what the program returns, traced to the argument arrays

The first host stretch re-reads x as a [16384, 4096] array and changes formats; region 0 leaves the projection in its output
array and nothing else changed; region 1 leaves the result in its output array; the last host operation re-reads it as
[4, 4096, 4096]. -/

variable (m : (ℓ : Loc nD τ sig) → Buf (Elt F) ℓ) (ρ : Dev nD → PrngReg)

/-- x as region 0 and region 1 read it: re-read as 16384 rows, then the change of format. -/
theorem E1_main_v1 (c : Dev nD) : E1 m ρ c main_v1
    = truncf .bf16 (shapeCast S16384x4096 (m ((c : Thread nD τ).loc main_arg0)) shapeCasts_S4x4096x4096_S16384x4096) bitsLt_bf16_f32 := by
  show StableHlo.after hostOps0 (B0 m ρ c) (Proc.devRef .tc main_v1) = _
  after_results; rfl
/-- W after the change of format. -/
theorem E1_main_v2 (c : Dev nD) : E1 m ρ c main_v2 = truncf .bf16 (m ((c : Thread nD τ).loc main_arg1)) bitsLt_bf16_f32 := by
  show StableHlo.after hostOps0 (B0 m ρ c) (Proc.devRef .tc main_v2) = _
  after_results
/-- A after the change of format. -/
theorem E1_main_v3 (c : Dev nD) : E1 m ρ c main_v3 = truncf .bf16 (m ((c : Thread nD τ).loc main_arg3)) bitsLt_bf16_f32 := by
  show StableHlo.after hostOps0 (B0 m ρ c) (Proc.devRef .tc main_v3) = _
  after_results
/-- B after the change of format. -/
theorem E1_main_v4 (c : Dev nD) : E1 m ρ c main_v4 = truncf .bf16 (m ((c : Thread nD τ).loc main_arg4)) bitsLt_bf16_f32 := by
  show StableHlo.after hostOps0 (B0 m ρ c) (Proc.devRef .tc main_v4) = _
  after_results
/-- The bias as a single row. -/
theorem E1_main_v5 (c : Dev nD) : E1 m ρ c main_v5 = shapeCast S1x4096 (m ((c : Thread nD τ).loc main_arg2)) shapeCasts_S4096_S1x4096 := by
  show StableHlo.after hostOps0 (B0 m ρ c) (Proc.devRef .tc main_v5) = _
  after_results; rfl

/-- Region 0 only reads x and A: they reach region 1 as region 0 found them. -/
theorem E2_main_v1 (c : Dev nD) : E2 m ρ c main_v1 = E1 m ρ c main_v1 :=
  (B2_arr m ρ c 0).trans (((dat0 (E1 m ρ) c).arrAt_in 0 rfl _).trans (A_eq0 (E1 m ρ) c 0))
theorem E2_main_v2 (c : Dev nD) : E2 m ρ c main_v2 = E1 m ρ c main_v2 := B2_of_ne m ρ c main_v2 (by decide)
theorem E2_main_v4 (c : Dev nD) : E2 m ρ c main_v4 = E1 m ρ c main_v4 := B2_of_ne m ρ c main_v4 (by decide)
theorem E2_main_v5 (c : Dev nD) : E2 m ρ c main_v5 = E1 m ρ c main_v5 := B2_of_ne m ρ c main_v5 (by decide)
/-- The projection, as region 1 finds it: what region 0's write-backs fold to. -/
theorem E2_main_v6 (c : Dev nD) : E2 m ρ c main_v6 = (dat0 (E1 m ρ) c).arrAt 2 cfg0.N := B2_arr m ρ c 2
/-- Region 1's output array at its exit. -/
theorem B3_main_v7 (c : Dev nD) : B3 m ρ c (Proc.devRef .tc main_v7) = (dat1 (E2 m ρ) c).arrAt 5 cfg1.N := B3_arr m ρ c 5
/-- The returned array: region 1's output re-read as [4, 4096, 4096]. -/
theorem B4_main_v8 (c : Dev nD) : B4 m ρ c (Proc.devRef .tc main_v8)
    = shapeCast S4x4096x4096 (B3 m ρ c (Proc.devRef .tc main_v7)) shapeCasts_S16384x4096_S4x4096x4096 := by
  show StableHlo.after hostOps2 (B3 m ρ c) (Proc.devRef .tc main_v8) = _
  after_results; rfl

end Cert.KernelIdeal.Fr

end
-- ==== Proof.LoraSpec.lean ====
/-
  The low-rank-adapted linear map, entry by entry.

  For x : [4, 4096, 4096], W : [4096, 4096], bias : [4096], A : [4096, 16], B : [16, 4096] the entry (b, s, f) of
  the result is

      ((sum over d < 4096 of x[b,s,d] * W[d,f])
         + (sum over r < 16 of (sum over d < 4096 of x[b,s,d] * A[d,r]) * B[r,f]) * one)
        + bias[f]

  on the extended reals, where one is the value of the f32 word 0x3F800000, kept as that word. The grouping is the
  one written here; no law of the extended reals is used in this module.
-/
import Idealize.ShloMosaic.PureOps.Ideal
import Idealize.ShloMosaic.Lib.ValueIdx

noncomputable section

open scoped BigOperators

namespace Cert.LoraLinear

open Idealize.ShloMosaic Idealize.ShloMosaic.ValueIdx

/-- The scaling factor of the low-rank term: the value of the f32 word 0x3F800000, kept as that word. -/
abbrev scale : EReal := Ideal.ofBits .f32 0x3F800000#32

/-- The dense term at (b, s, f): the sum over d of x[b,s,d] * W[d,f]. -/
def dense (x : (⟨3, ![4, 4096, 4096]⟩ : Shape).Idx → EReal) (W : (⟨2, ![4096, 4096]⟩ : Shape).Idx → EReal)
    (b : Fin 4) (s : Fin 4096) (f : Fin 4096) : EReal :=
  ∑ d : Fin 4096, x (ix3 b s d) * W (ix2 d f)

/-- The projection onto the low-rank coordinates at (b, s, r): the sum over d of x[b,s,d] * A[d,r]. -/
def down (x : (⟨3, ![4, 4096, 4096]⟩ : Shape).Idx → EReal) (A : (⟨2, ![4096, 16]⟩ : Shape).Idx → EReal)
    (b : Fin 4) (s : Fin 4096) (r : Fin 16) : EReal :=
  ∑ d : Fin 4096, x (ix3 b s d) * A (ix2 d r)

/-- The low-rank term at (b, s, f), before scaling: the sum over r of (the projection at (b, s, r)) * B[r,f]. -/
def lowRank (x : (⟨3, ![4, 4096, 4096]⟩ : Shape).Idx → EReal) (A : (⟨2, ![4096, 16]⟩ : Shape).Idx → EReal)
    (B : (⟨2, ![16, 4096]⟩ : Shape).Idx → EReal) (b : Fin 4) (s : Fin 4096) (f : Fin 4096) : EReal :=
  ∑ r : Fin 16, down x A b s r * B (ix2 r f)

/-- The entry (b, s, f) of the result: (dense + lowRank * scale) + bias[f], in this grouping. -/
def entry (x : (⟨3, ![4, 4096, 4096]⟩ : Shape).Idx → EReal) (W : (⟨2, ![4096, 4096]⟩ : Shape).Idx → EReal)
    (bias : (⟨1, ![4096]⟩ : Shape).Idx → EReal) (A : (⟨2, ![4096, 16]⟩ : Shape).Idx → EReal)
    (B : (⟨2, ![16, 4096]⟩ : Shape).Idx → EReal) (b : Fin 4) (s : Fin 4096) (f : Fin 4096) : EReal :=
  (dense x W b s f + lowRank x A B b s f * scale) + bias (ix1 f)

/-- The result array of the low-rank-adapted linear map, as a function of the five argument arrays
x, W, bias, A, B: at the index i its value is the entry at the coordinates (i 0, i 1, i 2). -/
def G (x : (⟨3, ![4, 4096, 4096]⟩ : Shape).Idx → EReal) (W : (⟨2, ![4096, 4096]⟩ : Shape).Idx → EReal)
    (bias : (⟨1, ![4096]⟩ : Shape).Idx → EReal) (A : (⟨2, ![4096, 16]⟩ : Shape).Idx → EReal)
    (B : (⟨2, ![16, 4096]⟩ : Shape).Idx → EReal) : (⟨3, ![4, 4096, 4096]⟩ : Shape).Idx → EReal :=
  fun i => entry x W bias A B (i 0) (i 1) (i 2)

/-- G at the index with coordinates (b, s, f) is the entry at (b, s, f). -/
theorem G_ix3 (x : (⟨3, ![4, 4096, 4096]⟩ : Shape).Idx → EReal) (W : (⟨2, ![4096, 4096]⟩ : Shape).Idx → EReal)
    (bias : (⟨1, ![4096]⟩ : Shape).Idx → EReal) (A : (⟨2, ![4096, 16]⟩ : Shape).Idx → EReal)
    (B : (⟨2, ![16, 4096]⟩ : Shape).Idx → EReal) (b : Fin 4) (s : Fin 4096) (f : Fin 4096) :
    G x W bias A B (ix3 b s f) = entry x W bias A B b s f := rfl

/-- The entry (b, s, f) written out: single sums over the 4096 input coordinates and over the 16 low-rank
coordinates. -/
theorem entry_eq (x : (⟨3, ![4, 4096, 4096]⟩ : Shape).Idx → EReal) (W : (⟨2, ![4096, 4096]⟩ : Shape).Idx → EReal)
    (bias : (⟨1, ![4096]⟩ : Shape).Idx → EReal) (A : (⟨2, ![4096, 16]⟩ : Shape).Idx → EReal)
    (B : (⟨2, ![16, 4096]⟩ : Shape).Idx → EReal) (b : Fin 4) (s : Fin 4096) (f : Fin 4096) :
    entry x W bias A B b s f
      = ((∑ d : Fin 4096, x (ix3 b s d) * W (ix2 d f))
          + (∑ r : Fin 16, (∑ d : Fin 4096, x (ix3 b s d) * A (ix2 d r)) * B (ix2 r f))
            * Ideal.ofBits .f32 0x3F800000#32)
        + bias (ix1 f) := rfl

end Cert.LoraLinear

end
-- ==== Proof.ProjPieces.lean ====
/-
  Region 0 (the projection onto the low-rank coordinates): what each of the three whole-body runs leaves in the
  accumulator and in the output block, as the body's arithmetic applied to the blocks it read.

  At the first column block the accumulator is zeroed and the block's product added to that zero; at a later block
  the product is added to what the point before left; at the last block the result, narrowed to the output's
  format, is what the output block receives.
-/
import proofs.«123511_j75531294867844_2_alg».proof.Proof.ProjFrame
import Idealize.ShloMosaic.Lib.Pipeline.Value

set_option maxRecDepth 16384

noncomputable section

namespace Cert.KernelIdeal.ProjValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole 2-axis block. -/
theorem hz2 : (![0, 0] : Fin 2 → Nat) = fun _ => 0 := funext fun a => by fin_cases a <;> rfl

/-- The first column block leaves in the accumulator the block's product added to the zero block. -/
theorem scrFirst0_eq (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : atFirst0 i) (hlast : ¬atLast0 i) (x0 : Vec F S1024x1024 .bf16) (x1 : Vec F S1024x16 .bf16) :
    scrFirst0 c i a0 h0 a1 h1 a2 h2 aS hS hfirst hlast x0 x1 = k0_pay2 (k0_pay1 (F := F)) x0 x1 := by
  unfold scrFirst0
  rw [View.read_writes_eq_canon _ _ _ (scrCoverFirst0 c i a0 h0 a1 h1 a2 h2 aS hS hfirst hlast x0 x1)]
  unfold runFirst0
  dsimp only
  sl_unfold_words
  rw [View.canon_cons_unit_zero (S := S1024x16) hz2, View.readCov_unit_zero (S := S1024x16) _ hz2]
  simp only [View.readAt_eq_ld, h0.read_unread, h1.read_unread, View.ld_unit_zero (S := S1024x1024) hz2,
    View.ld_unit_zero (S := S1024x16) hz2]

/-- A middle column block leaves in the accumulator the block's product added to what the point before left. -/
theorem scrMid0_eq (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : ¬atLast0 i) (x0 : Vec F S1024x1024 .bf16) (x1 : Vec F S1024x16 .bf16) (xs : Vec F S1024x16 .f32) :
    scrMid0 c i a0 h0 a1 h1 a2 h2 aS hS hfirst hlast x0 x1 xs = k0_pay2 xs x0 x1 := by
  unfold scrMid0
  rw [View.read_writes_eq_canon _ _ _ (scrCoverMid0 c i a0 h0 a1 h1 a2 h2 aS hS hfirst hlast x0 x1 xs)]
  unfold runMid0
  dsimp only
  rw [View.canon_unit_zero (S := S1024x16) hz2]
  simp only [View.readAt_eq_ld, hS.read_unread, h0.read_unread, h1.read_unread, View.ld_unit_zero (S := S1024x1024) hz2,
    View.ld_unit_zero (S := S1024x16) hz2]

/-- The last column block leaves in the accumulator the block's product added to what the point before left. -/
theorem scrLast0_eq (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) :
    scrLast0 c i a0 h0 a1 h1 a2 h2 aS hS hfirst hlast x0 x1 xs = k0_pay2 xs x0 x1 := by
  unfold scrLast0
  rw [View.read_writes_eq_canon _ _ _ (scrCoverLast0 c i a0 h0 a1 h1 a2 h2 aS hS hfirst hlast x0 x1 xs)]
  unfold runLast0
  dsimp only
  sl_unfold_words
  rw [View.canon_unit_zero (S := S1024x16) hz2]
  simp only [View.readAt_eq_ld, hS.read_unread, h0.read_unread, h1.read_unread, View.ld_unit_zero (S := S1024x1024) hz2,
    View.ld_unit_zero (S := S1024x16) hz2]

/-- The last column block stores into the output block that same result, narrowed to the output's format. -/
theorem outLast0_eq (c : Dev nD) (i : grid0.Coords) (a0 : Memref sig .tc .vmem S1024x1024 .bf16) (h0 : a0.IsWhole) (a1 : Memref sig .tc .vmem S1024x16 .bf16) (h1 : a1.IsWhole) (a2 : Memref sig .tc .vmem S1024x16 .bf16) (h2 : a2.IsWhole) (aS : Memref sig .tc .vmem S1024x16 .f32) (hS : aS.IsWhole) (hfirst : ¬atFirst0 i) (hlast : atLast0 i) (x0 : Vec F S1024x1024 .bf16) (x1 : Vec F S1024x16 .bf16) (xs : Vec F S1024x16 .f32) :
    outLast0 c i a0 h0 a1 h1 a2 h2 aS hS hfirst hlast x0 x1 xs = k0_pay3 (k0_pay2 xs x0 x1) := by
  unfold outLast0
  rw [View.read_writes_eq_canon _ _ _ (outCover0 c i a0 h0 a1 h1 a2 h2 aS hS hfirst hlast x0 x1 xs)]
  unfold runLast0
  dsimp only
  sl_unfold_words
  rw [View.canon_unit_zero (S := S1024x16) hz2, View.readCov_unit_zero (S := S1024x16) _ hz2]
  simp only [View.readAt_eq_ld, hS.read_unread, h0.read_unread, h1.read_unread, View.ld_unit_zero (S := S1024x1024) hz2,
    View.ld_unit_zero (S := S1024x16) hz2]

end Cert.KernelIdeal.ProjValue

end
-- ==== Proof.ProjPayload.lean ====
/-
  Region 0 (the projection onto the low-rank coordinates): the body's arithmetic read at an entry, on the extended
  reals.

  The zero block is zero everywhere; adding a block's product to an accumulator adds, at the entry (r, q), the sum
  over the block's 1024 columns j of x0[r, j] * x1[j, q]; narrowing to the output's format changes no entry.
-/
import proofs.«123511_j75531294867844_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.ProjValue

open Cert.KernelIdeal Cert.KernelIdeal.Gen
open Idealize.ShloMosaic Idealize.ShloMosaic.ValueIdx

/-- The zero block is zero at every entry. -/
theorem k0_pay1_apply (y : S1024x16.Idx) : k0_pay1 (F := Ideal) y = 0 := by
  unfold k0_pay1
  rw [shapeCast_self]
  exact Ideal.ofBits_zero_f32

/-- The left operand's row coordinate is the entry's row. -/
theorem lhs_proj_0 (i : S1024x16.Idx) (k : dot_S1024x1024_S1024x16_S1024x16_1_0_0_1_n_n.contr.Idx) :
    (dot_S1024x1024_S1024x16_S1024x16_1_0_0_1_n_n.lhsIdx i k 0).val = (i 0).val := by
  unfold DotDims.lhsIdx
  rw [dif_neg (show ¬(0 : Fin S1024x1024.rank) ∈ dot_S1024x1024_S1024x16_S1024x16_1_0_0_1_n_n.lhsBatch by decide),
    dif_pos (show (0 : Fin S1024x1024.rank) ∈ dot_S1024x1024_S1024x16_S1024x16_1_0_0_1_n_n.lhsNonContracting by decide)]
  rfl

/-- The left operand's column coordinate is the summation position. -/
theorem lhs_proj_1 (i : S1024x16.Idx) (k : dot_S1024x1024_S1024x16_S1024x16_1_0_0_1_n_n.contr.Idx) :
    (dot_S1024x1024_S1024x16_S1024x16_1_0_0_1_n_n.lhsIdx i k 1).val = (k ⟨0, by decide⟩).val :=
  dot_S1024x1024_S1024x16_S1024x16_1_0_0_1_n_n.lhsIdx_val_of_single rfl i k

/-- The right operand's row coordinate is the summation position. -/
theorem rhs_proj_0 (i : S1024x16.Idx) (k : dot_S1024x1024_S1024x16_S1024x16_1_0_0_1_n_n.contr.Idx) :
    (dot_S1024x1024_S1024x16_S1024x16_1_0_0_1_n_n.rhsIdx i k 0).val = (k ⟨0, by decide⟩).val :=
  dot_S1024x1024_S1024x16_S1024x16_1_0_0_1_n_n.rhsIdx_val_of_single rfl i k

/-- The right operand's column coordinate is the entry's column. -/
theorem rhs_proj_1 (i : S1024x16.Idx) (k : dot_S1024x1024_S1024x16_S1024x16_1_0_0_1_n_n.contr.Idx) :
    (dot_S1024x1024_S1024x16_S1024x16_1_0_0_1_n_n.rhsIdx i k 1).val = (i 1).val := by
  unfold DotDims.rhsIdx
  rw [dif_neg (show ¬(1 : Fin S1024x16.rank) ∈ dot_S1024x1024_S1024x16_S1024x16_1_0_0_1_n_n.rhsBatch by decide),
    dif_pos (show (1 : Fin S1024x16.rank) ∈ dot_S1024x1024_S1024x16_S1024x16_1_0_0_1_n_n.rhsNonContracting by decide)]
  rfl

/-- The left operand of the block's product at (r, q) and column j is read at (r, j). -/
theorem lhs_proj (r : Fin 1024) (q : Fin 16) (j : Fin 1024) :
    dot_S1024x1024_S1024x16_S1024x16_1_0_0_1_n_n.lhsIdx (ix2 r q)
        ((contrEquiv1 dot_S1024x1024_S1024x16_S1024x16_1_0_0_1_n_n 1024 rfl rfl).symm j) = ix2 r j := by
  have hk := contrEquiv1_symm_val dot_S1024x1024_S1024x16_S1024x16_1_0_0_1_n_n 1024 rfl rfl j
  exact funext fun a => Fin.ext (by
    match a with
    | ⟨0, _⟩ => exact lhs_proj_0 _ _
    | ⟨1, _⟩ => exact (lhs_proj_1 _ _).trans hk)

/-- The right operand of the block's product at (r, q) and column j is read at (j, q). -/
theorem rhs_proj (r : Fin 1024) (q : Fin 16) (j : Fin 1024) :
    dot_S1024x1024_S1024x16_S1024x16_1_0_0_1_n_n.rhsIdx (ix2 r q)
        ((contrEquiv1 dot_S1024x1024_S1024x16_S1024x16_1_0_0_1_n_n 1024 rfl rfl).symm j) = ix2 j q := by
  have hk := contrEquiv1_symm_val dot_S1024x1024_S1024x16_S1024x16_1_0_0_1_n_n 1024 rfl rfl j
  exact funext fun a => Fin.ext (by
    match a with
    | ⟨0, _⟩ => exact (rhs_proj_0 _ _).trans hk
    | ⟨1, _⟩ => exact rhs_proj_1 _ _)

/-- Adding a block's product to the accumulator xs adds, at the entry (r, q), the sum over the block's 1024 columns
j of x0[r, j] * x1[j, q]. -/
theorem k0_pay2_apply (xs : FVec Ideal S1024x16 .f32) (x0 : FVec Ideal S1024x1024 .bf16) (x1 : FVec Ideal S1024x16 .bf16)
    (r : Fin 1024) (q : Fin 16) :
    k0_pay2 (F := Ideal) xs x0 x1 (ix2 r q) = xs (ix2 r q) + ∑ j : Fin 1024, x0 (ix2 r j) * x1 (ix2 j q) := by
  unfold k0_pay2
  rw [shapeCast_self, shapeCast_self, shapeCast_self]
  refine (addf_apply _ _ _).trans ?_
  refine congrArg (xs (ix2 r q) + ·) ?_
  refine (Ideal.matmul_constant_zero_apply dot_S1024x1024_S1024x16_S1024x16_1_0_0_1_n_n none x0 x1 (ix2 r q)).trans ?_
  rw [← Equiv.sum_comp (contrEquiv1 dot_S1024x1024_S1024x16_S1024x16_1_0_0_1_n_n 1024 rfl rfl).symm]
  refine Finset.sum_congr rfl fun j _ => ?_
  rw [lhs_proj r q j, rhs_proj r q j]

/-- Narrowing to the output's format changes no entry. -/
theorem k0_pay3_apply (v : FVec Ideal S1024x16 .f32) (y : S1024x16.Idx) : k0_pay3 (F := Ideal) v y = v y := rfl

end Cert.KernelIdeal.ProjValue

end
-- ==== Proof.LibTilePool.lean ====
/-
  Pooling a long axis tile by tile, on the extended reals (and, where cheaper, on any commutative monoid / any
  join-semilattice with a bottom).

  A sum (a supremum) over a*b positions is the sum (supremum) over the a tiles of the sum (supremum) over the b
  positions of each tile; an accumulator that starts at the first tile's value and adds (takes the maximum with) one
  further tile per step ends at the sum (supremum) over all tiles; twice an extended real is that number added to
  itself, so adding the same bias to two summands adds twice the bias to their sum; three float words.
-/
import Mathlib
import Idealize.ShloMosaic.PureOps.Ideal
import Idealize.ShloMosaic.PureOps.Ideal.Laws
import Idealize.ShloMosaic.Lib.IdealHost

noncomputable section

open scoped BigOperators

namespace Cert.TilePool

open Idealize.ShloMosaic

/-- Position l of tile k, of a tiles of b positions each, is a position below a*b. -/
theorem tile_lt {a b : ℕ} (k : Fin a) (l : Fin b) : k.val * b + l.val < a * b := by
  have hk : k.val + 1 ≤ a := k.isLt
  calc k.val * b + l.val < k.val * b + b := by have := l.isLt; omega
    _ = (k.val + 1) * b := by ring
    _ ≤ a * b := Nat.mul_le_mul_right b hk

/-- Position l of tile k, as an element of Fin (a*b). -/
def tilePos {a b : ℕ} (k : Fin a) (l : Fin b) : Fin (a * b) := ⟨k.val * b + l.val, tile_lt k l⟩

@[simp] theorem tilePos_val {a b : ℕ} (k : Fin a) (l : Fin b) : (tilePos k l).val = k.val * b + l.val := rfl

/-- Every position below a*b is position (s mod b) of tile (s div b). -/
theorem exists_tilePos {a b : ℕ} (s : Fin (a * b)) : ∃ (k : Fin a) (l : Fin b), tilePos k l = s := by
  have hb : 0 < b := by
    rcases Nat.eq_zero_or_pos b with h | h
    · exfalso
      have h1 : s.val < a * b := s.isLt
      have h2 : a * b = 0 := by rw [h, Nat.mul_zero]
      omega
    · exact h
  refine ⟨⟨s.val / b, ?_⟩, ⟨s.val % b, Nat.mod_lt _ hb⟩, ?_⟩
  · rw [Nat.div_lt_iff_lt_mul hb]; exact s.isLt
  · apply Fin.ext; simp only [tilePos_val]; exact Nat.div_add_mod' s.val b

/-- (1) A sum over a*b positions is the sum over the a tiles of the sum over each tile's b positions. -/
theorem sum_tiles {α : Type*} [AddCommMonoid α] (a b : ℕ) (f : Fin (a * b) → α) :
    ∑ s : Fin (a * b), f s = ∑ k : Fin a, ∑ l : Fin b, f (tilePos k l) := by
  rw [← Fintype.sum_prod_type', ← (finProdFinEquiv (m := a) (n := b)).sum_comp]
  apply Fintype.sum_congr
  rintro ⟨k, l⟩
  congr 1
  apply Fin.ext
  simp only [finProdFinEquiv_apply_val, tilePos_val]
  ring

/-- (2) A supremum over a*b positions is the supremum over the a tiles of the supremum over each tile's b positions. -/
theorem sup_tiles {α : Type*} [SemilatticeSup α] [OrderBot α] (a b : ℕ) (f : Fin (a * b) → α) :
    Finset.univ.sup f = Finset.univ.sup fun k : Fin a => Finset.univ.sup fun l : Fin b => f (tilePos k l) := by
  apply le_antisymm
  · apply Finset.sup_le
    intro s _
    obtain ⟨k, l, rfl⟩ := exists_tilePos s
    exact le_trans (Finset.le_sup (f := fun l : Fin b => f (tilePos k l)) (Finset.mem_univ l))
      (Finset.le_sup (f := fun k : Fin a => Finset.univ.sup fun l : Fin b => f (tilePos k l)) (Finset.mem_univ k))
  · apply Finset.sup_le
    intro k _
    apply Finset.sup_le
    intro l _
    exact Finset.le_sup (Finset.mem_univ _)

/-- (3, sums) An accumulator that starts at the first summand and adds one further summand per step ends at the sum
of all of them. -/
theorem acc_add_last {α : Type*} [AddCommMonoid α] : ∀ (n : ℕ) (g acc : Fin (n + 1) → α),
    acc 0 = g 0 → (∀ k : Fin n, acc k.succ = acc k.castSucc + g k.succ) → acc (Fin.last n) = ∑ k, g k
  | 0, g, acc, h0, _ => by
      rw [Fin.sum_univ_succ, Fin.sum_univ_zero, add_zero]
      exact h0
  | n + 1, g, acc, h0, hs => by
      have ih := acc_add_last n (fun k => g k.castSucc) (fun k => acc k.castSucc)
        (by show acc (Fin.castSucc 0) = g (Fin.castSucc 0); rw [Fin.castSucc_zero]; exact h0)
        (fun k => by
          show acc k.succ.castSucc = acc k.castSucc.castSucc + g k.succ.castSucc
          rw [← Fin.succ_castSucc]; exact hs k.castSucc)
      rw [Fin.sum_univ_castSucc, ← ih, ← Fin.succ_last, hs (Fin.last n)]

/-- (3, sums, from a starting value) An accumulator that starts at a0 and adds summand k at step k holds, after n
steps, a0 plus the first n summands. -/
theorem acc_add_range {α : Type*} [AddCommMonoid α] (a0 : α) (g acc : ℕ → α)
    (h0 : acc 0 = a0) (hs : ∀ k, acc (k + 1) = acc k + g k) (n : ℕ) :
    acc n = a0 + ∑ k ∈ Finset.range n, g k := by
  induction n with
  | zero => simpa using h0
  | succ n ih => rw [hs, ih, Finset.sum_range_succ, add_assoc]

/-- (3, maxima) An accumulator that starts at the first entry and takes the maximum with one further entry per step
ends at the supremum of all of them. -/
theorem acc_max_last {α : Type*} [SemilatticeSup α] [OrderBot α] (n : ℕ) (g acc : Fin (n + 1) → α)
    (h0 : acc 0 = g 0) (hs : ∀ k : Fin n, acc k.succ = acc k.castSucc ⊔ g k.succ) :
    acc (Fin.last n) = Finset.univ.sup g := by
  have hle : ∀ j : Fin (n + 1), acc j ≤ Finset.univ.sup g := by
    intro j
    induction j using Fin.induction with
    | zero => rw [h0]; exact Finset.le_sup (Finset.mem_univ _)
    | succ k ih => rw [hs]; exact sup_le ih (Finset.le_sup (Finset.mem_univ _))
  have hge : ∀ j k : Fin (n + 1), k ≤ j → g k ≤ acc j := by
    intro j
    induction j using Fin.induction with
    | zero =>
        intro k hk
        have : k = 0 := Fin.le_zero_iff.mp hk
        rw [this, h0]
    | succ i ih =>
        intro k hk
        rw [hs]
        rcases eq_or_lt_of_le hk with h | h
        · rw [h]; exact le_sup_right
        · exact le_trans (ih k (Fin.le_castSucc_iff.mpr h)) le_sup_left
  apply le_antisymm (hle _)
  apply Finset.sup_le
  intro k _
  exact hge _ k (Fin.le_last k)

/-- (3, eight summands) The left-nested sum of eight terms is their sum. -/
theorem add8_eq_sum {α : Type*} [AddCommMonoid α] (g : Fin 8 → α) :
    ((((((g 0 + g 1) + g 2) + g 3) + g 4) + g 5) + g 6) + g 7 = ∑ k, g k := by
  rw [Fin.sum_univ_eight]

/-- (3, eight entries) The left-nested maximum of eight entries is their supremum. -/
theorem max8_eq_sup {α : Type*} [LinearOrder α] [OrderBot α] (g : Fin 8 → α) :
    max (max (max (max (max (max (max (g 0) (g 1)) (g 2)) (g 3)) (g 4)) (g 5)) (g 6)) (g 7) = Finset.univ.sup g := by
  apply le_antisymm
  · refine max_le (max_le (max_le (max_le (max_le (max_le (max_le ?_ ?_) ?_) ?_) ?_) ?_) ?_) ?_ <;>
      exact Finset.le_sup (Finset.mem_univ _)
  · apply Finset.sup_le
    intro k _
    fin_cases k <;> simp [le_max_iff]

/-- (4) Twice an extended real is that number added to itself (also at the two infinities). -/
theorem two_mul_ereal (x : EReal) : (2 : EReal) * x = x + x := by
  induction x using EReal.rec with
  | bot => rw [EReal.mul_bot_of_pos (by norm_num)]; rfl
  | top => rw [EReal.mul_top_of_pos (by norm_num)]; rfl
  | coe r =>
      have h2 : (2 : EReal) = ((2 : ℝ) : EReal) := rfl
      rw [h2, ← EReal.coe_mul, ← EReal.coe_add, two_mul]

/-- (4) Adding the same number to two summands adds twice that number to their sum. -/
theorem add_bias_twice (A B x : EReal) : (A + x) + (B + x) = (A + B) + 2 * x := by
  rw [two_mul_ereal, add_add_add_comm]

/-- The f32 word 0x40000000 is 2. -/
theorem ofBits_two_f32 : Ideal.ofBits .f32 0x40000000#32 = (2 : EReal) := by
  rw [show (2 : EReal) = ((2 : ℝ) : EReal) from rfl]
  simp [Ideal.ofBits, Ideal.ieee, -EReal.coe_mul]; norm_num

/-- The f32 word 0x3F800000 is 1. -/
theorem ofBits_one_f32' : Ideal.ofBits .f32 0x3F800000#32 = (1 : EReal) := Ideal.ofBits_one_f32

/-- The f32 word 0x00000000 is 0. -/
theorem ofBits_zero_f32' : Ideal.ofBits .f32 0x00000000#32 = (0 : EReal) := Ideal.ofBits_zero_f32

end Cert.TilePool

end
-- ==== Proof.BlockSum.lean ====
/-
  A sum over 4096 positions taken as four blocks of 1024, accumulated from zero.

  With the position of entry j of block k at 1024 * k + j, the sum over the 4096 positions is the sum over the four
  blocks of the sum over each block's 1024 entries; an accumulator that starts at zero plus the first block's sum
  and adds one further block's sum per step therefore ends at the sum over all 4096 positions. Stated on any
  commutative additive monoid (the extended reals with their addition are one): only associativity, commutativity
  and 0 + a = a are used.
-/
import proofs.«123511_j75531294867844_2_alg».proof.Proof.LibTilePool

noncomputable section

open scoped BigOperators

namespace Cert.BlockSum

open Cert.TilePool

/-- Entry j of block k, of four blocks of 1024 entries each, is the position 1024 * k + j below 4096. -/
def pos (k : Fin 4) (j : Fin 1024) : Fin 4096 := ⟨1024 * k.val + j.val, by have := k.isLt; have := j.isLt; omega⟩

/-- The position of entry j of block k is 1024 * k + j. -/
@[simp] theorem pos_val (k : Fin 4) (j : Fin 1024) : (pos k j).val = 1024 * k.val + j.val := rfl

/-- A sum over 4096 positions is the sum over the four blocks of the sum over each block's 1024 entries, for any
enumeration e of the positions with e k j = 1024 * k + j. -/
theorem sum_blocks {α : Type*} [AddCommMonoid α] (e : Fin 4 → Fin 1024 → Fin 4096)
    (he : ∀ k j, (e k j).val = 1024 * k.val + j.val) (g : Fin 4096 → α) :
    ∑ d : Fin 4096, g d = ∑ k : Fin 4, ∑ j : Fin 1024, g (e k j) := by
  have h := sum_tiles 4 1024 g
  rw [show (∑ d : Fin 4096, g d) = ∑ s : Fin (4 * 1024), g s from rfl, h]
  refine Finset.sum_congr rfl fun k _ => Finset.sum_congr rfl fun j _ => ?_
  congr 1
  apply Fin.ext
  rw [he k j, tilePos_val, Nat.mul_comm]

/-- The four block sums added from the left, starting from zero, give the sum over all 4096 positions, for any
enumeration e of the positions with e k j = 1024 * k + j. -/
theorem acc_blocks {α : Type*} [AddCommMonoid α] (e : Fin 4 → Fin 1024 → Fin 4096)
    (he : ∀ k j, (e k j).val = 1024 * k.val + j.val) (g : Fin 4096 → α) :
    (((0 + ∑ j : Fin 1024, g (e 0 j)) + ∑ j : Fin 1024, g (e 1 j)) + ∑ j : Fin 1024, g (e 2 j))
        + ∑ j : Fin 1024, g (e 3 j)
      = ∑ d : Fin 4096, g d := by
  rw [sum_blocks e he g, Fin.sum_univ_four, zero_add]

/-- An accumulator over the four blocks that starts at zero plus the first block's sum and adds one further block's
sum per step ends at the sum over all 4096 positions. -/
theorem acc_last {α : Type*} [AddCommMonoid α] (e : Fin 4 → Fin 1024 → Fin 4096)
    (he : ∀ k j, (e k j).val = 1024 * k.val + j.val) (g : Fin 4096 → α) (acc : Fin 4 → α)
    (h0 : acc 0 = 0 + ∑ j : Fin 1024, g (e 0 j))
    (hs : ∀ k : Fin 3, acc k.succ = acc k.castSucc + ∑ j : Fin 1024, g (e k.succ j)) :
    acc 3 = ∑ d : Fin 4096, g d := by
  rw [sum_blocks e he g]
  exact acc_add_last 3 (fun k => ∑ j : Fin 1024, g (e k j)) acc (by rw [h0, zero_add]) hs

/-- The four block sums at the positions j, 1024 + j, 2048 + j, 3072 + j, added from the left starting from zero,
give the sum over all 4096 positions. -/
theorem acc_four_blocks {α : Type*} [AddCommMonoid α] (g : Fin 4096 → α) :
    (((0 + ∑ j : Fin 1024, g ⟨j.val, by have := j.isLt; omega⟩)
          + ∑ j : Fin 1024, g ⟨1024 + j.val, by have := j.isLt; omega⟩)
        + ∑ j : Fin 1024, g ⟨2048 + j.val, by have := j.isLt; omega⟩)
        + ∑ j : Fin 1024, g ⟨3072 + j.val, by have := j.isLt; omega⟩
      = ∑ d : Fin 4096, g d := by
  rw [← acc_blocks pos pos_val g]
  have e0 : ∀ j : Fin 1024, pos 0 j = ⟨j.val, by have := j.isLt; omega⟩ := fun j => Fin.ext (by simp)
  have e1 : ∀ j : Fin 1024, pos 1 j = ⟨1024 + j.val, by have := j.isLt; omega⟩ := fun j => Fin.ext (by simp)
  have e2 : ∀ j : Fin 1024, pos 2 j = ⟨2048 + j.val, by have := j.isLt; omega⟩ := fun j => Fin.ext (by simp)
  have e3 : ∀ j : Fin 1024, pos 3 j = ⟨3072 + j.val, by have := j.isLt; omega⟩ := fun j => Fin.ext (by simp)
  simp only [e0, e1, e2, e3]

end Cert.BlockSum

end
-- ==== Proof.ProjBlocks.lean ====
/-
  Region 0 (the projection onto the low-rank coordinates): where each window's block sits in its array.

  Point t of the 16 x 4 grid has row block t / 4 and column block t mod 4. The first input's block at t holds rows
  1024 * (t / 4) + r and columns 1024 * (t mod 4) + j of its array; the second input's block holds rows
  1024 * (t mod 4) + j of its array, all 16 columns; the output's block holds rows 1024 * (t / 4) + r, all 16 columns.
-/
import proofs.«123511_j75531294867844_2_alg».proof.Proof.ProjFrame
import proofs.«123511_j75531294867844_2_alg».proof.Proof.BlockSum
import Idealize.ShloMosaic.Lib.Pipeline.Value
import Idealize.ShloMosaic.Lib.ValueIdx

set_option maxRecDepth 16384

noncomputable section

namespace Cert.KernelIdeal.ProjValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (V : (c : Dev nD) → (b : Ref sig .tc) → Buf (Elt F) ((c : Thread nD τ).loc b))

/-- Row r of row block I, of 16 row blocks of 1024 rows each, is the row 1024 * I + r below 16384. -/
def rowAt (I : Fin 16) (r : Fin 1024) : Fin 16384 := ⟨1024 * I.val + r.val, by have := I.isLt; have := r.isLt; omega⟩

/-- The row of entry r of row block I is 1024 * I + r. -/
@[simp] theorem rowAt_val (I : Fin 16) (r : Fin 1024) : (rowAt I r).val = 1024 * I.val + r.val := rfl

/-- The first input's block index at point t is (t / 4, t mod 4). -/
theorem idx0_0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)

/-- The second input's block index at point t is (t mod 4, 0). -/
theorem idx0_1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)

/-- The output's block index at point t is (t / 4, 0). -/
theorem idx0_2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

/-- The first input's block at the point with row block I and column block k, read at (r, j), is its array at
(1024 * I + r, 1024 * k + j). -/
theorem blk0_0_apply (c : Dev nD) (t : Fin cfg0.N) (I : Fin 16) (k : Fin 4) (hI : t.val / 4 = I.val) (hk : t.val % 4 = k.val)
    (r : Fin 1024) (j : Fin 1024) :
    (blk0 V c 0 t : Vec F S1024x1024 .bf16) (ix2 r j)
      = (V c main_v1 : Vec F S16384x4096 .bf16) (ix2 (rowAt I r) (Cert.BlockSum.pos k j)) := by
  have hi := idx0_0 t
  unfold blk0
  rw [View.read_apply]
  show V c main_v1 _ = V c main_v1 _
  congr 1
  funext a
  apply Fin.ext
  match a with
  | ⟨0, _⟩ =>
    show win0_0.index t 0 * 1024 + 1 * r.val = 1024 * I.val + r.val
    rw [hi.1, hI]; omega
  | ⟨1, _⟩ =>
    show win0_0.index t 1 * 1024 + 1 * j.val = 1024 * k.val + j.val
    rw [hi.2, hk]; omega

/-- The second input's block at a point with column block k, read at (j, q), is its array at (1024 * k + j, q). -/
theorem blk0_1_apply (c : Dev nD) (t : Fin cfg0.N) (k : Fin 4) (hk : t.val % 4 = k.val) (j : Fin 1024) (q : Fin 16) :
    (blk0 V c 1 t : Vec F S1024x16 .bf16) (ix2 j q)
      = (V c main_v3 : Vec F S4096x16 .bf16) (ix2 (Cert.BlockSum.pos k j) q) := by
  have hi := idx0_1 t
  unfold blk0
  rw [View.read_apply]
  show V c main_v3 _ = V c main_v3 _
  congr 1
  funext a
  apply Fin.ext
  match a with
  | ⟨0, _⟩ =>
    show win0_1.index t 0 * 1024 + 1 * j.val = 1024 * k.val + j.val
    rw [hi.1, hk]; omega
  | ⟨1, _⟩ =>
    show win0_1.index t 1 * 16 + 1 * q.val = q.val
    rw [hi.2]; omega

end Cert.KernelIdeal.ProjValue

end
-- ==== Proof.ProjAcc.lean ====
/-
  Region 0 (the projection onto the low-rank coordinates): what the accumulator holds point by point, on the
  extended reals.

  Inside row block I, after the column block k the accumulator's entry (r, q) is zero plus the first k + 1 block
  sums of the products x[1024 * I + r, d] * A[d, q]; after the last column block it is the sum over all 4096
  columns d.
-/
import proofs.«123511_j75531294867844_2_alg».proof.Proof.ProjPieces
import proofs.«123511_j75531294867844_2_alg».proof.Proof.ProjPayload
import proofs.«123511_j75531294867844_2_alg».proof.Proof.ProjBlocks

set_option maxRecDepth 16384

noncomputable section

namespace Cert.KernelIdeal.ProjValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.BlockSum
open scoped BigOperators

variable (V : (c : Dev nD) → (b : Ref sig .tc) → Buf (Elt Ideal) ((c : Thread nD τ).loc b))

/-- The first input array x, [16384, 4096], as the region finds it. -/
abbrev xArr (c : Dev nD) : FVec Ideal S16384x4096 .bf16 := V c main_v1

/-- The second input array A, [4096, 16], as the region finds it. -/
abbrev aArr (c : Dev nD) : FVec Ideal S4096x16 .bf16 := V c main_v3

/-- The first input's block at point t. -/
abbrev xBlk (c : Dev nD) (t : Fin cfg0.N) : FVec Ideal S1024x1024 .bf16 := blk0 V c 0 t

/-- The second input's block at point t. -/
abbrev aBlk (c : Dev nD) (t : Fin cfg0.N) : FVec Ideal S1024x16 .bf16 := blk0 V c 1 t

/-- The product the projection sums at row 1024 * I + r, low-rank coordinate q and column d:
x[1024 * I + r, d] * A[d, q]. -/
def term (c : Dev nD) (I : Fin 16) (r : Fin 1024) (q : Fin 16) (d : Fin 4096) : EReal :=
  xArr V c (ix2 (rowAt I r) d) * aArr V c (ix2 d q)

/-- The sum of g over column block k. -/
def blockSum (g : Fin 4096 → EReal) (k : Fin 4) : EReal := ∑ j : Fin 1024, g (pos k j)

/-- Zero plus the first k + 1 block sums of g, added from the left. -/
def partialSum (g : Fin 4096 → EReal) : Fin 4 → EReal
  | ⟨0, _⟩ => 0 + blockSum g 0
  | ⟨1, _⟩ => (0 + blockSum g 0) + blockSum g 1
  | ⟨2, _⟩ => ((0 + blockSum g 0) + blockSum g 1) + blockSum g 2
  | ⟨3, _⟩ => (((0 + blockSum g 0) + blockSum g 1) + blockSum g 2) + blockSum g 3

/-- One further block sum is added per column block. -/
theorem partialSum_succ (g : Fin 4096 → EReal) : ∀ (k : ℕ) (h : k + 1 < 4),
    partialSum g ⟨k + 1, h⟩ = partialSum g ⟨k, Nat.lt_of_succ_lt h⟩ + blockSum g ⟨k + 1, h⟩
  | 0, _ => rfl
  | 1, _ => rfl
  | 2, _ => rfl

/-- After the last column block the partial sum is the sum over all 4096 columns. -/
theorem partialSum_last (g : Fin 4096 → EReal) : partialSum g 3 = ∑ d : Fin 4096, g d :=
  acc_blocks pos pos_val g

/-- The block's product at (r, q), over the blocks the point with row block I and column block k reads, is block
sum k of the products. -/
theorem blockProduct_eq (c : Dev nD) (t : Fin cfg0.N) (I : Fin 16) (k : Fin 4) (hI : t.val / 4 = I.val)
    (hk : t.val % 4 = k.val) (r : Fin 1024) (q : Fin 16) :
    (∑ j : Fin 1024, xBlk V c t (ix2 r j) * aBlk V c t (ix2 j q)) = blockSum (term V c I r q) k :=
  Finset.sum_congr rfl fun j _ => by
    show xBlk V c t (ix2 r j) * aBlk V c t (ix2 j q) = xArr V c (ix2 (rowAt I r) (pos k j)) * aArr V c (ix2 (pos k j) q)
    rw [show xBlk V c t (ix2 r j) = xArr V c (ix2 (rowAt I r) (pos k j)) from blk0_0_apply V c t I k hI hk r j,
      show aBlk V c t (ix2 j q) = aArr V c (ix2 (pos k j) q) from blk0_1_apply V c t k hk j q]

/-- The accumulator after position n, in row block I at column block k, holds at (r, q) zero plus the first k + 1
block sums of the products. -/
theorem accAt0_apply (c : Dev nD) : ∀ (n : ℕ) (hn : n < cfg0.N) (I : Fin 16) (k : Fin 4), n / 4 = I.val → n % 4 = k.val →
    ∀ (r : Fin 1024) (q : Fin 16), (accAt0 V c n hn : FVec Ideal S1024x16 .f32) (ix2 r q) = partialSum (term V c I r q) k := by
  intro n
  induction n with
  | zero =>
    intro hn I k hI hk r q
    have hF : atFirst0 (grid0.coords (⟨0, hn⟩ : Fin cfg0.N)) := (atFirst0_iff ⟨0, hn⟩).mpr rfl
    have hL : ¬atLast0 (grid0.coords (⟨0, hn⟩ : Fin cfg0.N)) := fun h => by
      have h' : (0 : ℕ) % 4 = 3 := (atLast0_iff ⟨0, hn⟩).mp h
      omega
    have hk0 : k.val = 0 := by omega
    obtain rfl : k = 0 := Fin.ext hk0
    refine (congrFun (accAt0_first V c ⟨0, hn⟩ rfl hF hL) (ix2 r q)).trans ?_
    refine (congrFun (scrFirst0_eq (F := Ideal) c (grid0.coords (⟨0, hn⟩ : Fin cfg0.N)) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) hF hL (blk0 V c 0 ⟨0, hn⟩) (blk0 V c 1 ⟨0, hn⟩)) (ix2 r q)).trans ?_
    refine (k0_pay2_apply (k0_pay1 (F := Ideal)) (blk0 V c 0 ⟨0, hn⟩) (blk0 V c 1 ⟨0, hn⟩) r q).trans ?_
    rw [k0_pay1_apply, blockProduct_eq V c ⟨0, hn⟩ I 0 hI hk r q]
    rfl
  | succ n ih =>
    intro hn I k hI hk r q
    by_cases h0 : (n + 1) % 4 = 0
    · have hF : atFirst0 (grid0.coords (⟨n + 1, hn⟩ : Fin cfg0.N)) := (atFirst0_iff ⟨n + 1, hn⟩).mpr h0
      have hL : ¬atLast0 (grid0.coords (⟨n + 1, hn⟩ : Fin cfg0.N)) := fun h => by
        have h' : (n + 1) % 4 = 3 := (atLast0_iff ⟨n + 1, hn⟩).mp h
        omega
      have hk0 : k.val = 0 := by omega
      obtain rfl : k = 0 := Fin.ext hk0
      refine (congrFun (accAt0_first V c ⟨n + 1, hn⟩ h0 hF hL) (ix2 r q)).trans ?_
      refine (congrFun (scrFirst0_eq (F := Ideal) c (grid0.coords (⟨n + 1, hn⟩ : Fin cfg0.N)) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) hF hL (blk0 V c 0 ⟨n + 1, hn⟩) (blk0 V c 1 ⟨n + 1, hn⟩)) (ix2 r q)).trans ?_
      refine (k0_pay2_apply (k0_pay1 (F := Ideal)) (blk0 V c 0 ⟨n + 1, hn⟩) (blk0 V c 1 ⟨n + 1, hn⟩) r q).trans ?_
      rw [k0_pay1_apply, blockProduct_eq V c ⟨n + 1, hn⟩ I 0 hI hk r q]
      rfl
    · have hF : ¬atFirst0 (grid0.coords (⟨n + 1, hn⟩ : Fin cfg0.N)) := fun h => h0 ((atFirst0_iff ⟨n + 1, hn⟩).mp h)
      have hn' : n < cfg0.N := Nat.lt_of_succ_lt hn
      obtain ⟨kv, hkv⟩ := k
      have hkv' : (n + 1) % 4 = kv := hk
      obtain ⟨k', rfl⟩ : ∃ k', kv = k' + 1 := ⟨kv - 1, by omega⟩
      have hI' : n / 4 = I.val := by omega
      have hk' : n % 4 = k' := by omega
      have hprev := ih hn' I ⟨k', Nat.lt_of_succ_lt hkv⟩ hI' hk' r q
      have hstep : (k0_pay2 (F := Ideal) (accAt0 V c n hn') (blk0 V c 0 ⟨n + 1, hn⟩) (blk0 V c 1 ⟨n + 1, hn⟩) : FVec Ideal S1024x16 .f32) (ix2 r q)
          = partialSum (term V c I r q) ⟨k' + 1, hkv⟩ := by
        refine (k0_pay2_apply (accAt0 V c n hn') (blk0 V c 0 ⟨n + 1, hn⟩) (blk0 V c 1 ⟨n + 1, hn⟩) r q).trans ?_
        rw [hprev, blockProduct_eq V c ⟨n + 1, hn⟩ I ⟨k' + 1, hkv⟩ hI hk r q, partialSum_succ]
      by_cases h3 : (n + 1) % 4 = 3
      · have hL : atLast0 (grid0.coords (⟨n + 1, hn⟩ : Fin cfg0.N)) := (atLast0_iff ⟨n + 1, hn⟩).mpr h3
        refine (congrFun (accAt0_last V c ⟨n + 1, hn⟩ h0 h3 hF hL) (ix2 r q)).trans ?_
        refine (congrFun (scrLast0_eq (F := Ideal) c (grid0.coords (⟨n + 1, hn⟩ : Fin cfg0.N)) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) hF hL (blk0 V c 0 ⟨n + 1, hn⟩) (blk0 V c 1 ⟨n + 1, hn⟩) (accAt0 V c n hn')) (ix2 r q)).trans ?_
        exact hstep
      · have hL : ¬atLast0 (grid0.coords (⟨n + 1, hn⟩ : Fin cfg0.N)) := fun h => h3 ((atLast0_iff ⟨n + 1, hn⟩).mp h)
        refine (congrFun (accAt0_mid V c ⟨n + 1, hn⟩ h0 h3 hF hL) (ix2 r q)).trans ?_
        refine (congrFun (scrMid0_eq (F := Ideal) c (grid0.coords (⟨n + 1, hn⟩ : Fin cfg0.N)) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) hF hL (blk0 V c 0 ⟨n + 1, hn⟩) (blk0 V c 1 ⟨n + 1, hn⟩) (accAt0 V c n hn')) (ix2 r q)).trans ?_
        exact hstep

end Cert.KernelIdeal.ProjValue

end
-- ==== Proof.ProjFinal.lean ====
/-
  Region 0 (the projection onto the low-rank coordinates): what its output array ends holding.

  The output's block of row block I is written back once, after the last column block, when the accumulator's
  entry (r, q) is the sum over all 4096 columns d of x[1024 * I + r, d] * A[d, q]; the sixteen row blocks tile the
  array, so it ends holding, at (M, q), the sum over d of x[M, d] * A[d, q].
-/
import proofs.«123511_j75531294867844_2_alg».proof.Proof.ProjAcc

set_option maxRecDepth 16384

noncomputable section

namespace Cert.KernelIdeal.ProjValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Cert.BlockSum
open scoped BigOperators

variable (V : (c : Dev nD) → (b : Ref sig .tc) → Buf (Elt Ideal) ((c : Thread nD τ).loc b))

/-- The projection of x onto the low-rank coordinates: at (M, q) the sum over the 4096 columns d of
x[M, d] * A[d, q]. -/
def proj (c : Dev nD) : FVec Ideal S16384x16 .bf16 :=
  fun i => ∑ d : Fin 4096, xArr V c (ix2 (i 0) d) * aArr V c (ix2 d (i 1))

/-- The projection at the index with coordinates (M, q). -/
theorem proj_ix2 (c : Dev nD) (M : Fin 16384) (q : Fin 16) :
    proj V c (ix2 M q) = ∑ d : Fin 4096, xArr V c (ix2 M d) * aArr V c (ix2 d q) := rfl

/-- The output's block at a point with row block I, at (r, q), sits at (1024 * I + r, q) of its array. -/
theorem emb0_2 (t : Fin cfg0.N) (I : Fin 16) (hI : t.val / 4 = I.val) (r : Fin 1024) (q : Fin 16) :
    (((cfg0.win 2).blk t).view.emb (ix2 r q) : S16384x16.Idx) = ix2 (rowAt I r) q := by
  have hi := idx0_2 t
  funext a
  apply Fin.ext
  match a with
  | ⟨0, _⟩ =>
    show win0_2.index t 0 * 1024 + 1 * r.val = 1024 * I.val + r.val
    rw [hi.1, hI]; omega
  | ⟨1, _⟩ =>
    show win0_2.index t 1 * 16 + 1 * q.val = q.val
    rw [hi.2]; omega

/-- What a point that writes back writes is its block of the projection. -/
theorem flushed0_2_eq (c : Dev nD) (t : Fin cfg0.N) (hf : (cfg0.win 2).flush t = true) :
    (dat0 (F := Ideal) V c).flushed 2 t = ((cfg0.win 2).blk t).view.read (Elt Ideal) (proj V c) := by
  have hN : cfg0.N = 64 := N_0
  have h3 : t.val % 4 = 3 := (flush0_2 t).mp hf
  have h0 : ¬t.val % 4 = 0 := by omega
  have hF : ¬atFirst0 (grid0.coords t) := fun h => h0 ((atFirst0_iff t).mp h)
  have hL : atLast0 (grid0.coords t) := (atLast0_iff t).mpr h3
  have hIlt : t.val / 4 < 16 := by have := t.isLt; omega
  show (cfg0.win 2).cut (grid0.coords t) ((dat0 (F := Ideal) V c).after 2 t) = _
  rw [after0_2, outAt0_last V c t h3 hF hL]
  rw [outLast0_eq (F := Ideal) c (grid0.coords t) (ms0_0 t) (hs0_0 t) (ms0_1 t) (hs0_1 t) (ms0_2 t) (hs0_2 t) scM0 (Memref.isWhole_whole _) hF hL (blk0 V c 0 t) (blk0 V c 1 t) (accAt0 V c (t.val - 1) (Nat.lt_of_le_of_lt (Nat.sub_le _ _) t.isLt))]
  rw [← scrLast0_eq (F := Ideal) c (grid0.coords t) (ms0_0 t) (hs0_0 t) (ms0_1 t) (hs0_1 t) (ms0_2 t) (hs0_2 t) scM0 (Memref.isWhole_whole _) hF hL (blk0 V c 0 t) (blk0 V c 1 t) (accAt0 V c (t.val - 1) (Nat.lt_of_le_of_lt (Nat.sub_le _ _) t.isLt)),
    ← accAt0_last V c t h0 h3 hF hL]
  funext j
  obtain ⟨r, q, rfl⟩ : ∃ (r : Fin 1024) (q : Fin 16), j = ix2 r q := ⟨j 0, j 1, eq_ix2 j⟩
  show (accAt0 V c t.val t.isLt : FVec Ideal S1024x16 .f32) (ix2 r q) = proj V c (((cfg0.win 2).blk t).view.emb (ix2 r q))
  rw [emb0_2 t ⟨t.val / 4, hIlt⟩ rfl r q, accAt0_apply V c t.val t.isLt ⟨t.val / 4, hIlt⟩ 3 rfl h3 r q, partialSum_last]
  rfl

/-- An index of the output array is in point t's block iff each coordinate is in the block's range on its axis. -/
theorem mem_blk0_2 (t : Fin cfg0.N) (i : S16384x16.Idx) :
    i ∈ ((cfg0.win 2).blk t).view.set ↔ ∀ a : Fin 2, win0_2.index t a * S1024x16.size a ≤ (i a).val ∧ (i a).val < win0_2.index t a * S1024x16.size a + S1024x16.size a := by
  show i ∈ ((View.whole main_v6).slice (win0_2.rect t)).set ↔ _
  rw [View.set_slice_whole, Rect.mem_set_unit]
  exact Iff.rfl

/-- Every index of the output array is in the block of a point that writes back: row M is in row block M / 1024,
written back at the point 4 * (M / 1024) + 3. -/
theorem cover0_2 (i : S16384x16.Idx) : ∃ t : Fin cfg0.N, (cfg0.win 2).flush t = true ∧ i ∈ ((cfg0.win 2).blk t).view.set := by
  have hN : cfg0.N = 64 := N_0
  have hi0 : (i 0).val < 16384 := (i 0).isLt
  have hi1 : (i 1).val < 16 := (i 1).isLt
  obtain ⟨t, ht⟩ : ∃ t : Fin cfg0.N, t.val = 4 * ((i 0).val / 1024) + 3 :=
    ⟨⟨4 * ((i 0).val / 1024) + 3, by omega⟩, rfl⟩
  have hi := idx0_2 t
  refine ⟨t, (flush0_2 t).mpr (by omega), ?_⟩
  rw [mem_blk0_2]
  intro a
  match a with
  | ⟨0, _⟩ =>
    show win0_2.index t (0 : Fin 2) * 1024 ≤ (i 0).val ∧ (i 0).val < win0_2.index t (0 : Fin 2) * 1024 + 1024
    rw [hi.1]; omega
  | ⟨1, _⟩ =>
    show win0_2.index t (1 : Fin 2) * 16 ≤ (i 1).val ∧ (i 1).val < win0_2.index t (1 : Fin 2) * 16 + 16
    rw [hi.2]; omega

/-- The output array of region 0 ends holding the projection. -/
theorem proj_final (c : Dev nD) : (dat0 (F := Ideal) V c).arrAt 2 cfg0.N = proj V c :=
  (dat0 (F := Ideal) V c).arrAt_eq_of_cover 2 (proj V c) (flushed0_2_eq V c) cover0_2

/-- The output array of region 0 ends holding, at (M, q), the sum over the 4096 columns d of x[M, d] * A[d, q]. -/
theorem proj_final_ix2 (c : Dev nD) (M : Fin 16384) (q : Fin 16) :
    ((dat0 (F := Ideal) V c).arrAt 2 cfg0.N : FVec Ideal S16384x16 .bf16) (ix2 M q)
      = ∑ d : Fin 4096, xArr V c (ix2 M d) * aArr V c (ix2 d q) :=
  (congrFun (proj_final V c) (ix2 M q)).trans (proj_ix2 V c M q)

/-- The same with the two input arrays named: if the region finds x at X1 and A at X3, its output array ends
holding, at (M, r), the sum over the 4096 columns d of X1[M, d] * X3[d, r]. -/
theorem proj_final_apply (c : Dev nD) (X1 : FVec Ideal S16384x4096 .bf16) (X3 : FVec Ideal S4096x16 .bf16)
    (h1 : V c main_v1 = X1) (h3 : V c main_v3 = X3) (M : Fin 16384) (r : Fin 16) :
    (dat0 (F := Ideal) V c).arrAt 2 cfg0.N (ix2 M r) = ∑ d : Fin 4096, X1 (ix2 M d) * X3 (ix2 d r) := by
  subst h1 h3
  exact proj_final_ix2 V c M r

end Cert.KernelIdeal.ProjValue

end
-- ==== Proof.DensePieces.lean ====
/-
  Region 1 (the dense layer): what each of the three whole-body runs leaves in the accumulator and in the output
  block, as the body's arithmetic applied to the blocks it read.

  At the first block of the contraction the accumulator is zeroed and the block's product added to that zero; at a
  later block the product is added to what the point before left; at the last block the output block receives that
  sum plus the low-rank product (scaled) plus the bias row.
-/
import proofs.«123511_j75531294867844_2_alg».proof.Proof.DenseFrame
import Idealize.ShloMosaic.Lib.Pipeline.Value

set_option maxRecDepth 16384

noncomputable section

namespace Cert.KernelIdeal.DenseValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole 2-axis block. -/
theorem hz2 : (![0, 0] : Fin 2 → Nat) = fun _ => 0 := funext fun a => by fin_cases a <;> rfl

/-- The first block of the contraction leaves in the accumulator the block's product added to the zero block. -/
theorem scrFirst1_eq (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : atFirst1 i) (hlast : ¬atLast1 i) (x0 : Vec F S1024x1024 .bf16) (x1 : Vec F S1024x1024 .bf16) (x2 : Vec F S1024x16 .bf16) (x3 : Vec F S16x1024 .bf16) (x4 : Vec F S1x1024 .f32) :
    scrFirst1 c i a0 h0 a1 h1 a2 h2 a3 h3 a4 h4 a5 h5 aS hS hfirst hlast x0 x1 x2 x3 x4 = k1_pay2 (k1_pay1 (F := F)) x0 x1 := by
  unfold scrFirst1
  rw [View.read_writes_eq_canon _ _ _ (scrCoverFirst1 c i a0 h0 a1 h1 a2 h2 a3 h3 a4 h4 a5 h5 aS hS hfirst hlast x0 x1 x2 x3 x4)]
  unfold runFirst1
  dsimp only
  sl_unfold_words
  rw [View.canon_cons_unit_zero (S := S1024x1024) hz2, View.readCov_unit_zero (S := S1024x1024) _ hz2]
  simp only [View.readAt_eq_ld, h0.read_unread, h1.read_unread, View.ld_unit_zero (S := S1024x1024) hz2]

/-- A middle block leaves in the accumulator the block's product added to what the point before left. -/
theorem scrMid1_eq (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : ¬atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) :
    scrMid1 c i a0 h0 a1 h1 a2 h2 a3 h3 a4 h4 a5 h5 aS hS hfirst hlast x0 x1 x2 x3 x4 xs = k1_pay2 xs x0 x1 := by
  unfold scrMid1
  rw [View.read_writes_eq_canon _ _ _ (scrCoverMid1 c i a0 h0 a1 h1 a2 h2 a3 h3 a4 h4 a5 h5 aS hS hfirst hlast x0 x1 x2 x3 x4 xs)]
  unfold runMid1
  dsimp only
  sl_unfold_words
  rw [View.canon_unit_zero (S := S1024x1024) hz2]
  simp only [View.readAt_eq_ld, hS.read_unread, h0.read_unread, h1.read_unread, View.ld_unit_zero (S := S1024x1024) hz2]

/-- The last block leaves in the accumulator the block's product added to what the point before left. -/
theorem scrLast1_eq (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) :
    scrLast1 c i a0 h0 a1 h1 a2 h2 a3 h3 a4 h4 a5 h5 aS hS hfirst hlast x0 x1 x2 x3 x4 xs = k1_pay2 xs x0 x1 := by
  unfold scrLast1
  rw [View.read_writes_eq_canon _ _ _ (scrCoverLast1 c i a0 h0 a1 h1 a2 h2 a3 h3 a4 h4 a5 h5 aS hS hfirst hlast x0 x1 x2 x3 x4 xs)]
  unfold runLast1
  dsimp only
  sl_unfold_words
  rw [View.canon_unit_zero (S := S1024x1024) hz2]
  simp only [View.readAt_eq_ld, hS.read_unread, h0.read_unread, h1.read_unread, View.ld_unit_zero (S := S1024x1024) hz2]

/-- The last block stores into the output block that sum, plus the scaled product of the two low-rank blocks, plus
    the bias row repeated down the rows. -/
theorem outLast1_eq (c : Dev nD) (i : grid1.Coords) (a0 : Memref sig .tc .vmem S1024x1024 .bf16) (h0 : a0.IsWhole) (a1 : Memref sig .tc .vmem S1024x1024 .bf16) (h1 : a1.IsWhole) (a2 : Memref sig .tc .vmem S1024x16 .bf16) (h2 : a2.IsWhole) (a3 : Memref sig .tc .vmem S16x1024 .bf16) (h3 : a3.IsWhole) (a4 : Memref sig .tc .vmem S1x1024 .f32) (h4 : a4.IsWhole) (a5 : Memref sig .tc .vmem S1024x1024 .f32) (h5 : a5.IsWhole) (aS : Memref sig .tc .vmem S1024x1024 .f32) (hS : aS.IsWhole) (hfirst : ¬atFirst1 i) (hlast : atLast1 i) (x0 : Vec F S1024x1024 .bf16) (x1 : Vec F S1024x1024 .bf16) (x2 : Vec F S1024x16 .bf16) (x3 : Vec F S16x1024 .bf16) (x4 : Vec F S1x1024 .f32) (xs : Vec F S1024x1024 .f32) :
    outLast1 c i a0 h0 a1 h1 a2 h2 a3 h3 a4 h4 a5 h5 aS hS hfirst hlast x0 x1 x2 x3 x4 xs = k1_pay3 x2 x3 (k1_pay2 xs x0 x1) x4 := by
  unfold outLast1
  rw [View.read_writes_eq_canon _ _ _ (outCover1 c i a0 h0 a1 h1 a2 h2 a3 h3 a4 h4 a5 h5 aS hS hfirst hlast x0 x1 x2 x3 x4 xs)]
  unfold runLast1
  dsimp only
  sl_unfold_words
  rw [View.canon_unit_zero (S := S1024x1024) hz2, View.readCov_unit_zero (S := S1024x1024) _ hz2]
  simp only [View.readAt_eq_ld, hS.read_unread, h0.read_unread, h1.read_unread, h2.read_unread, h3.read_unread,
    h4.read_unread, View.ld_unit_zero (S := S1024x1024) hz2, View.ld_unit_zero (S := S1024x16) hz2,
    View.ld_unit_zero (S := S16x1024) hz2, View.ld_unit_zero (S := S1x1024) hz2]

end Cert.KernelIdeal.DenseValue

end
-- ==== Proof.DensePayload.lean ====
/-
  Region 1 (the dense layer): the body's arithmetic read at an entry, on the extended reals.

  The zero block is zero everywhere. Adding a block's product to an accumulator adds, at the entry (r, f), the sum
  over the block's 1024 contraction positions j of x0[r, j] * x1[j, f]. The last block's store holds, at (r, f), the
  accumulated entry, plus the sum over the 16 low-rank positions q of x2[r, q] * x3[q, f] times the scale word, plus
  the bias row's entry f.
-/
import proofs.«123511_j75531294867844_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DenseValue

open Cert.KernelIdeal Cert.KernelIdeal.Gen
open Idealize.ShloMosaic Idealize.ShloMosaic.ValueIdx

/-- The zero block is zero at every entry. -/
theorem k1_pay1_apply (y : S1024x1024.Idx) : k1_pay1 (F := Ideal) y = 0 := by
  unfold k1_pay1
  rw [shapeCast_self]
  exact Ideal.ofBits_zero_f32

/-- The dense block product: the left operand's row coordinate is the entry's row. -/
theorem lhsW_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The dense block product: the left operand's column coordinate is the summation position. -/
theorem lhsW_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k

/-- The dense block product: the right operand's row coordinate is the summation position. -/
theorem rhsW_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k

/-- The dense block product: the right operand's column coordinate is the entry's column. -/
theorem rhsW_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The dense block product: at the entry (r, f) and summation position j the left operand is read at (r, j). -/
theorem lhsW (r : Fin 1024) (f : Fin 1024) (j : Fin 1024) :
    dot_S1024x1024_S1024x1024_S1024x1024_1_0_0_1_n_n.lhsIdx (ix2 r f)
        ((contrEquiv1 dot_S1024x1024_S1024x1024_S1024x1024_1_0_0_1_n_n 1024 rfl rfl).symm j) = ix2 r j := by
  have hk := contrEquiv1_symm_val dot_S1024x1024_S1024x1024_S1024x1024_1_0_0_1_n_n 1024 rfl rfl j
  exact funext fun a => Fin.ext (by
    match a with
    | ⟨0, _⟩ => exact lhsW_0 _ _
    | ⟨1, _⟩ => exact (lhsW_1 _ _).trans hk)

/-- The dense block product: at the entry (r, f) and summation position j the right operand is read at (j, f). -/
theorem rhsW (r : Fin 1024) (f : Fin 1024) (j : Fin 1024) :
    dot_S1024x1024_S1024x1024_S1024x1024_1_0_0_1_n_n.rhsIdx (ix2 r f)
        ((contrEquiv1 dot_S1024x1024_S1024x1024_S1024x1024_1_0_0_1_n_n 1024 rfl rfl).symm j) = ix2 j f := by
  have hk := contrEquiv1_symm_val dot_S1024x1024_S1024x1024_S1024x1024_1_0_0_1_n_n 1024 rfl rfl j
  exact funext fun a => Fin.ext (by
    match a with
    | ⟨0, _⟩ => exact (rhsW_0 _ _).trans hk
    | ⟨1, _⟩ => exact rhsW_1 _ _)

/-- Adding a block's product to the accumulator xs adds, at the entry (r, f), the sum over the block's 1024
    contraction positions j of x0[r, j] * x1[j, f]. -/
theorem k1_pay2_apply (xs : FVec Ideal S1024x1024 .f32) (x0 : FVec Ideal S1024x1024 .bf16) (x1 : FVec Ideal S1024x1024 .bf16)
    (r : Fin 1024) (f : Fin 1024) :
    k1_pay2 (F := Ideal) xs x0 x1 (ix2 r f) = xs (ix2 r f) + ∑ j : Fin 1024, x0 (ix2 r j) * x1 (ix2 j f) := by
  unfold k1_pay2
  rw [shapeCast_self, shapeCast_self, shapeCast_self]
  refine (addf_apply _ _ _).trans ?_
  refine congrArg (xs (ix2 r f) + ·) ?_
  refine (Ideal.matmul_constant_zero_apply dot_S1024x1024_S1024x1024_S1024x1024_1_0_0_1_n_n none x0 x1 (ix2 r f)).trans ?_
  rw [← Equiv.sum_comp (contrEquiv1 dot_S1024x1024_S1024x1024_S1024x1024_1_0_0_1_n_n 1024 rfl rfl).symm]
  refine Finset.sum_congr rfl fun j _ => ?_
  rw [lhsW r f j, rhsW r f j]

/-- The low-rank block product: the left operand's row coordinate is the entry's row. -/
theorem lhsL_0 (i : S1024x1024.Idx) (k : dot_S1024x16_S16x1024_S1024x1024_1_0_0_1_n_n.contr.Idx) :
    (dot_S1024x16_S16x1024_S1024x1024_1_0_0_1_n_n.lhsIdx i k 0).val = (i 0).val := by
  unfold DotDims.lhsIdx
  rw [dif_neg (show ¬(0 : Fin S1024x16.rank) ∈ dot_S1024x16_S16x1024_S1024x1024_1_0_0_1_n_n.lhsBatch by decide),
    dif_pos (show (0 : Fin S1024x16.rank) ∈ dot_S1024x16_S16x1024_S1024x1024_1_0_0_1_n_n.lhsNonContracting by decide)]
  rfl

/-- The low-rank block product: the left operand's column coordinate is the summation position. -/
theorem lhsL_1 (i : S1024x1024.Idx) (k : dot_S1024x16_S16x1024_S1024x1024_1_0_0_1_n_n.contr.Idx) :
    (dot_S1024x16_S16x1024_S1024x1024_1_0_0_1_n_n.lhsIdx i k 1).val = (k ⟨0, by decide⟩).val :=
  dot_S1024x16_S16x1024_S1024x1024_1_0_0_1_n_n.lhsIdx_val_of_single rfl i k

/-- The low-rank block product: the right operand's row coordinate is the summation position. -/
theorem rhsL_0 (i : S1024x1024.Idx) (k : dot_S1024x16_S16x1024_S1024x1024_1_0_0_1_n_n.contr.Idx) :
    (dot_S1024x16_S16x1024_S1024x1024_1_0_0_1_n_n.rhsIdx i k 0).val = (k ⟨0, by decide⟩).val :=
  dot_S1024x16_S16x1024_S1024x1024_1_0_0_1_n_n.rhsIdx_val_of_single rfl i k

/-- The low-rank block product: the right operand's column coordinate is the entry's column. -/
theorem rhsL_1 (i : S1024x1024.Idx) (k : dot_S1024x16_S16x1024_S1024x1024_1_0_0_1_n_n.contr.Idx) :
    (dot_S1024x16_S16x1024_S1024x1024_1_0_0_1_n_n.rhsIdx i k 1).val = (i 1).val := by
  unfold DotDims.rhsIdx
  rw [dif_neg (show ¬(1 : Fin S16x1024.rank) ∈ dot_S1024x16_S16x1024_S1024x1024_1_0_0_1_n_n.rhsBatch by decide),
    dif_pos (show (1 : Fin S16x1024.rank) ∈ dot_S1024x16_S16x1024_S1024x1024_1_0_0_1_n_n.rhsNonContracting by decide)]
  rfl

/-- The low-rank block product: at the entry (r, f) and summation position j the left operand is read at (r, j). -/
theorem lhsL (r : Fin 1024) (f : Fin 1024) (j : Fin 16) :
    dot_S1024x16_S16x1024_S1024x1024_1_0_0_1_n_n.lhsIdx (ix2 r f)
        ((contrEquiv1 dot_S1024x16_S16x1024_S1024x1024_1_0_0_1_n_n 16 rfl rfl).symm j) = ix2 r j := by
  have hk := contrEquiv1_symm_val dot_S1024x16_S16x1024_S1024x1024_1_0_0_1_n_n 16 rfl rfl j
  exact funext fun a => Fin.ext (by
    match a with
    | ⟨0, _⟩ => exact lhsL_0 _ _
    | ⟨1, _⟩ => exact (lhsL_1 _ _).trans hk)

/-- The low-rank block product: at the entry (r, f) and summation position j the right operand is read at (j, f). -/
theorem rhsL (r : Fin 1024) (f : Fin 1024) (j : Fin 16) :
    dot_S1024x16_S16x1024_S1024x1024_1_0_0_1_n_n.rhsIdx (ix2 r f)
        ((contrEquiv1 dot_S1024x16_S16x1024_S1024x1024_1_0_0_1_n_n 16 rfl rfl).symm j) = ix2 j f := by
  have hk := contrEquiv1_symm_val dot_S1024x16_S16x1024_S1024x1024_1_0_0_1_n_n 16 rfl rfl j
  exact funext fun a => Fin.ext (by
    match a with
    | ⟨0, _⟩ => exact (rhsL_0 _ _).trans hk
    | ⟨1, _⟩ => exact rhsL_1 _ _)

/-- The product of the two low-rank blocks at the entry (r, f): the sum over the 16 low-rank positions. -/
theorem lowRank_apply (x2 : FVec Ideal S1024x16 .bf16) (x3 : FVec Ideal S16x1024 .bf16) (r : Fin 1024) (f : Fin 1024) :
    FloatOps.matmul dot_S1024x16_S16x1024_S1024x1024_1_0_0_1_n_n none x2 x3 (constant S1024x1024 .f32 0x00000000#32) (ix2 r f)
      = ∑ q : Fin 16, x2 (ix2 r q) * x3 (ix2 q f) := by
  refine (Ideal.matmul_constant_zero_apply dot_S1024x16_S16x1024_S1024x1024_1_0_0_1_n_n none x2 x3 (ix2 r f)).trans ?_
  rw [← Equiv.sum_comp (contrEquiv1 dot_S1024x16_S16x1024_S1024x1024_1_0_0_1_n_n 16 rfl rfl).symm]
  refine Finset.sum_congr rfl fun q _ => ?_
  rw [lhsL r f q, rhsL r f q]

/-- What the last block stores at the entry (r, f): the accumulated entry, plus the low-rank sum times the scale
    word, plus the bias row's entry f. -/
theorem k1_pay3_apply (x2 : FVec Ideal S1024x16 .bf16) (x3 : FVec Ideal S16x1024 .bf16) (acc : FVec Ideal S1024x1024 .f32)
    (x4 : FVec Ideal S1x1024 .f32) (r : Fin 1024) (f : Fin 1024) :
    k1_pay3 (F := Ideal) x2 x3 acc x4 (ix2 r f)
      = (acc (ix2 r f) + (∑ q : Fin 16, x2 (ix2 r q) * x3 (ix2 q f)) * Ideal.ofBits .f32 0x3F800000#32)
        + x4 (ix2 (0 : Fin 1) f) := by
  unfold k1_pay3
  rw [shapeCast_self, shapeCast_self, shapeCast_self]
  refine (addf_apply _ _ _).trans ?_
  refine congrArg₂ (· + ·) ?_ ?_
  · refine (addf_apply _ _ _).trans ?_
    refine congrArg (acc (ix2 r f) + ·) ?_
    refine (mulf_apply _ _ _).trans ?_
    exact congrArg (· * Ideal.ofBits .f32 0x3F800000#32) (lowRank_apply x2 x3 r f)
  · exact broadcastTo_1b_ab_apply x4 broadcasts_S1x1024_S1024x1024 r f

end Cert.KernelIdeal.DenseValue

end
-- ==== Proof.DenseBlocks.lean ====
/-
  Region 1 (the dense layer): where each window's block at a grid point sits in its array.

  Point t of the 16 x 4 x 4 grid has row block t / 16, output column block (t / 4) mod 4 and contraction block
  t mod 4. The activations' block is rows 1024 (t / 16) + r, columns 1024 (t mod 4) + j; the weight's block is rows
  1024 (t mod 4) + j, columns 1024 ((t / 4) mod 4) + f; the low-rank left factor's block is rows 1024 (t / 16) + r,
  all 16 columns; the low-rank right factor's block is all 16 rows, columns 1024 ((t / 4) mod 4) + f; the bias
  block is the one row, columns 1024 ((t / 4) mod 4) + f; the output's block is rows 1024 (t / 16) + r, columns
  1024 ((t / 4) mod 4) + f.
-/
import proofs.«123511_j75531294867844_2_alg».proof.Proof.DenseFrame
import Idealize.ShloMosaic.Lib.Pipeline.Value
import Idealize.ShloMosaic.Lib.ValueIdx

set_option maxRecDepth 16384

noncomputable section

namespace Cert.KernelIdeal.DenseValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (V : (c : Dev nD) → (b : Ref sig .tc) → Buf (Elt F) ((c : Thread nD τ).loc b))

/-! ## The printed index maps, decided once over the grid -/

theorem idx1_0 : ∀ t : Fin cfg1.N, win1_0.index t (0 : Fin 2) = t.val / 16 ∧ win1_0.index t (1 : Fin 2) = t.val % 4 :=
  (by decide +kernel : ∀ t : Fin grid1.N, win1_0.index t (0 : Fin 2) = t.val / 16 ∧ win1_0.index t (1 : Fin 2) = t.val % 4)

theorem idx1_1 : ∀ t : Fin cfg1.N, win1_1.index t (0 : Fin 2) = t.val % 4 ∧ win1_1.index t (1 : Fin 2) = t.val / 4 % 4 :=
  (by decide +kernel : ∀ t : Fin grid1.N, win1_1.index t (0 : Fin 2) = t.val % 4 ∧ win1_1.index t (1 : Fin 2) = t.val / 4 % 4)

theorem idx1_2 : ∀ t : Fin cfg1.N, win1_2.index t (0 : Fin 2) = t.val / 16 ∧ win1_2.index t (1 : Fin 2) = 0 :=
  (by decide +kernel : ∀ t : Fin grid1.N, win1_2.index t (0 : Fin 2) = t.val / 16 ∧ win1_2.index t (1 : Fin 2) = 0)

theorem idx1_3 : ∀ t : Fin cfg1.N, win1_3.index t (0 : Fin 2) = 0 ∧ win1_3.index t (1 : Fin 2) = t.val / 4 % 4 :=
  (by decide +kernel : ∀ t : Fin grid1.N, win1_3.index t (0 : Fin 2) = 0 ∧ win1_3.index t (1 : Fin 2) = t.val / 4 % 4)

theorem idx1_4 : ∀ t : Fin cfg1.N, win1_4.index t (0 : Fin 2) = 0 ∧ win1_4.index t (1 : Fin 2) = t.val / 4 % 4 :=
  (by decide +kernel : ∀ t : Fin grid1.N, win1_4.index t (0 : Fin 2) = 0 ∧ win1_4.index t (1 : Fin 2) = t.val / 4 % 4)

theorem idx1_5 : ∀ t : Fin cfg1.N, win1_5.index t (0 : Fin 2) = t.val / 16 ∧ win1_5.index t (1 : Fin 2) = t.val / 4 % 4 :=
  (by decide +kernel : ∀ t : Fin grid1.N, win1_5.index t (0 : Fin 2) = t.val / 16 ∧ win1_5.index t (1 : Fin 2) = t.val / 4 % 4)

/-! ## Each input block's entry, in its array -/

/-- The activations' block at point t, entry (r, j): row 1024 (t / 16) + r, column 1024 (t mod 4) + j of the array. -/
theorem blk1_0_apply (c : Dev nD) (t : Fin cfg1.N) (r : Fin 1024) (j : Fin 1024) (R : Fin 16384) (D : Fin 4096)
    (hR : R.val = 1024 * (t.val / 16) + r.val) (hD : D.val = 1024 * (t.val % 4) + j.val) :
    (blk1 V c 0 t : Vec F S1024x1024 _) (ix2 r j) = V c main_v1 (ix2 R D) := by
  have he : ((cfg1.win 0).blk t).view.emb (ix2 r j) = ix2 R D := by
    funext a; apply Fin.ext
    match a with
    | ⟨0, _⟩ => show win1_0.index t (0 : Fin 2) * 1024 + 1 * r.val = R.val; rw [(idx1_0 t).1, hR]; omega
    | ⟨1, _⟩ => show win1_0.index t (1 : Fin 2) * 1024 + 1 * j.val = D.val; rw [(idx1_0 t).2, hD]; omega
  show V c main_v1 (((cfg1.win 0).blk t).view.emb (ix2 r j)) = V c main_v1 (ix2 R D)
  rw [he]

/-- The weight's block at point t, entry (j, f): row 1024 (t mod 4) + j, column 1024 ((t / 4) mod 4) + f of the array. -/
theorem blk1_1_apply (c : Dev nD) (t : Fin cfg1.N) (j : Fin 1024) (f : Fin 1024) (R : Fin 4096) (D : Fin 4096)
    (hR : R.val = 1024 * (t.val % 4) + j.val) (hD : D.val = 1024 * (t.val / 4 % 4) + f.val) :
    (blk1 V c 1 t : Vec F S1024x1024 _) (ix2 j f) = V c main_v2 (ix2 R D) := by
  have he : ((cfg1.win 1).blk t).view.emb (ix2 j f) = ix2 R D := by
    funext a; apply Fin.ext
    match a with
    | ⟨0, _⟩ => show win1_1.index t (0 : Fin 2) * 1024 + 1 * j.val = R.val; rw [(idx1_1 t).1, hR]; omega
    | ⟨1, _⟩ => show win1_1.index t (1 : Fin 2) * 1024 + 1 * f.val = D.val; rw [(idx1_1 t).2, hD]; omega
  show V c main_v2 (((cfg1.win 1).blk t).view.emb (ix2 j f)) = V c main_v2 (ix2 R D)
  rw [he]

/-- The low-rank left factor's block at point t, entry (r, q): row 1024 (t / 16) + r, column q of the array. -/
theorem blk1_2_apply (c : Dev nD) (t : Fin cfg1.N) (r : Fin 1024) (q : Fin 16) (R : Fin 16384) (D : Fin 16)
    (hR : R.val = 1024 * (t.val / 16) + r.val) (hD : D.val = q.val) :
    (blk1 V c 2 t : Vec F S1024x16 _) (ix2 r q) = V c main_v6 (ix2 R D) := by
  have he : ((cfg1.win 2).blk t).view.emb (ix2 r q) = ix2 R D := by
    funext a; apply Fin.ext
    match a with
    | ⟨0, _⟩ => show win1_2.index t (0 : Fin 2) * 1024 + 1 * r.val = R.val; rw [(idx1_2 t).1, hR]; omega
    | ⟨1, _⟩ => show win1_2.index t (1 : Fin 2) * 16 + 1 * q.val = D.val; rw [(idx1_2 t).2, hD]; omega
  show V c main_v6 (((cfg1.win 2).blk t).view.emb (ix2 r q)) = V c main_v6 (ix2 R D)
  rw [he]

/-- The low-rank right factor's block at point t, entry (q, f): row q, column 1024 ((t / 4) mod 4) + f of the array. -/
theorem blk1_3_apply (c : Dev nD) (t : Fin cfg1.N) (q : Fin 16) (f : Fin 1024) (R : Fin 16) (D : Fin 4096)
    (hR : R.val = q.val) (hD : D.val = 1024 * (t.val / 4 % 4) + f.val) :
    (blk1 V c 3 t : Vec F S16x1024 _) (ix2 q f) = V c main_v4 (ix2 R D) := by
  have he : ((cfg1.win 3).blk t).view.emb (ix2 q f) = ix2 R D := by
    funext a; apply Fin.ext
    match a with
    | ⟨0, _⟩ => show win1_3.index t (0 : Fin 2) * 16 + 1 * q.val = R.val; rw [(idx1_3 t).1, hR]; omega
    | ⟨1, _⟩ => show win1_3.index t (1 : Fin 2) * 1024 + 1 * f.val = D.val; rw [(idx1_3 t).2, hD]; omega
  show V c main_v4 (((cfg1.win 3).blk t).view.emb (ix2 q f)) = V c main_v4 (ix2 R D)
  rw [he]

/-- The bias block at point t, entry (0, f): column 1024 ((t / 4) mod 4) + f of the one row. -/
theorem blk1_4_apply (c : Dev nD) (t : Fin cfg1.N) (z : Fin 1) (f : Fin 1024) (R : Fin 1) (D : Fin 4096)
    (hR : R.val = z.val) (hD : D.val = 1024 * (t.val / 4 % 4) + f.val) :
    (blk1 V c 4 t : Vec F S1x1024 _) (ix2 z f) = V c main_v5 (ix2 R D) := by
  have he : ((cfg1.win 4).blk t).view.emb (ix2 z f) = ix2 R D := by
    funext a; apply Fin.ext
    match a with
    | ⟨0, _⟩ => show win1_4.index t (0 : Fin 2) * 1 + 1 * z.val = R.val; rw [(idx1_4 t).1, hR]; omega
    | ⟨1, _⟩ => show win1_4.index t (1 : Fin 2) * 1024 + 1 * f.val = D.val; rw [(idx1_4 t).2, hD]; omega
  show V c main_v5 (((cfg1.win 4).blk t).view.emb (ix2 z f)) = V c main_v5 (ix2 R D)
  rw [he]

end Cert.KernelIdeal.DenseValue

end
-- ==== Proof.DenseAcc.lean ====
/-
  Region 1 (the dense layer): what the accumulator holds, entry by entry, over a group of four grid points.

  The four points 4g, 4g + 1, 4g + 2, 4g + 3 share a row block and an output column block and walk the four blocks
  of the contraction. At the first the accumulator's entry (r, f) becomes zero plus the first block's sum of
  products; each later point adds its block's sum; so after the fourth it is the sum over all 4096 contraction
  positions d of x[M, d] * W[d, N], with M = 1024 (row block) + r and N = 1024 (column block) + f.

  The arrays as the region finds them enter as variables X1 (the activations) and X2 (the weight) of their literal
  types, tied to the buffers by equations, so that products of their entries are products of extended reals.
-/
import proofs.«123511_j75531294867844_2_alg».proof.Proof.DensePieces
import proofs.«123511_j75531294867844_2_alg».proof.Proof.DensePayload
import proofs.«123511_j75531294867844_2_alg».proof.Proof.DenseBlocks
import proofs.«123511_j75531294867844_2_alg».proof.Proof.BlockSum

set_option maxRecDepth 16384

noncomputable section

namespace Cert.KernelIdeal.DenseValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx
open Cert.BlockSum (pos pos_val)

variable (V : (c : Dev nD) → (b : Ref sig .tc) → Buf (Elt Ideal) ((c : Thread nD τ).loc b))

/-- The sum of products over one block of the contraction, read off the blocks at point t, is the sum over that
    block's 1024 positions of the arrays' entries. -/
theorem blockProd (c : Dev nD) (t : Fin cfg1.N) (r f : Fin 1024) (M : Fin 16384) (N : Fin 4096) (k : Fin 4)
    (hM : M.val = 1024 * (t.val / 16) + r.val) (hN : N.val = 1024 * (t.val / 4 % 4) + f.val) (hk : k.val = t.val % 4)
    (X1 : FVec Ideal S16384x4096 .bf16) (X2 : FVec Ideal S4096x4096 .bf16) (h1 : V c main_v1 = X1) (h2 : V c main_v2 = X2)
    (x0 x1 : FVec Ideal S1024x1024 .bf16) (e0 : blk1 V c 0 t = x0) (e1 : blk1 V c 1 t = x1) :
    ∑ j : Fin 1024, x0 (ix2 r j) * x1 (ix2 j f) = ∑ j : Fin 1024, X1 (ix2 M (pos k j)) * X2 (ix2 (pos k j) N) := by
  subst h1 h2 e0 e1
  exact Finset.sum_congr rfl fun j _ => by
    rw [blk1_0_apply V c t r j M (pos k j) hM (by rw [pos_val, hk]),
      blk1_1_apply V c t j f (pos k j) N (by rw [pos_val, hk]) hN]

/-- At the first block of a group the accumulator's entry is zero plus the first block's sum. -/
theorem acc_first (c : Dev nD) (n : ℕ) (hn : n < cfg1.N) (h0 : n % 4 = 0) (r f : Fin 1024) (M : Fin 16384) (N : Fin 4096)
    (hM : M.val = 1024 * (n / 16) + r.val) (hN : N.val = 1024 * (n / 4 % 4) + f.val) (X1 : FVec Ideal S16384x4096 .bf16) (X2 : FVec Ideal S4096x4096 .bf16) (h1 : V c main_v1 = X1) (h2 : V c main_v2 = X2) :
    accAt1 V c n hn (ix2 r f) = 0 + ∑ j : Fin 1024, X1 (ix2 M (pos 0 j)) * X2 (ix2 (pos 0 j) N) := by
  have hF : atFirst1 (grid1.coords ⟨n, hn⟩) := (atFirst1_iff ⟨n, hn⟩).mpr h0
  have hL : ¬atLast1 (grid1.coords ⟨n, hn⟩) := fun h => by have h' : n % 4 = 3 := (atLast1_iff ⟨n, hn⟩).mp h; omega
  refine (congrFun (accAt1_first V c ⟨n, hn⟩ h0 hF hL) (ix2 r f)).trans ?_
  refine (congrFun (scrFirst1_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) scM1 (Memref.isWhole_whole _) hF hL (blk1 V c 0 ⟨n, hn⟩) (blk1 V c 1 ⟨n, hn⟩) (blk1 V c 2 ⟨n, hn⟩) (blk1 V c 3 ⟨n, hn⟩) (blk1 V c 4 ⟨n, hn⟩)) (ix2 r f)).trans ?_
  refine (k1_pay2_apply (k1_pay1 (F := Ideal)) (blk1 V c 0 ⟨n, hn⟩) (blk1 V c 1 ⟨n, hn⟩) r f).trans ?_
  exact congrArg₂ (· + ·) (k1_pay1_apply (ix2 r f))
    (blockProd V c ⟨n, hn⟩ r f M N 0 hM hN (by show 0 = n % 4; omega) X1 X2 h1 h2 (blk1 V c 0 ⟨n, hn⟩) (blk1 V c 1 ⟨n, hn⟩) rfl rfl)

/-- At a later block of a group the accumulator's entry is what the point before left plus this block's sum. -/
theorem acc_step (c : Dev nD) (n : ℕ) (hn : n + 1 < cfg1.N) (h0 : ¬(n + 1) % 4 = 0) (r f : Fin 1024) (M : Fin 16384) (N : Fin 4096)
    (hM : M.val = 1024 * ((n + 1) / 16) + r.val) (hN : N.val = 1024 * ((n + 1) / 4 % 4) + f.val) (k : Fin 4) (hk : k.val = (n + 1) % 4)
    (X1 : FVec Ideal S16384x4096 .bf16) (X2 : FVec Ideal S4096x4096 .bf16) (h1 : V c main_v1 = X1) (h2 : V c main_v2 = X2) :
    accAt1 V c (n + 1) hn (ix2 r f)
      = accAt1 V c n (Nat.lt_of_succ_lt hn) (ix2 r f) + ∑ j : Fin 1024, X1 (ix2 M (pos k j)) * X2 (ix2 (pos k j) N) := by
  have hF : ¬atFirst1 (grid1.coords ⟨n + 1, hn⟩) := fun h => h0 ((atFirst1_iff ⟨n + 1, hn⟩).mp h)
  by_cases h3 : (n + 1) % 4 = 3
  · have hL : atLast1 (grid1.coords ⟨n + 1, hn⟩) := (atLast1_iff ⟨n + 1, hn⟩).mpr h3
    refine (congrFun (accAt1_last V c ⟨n + 1, hn⟩ h0 h3 hF hL) (ix2 r f)).trans ?_
    refine (congrFun (scrLast1_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) hF hL (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (accAt1 V c n (Nat.lt_of_succ_lt hn))) (ix2 r f)).trans ?_
    refine (k1_pay2_apply (accAt1 V c n (Nat.lt_of_succ_lt hn)) (blk1 V c 0 ⟨n + 1, hn⟩) (blk1 V c 1 ⟨n + 1, hn⟩) r f).trans ?_
    exact congrArg (accAt1 V c n (Nat.lt_of_succ_lt hn) (ix2 r f) + ·)
      (blockProd V c ⟨n + 1, hn⟩ r f M N k hM hN hk X1 X2 h1 h2 (blk1 V c 0 ⟨n + 1, hn⟩) (blk1 V c 1 ⟨n + 1, hn⟩) rfl rfl)
  · have hL : ¬atLast1 (grid1.coords ⟨n + 1, hn⟩) := fun h => h3 ((atLast1_iff ⟨n + 1, hn⟩).mp h)
    refine (congrFun (accAt1_mid V c ⟨n + 1, hn⟩ h0 h3 hF hL) (ix2 r f)).trans ?_
    refine (congrFun (scrMid1_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) hF hL (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (accAt1 V c n (Nat.lt_of_succ_lt hn))) (ix2 r f)).trans ?_
    refine (k1_pay2_apply (accAt1 V c n (Nat.lt_of_succ_lt hn)) (blk1 V c 0 ⟨n + 1, hn⟩) (blk1 V c 1 ⟨n + 1, hn⟩) r f).trans ?_
    exact congrArg (accAt1 V c n (Nat.lt_of_succ_lt hn) (ix2 r f) + ·)
      (blockProd V c ⟨n + 1, hn⟩ r f M N k hM hN hk X1 X2 h1 h2 (blk1 V c 0 ⟨n + 1, hn⟩) (blk1 V c 1 ⟨n + 1, hn⟩) rfl rfl)

/-- After the fourth point of a group the accumulator's entry (r, f) is the sum over all 4096 contraction positions. -/
theorem acc_group (c : Dev nD) (n : ℕ) (hn : n + 3 < cfg1.N) (hb : n % 4 = 0) (r f : Fin 1024) (M : Fin 16384) (N : Fin 4096)
    (hM : M.val = 1024 * (n / 16) + r.val) (hN : N.val = 1024 * (n / 4 % 4) + f.val) (X1 : FVec Ideal S16384x4096 .bf16) (X2 : FVec Ideal S4096x4096 .bf16) (h1 : V c main_v1 = X1) (h2 : V c main_v2 = X2) :
    accAt1 V c (n + 3) hn (ix2 r f) = ∑ d : Fin 4096, X1 (ix2 M d) * X2 (ix2 d N) := by
  have hNN : cfg1.N = 256 := N_1
  have e3 := acc_step V c (n + 2) hn (by omega) r f M N (by omega) (by omega) 3 (by show 3 = (n + 2 + 1) % 4; omega) X1 X2 h1 h2
  have e2 := acc_step V c (n + 1) (by omega) (by omega) r f M N (by omega) (by omega) 2 (by show 2 = (n + 1 + 1) % 4; omega) X1 X2 h1 h2
  have e1 := acc_step V c n (by omega) (by omega) r f M N (by omega) (by omega) 1 (by show 1 = (n + 1) % 4; omega) X1 X2 h1 h2
  have e0 := acc_first V c n (by omega) hb r f M N hM hN X1 X2 h1 h2
  rw [← Cert.BlockSum.acc_blocks pos pos_val (fun d : Fin 4096 => X1 (ix2 M d) * X2 (ix2 d N))]
  exact e3.trans (congrArg (· + _) (e2.trans (congrArg (· + _) (e1.trans (congrArg (· + _) e0)))))

end Cert.KernelIdeal.DenseValue

end
-- ==== Proof.DenseFinal.lean ====
/-
  Region 1 (the dense layer): the output array after the region, entry by entry.

  The last point of each group of four stores into the output block, at (r, f), the dense sum over all 4096
  contraction positions plus the low-rank sum over 16 positions times the scale word plus the bias entry; that block
  is rows 1024 (row block) + r and columns 1024 (column block) + f of the output array, and the sixty-four such
  blocks tile the array: entry (M, N) is written by the point 16 (M / 1024) + 4 (N / 1024) + 3. So the array ends
  holding, at every entry (M, N), the sum over d of x[M, d] * W[d, N], plus (the sum over q of a[M, q] * b[q, N])
  times the scale word, plus bias[N].

  The five arrays as the region finds them enter as variables of their literal types (X1 the activations, X2 the
  weight, X6 and X4 the low-rank factors, X5 the bias row), tied to the buffers by equations.
-/
import proofs.«123511_j75531294867844_2_alg».proof.Proof.DenseAcc

set_option maxRecDepth 16384

noncomputable section

namespace Cert.KernelIdeal.DenseValue

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx

variable (V : (c : Dev nD) → (b : Ref sig .tc) → Buf (Elt Ideal) ((c : Thread nD τ).loc b))

/-- The dense layer's entry (M, N). -/
def denseEntry (X1 : FVec Ideal S16384x4096 .bf16) (X2 : FVec Ideal S4096x4096 .bf16) (X6 : FVec Ideal S16384x16 .bf16) (X4 : FVec Ideal S16x4096 .bf16) (X5 : FVec Ideal S1x4096 .f32) (M : Fin 16384) (N : Fin 4096) : Ideal .f32 :=
  ((∑ d : Fin 4096, X1 (ix2 M d) * X2 (ix2 d N)) + (∑ q : Fin 16, X6 (ix2 M q) * X4 (ix2 q N)) * Ideal.ofBits .f32 0x3F800000#32)
    + X5 (ix2 (0 : Fin 1) N)

/-- The whole output array as one function of its index. -/
def denseG (X1 : FVec Ideal S16384x4096 .bf16) (X2 : FVec Ideal S4096x4096 .bf16) (X6 : FVec Ideal S16384x16 .bf16) (X4 : FVec Ideal S16x4096 .bf16) (X5 : FVec Ideal S1x4096 .f32) : FVec Ideal S16384x4096 .f32 :=
  fun i => denseEntry X1 X2 X6 X4 X5 ⟨(i 0).val, idx2_lt0 i⟩ ⟨(i 1).val, idx2_lt1 i⟩

theorem denseG_ix2 (X1 : FVec Ideal S16384x4096 .bf16) (X2 : FVec Ideal S4096x4096 .bf16) (X6 : FVec Ideal S16384x16 .bf16) (X4 : FVec Ideal S16x4096 .bf16) (X5 : FVec Ideal S1x4096 .f32) (M : Fin 16384) (N : Fin 4096) :
    denseG X1 X2 X6 X4 X5 (ix2 M N) = denseEntry X1 X2 X6 X4 X5 M N := rfl

/-- The low-rank sum read off the blocks at point t is the sum over the arrays' entries. -/
theorem lowRankProd (c : Dev nD) (t : Fin cfg1.N) (r f : Fin 1024) (M : Fin 16384) (N : Fin 4096)
    (hM : M.val = 1024 * (t.val / 16) + r.val) (hN : N.val = 1024 * (t.val / 4 % 4) + f.val)
    (X6 : FVec Ideal S16384x16 .bf16) (X4 : FVec Ideal S16x4096 .bf16) (h6 : V c main_v6 = X6) (h4 : V c main_v4 = X4)
    (x2 : FVec Ideal S1024x16 .bf16) (x3 : FVec Ideal S16x1024 .bf16) (e2 : blk1 V c 2 t = x2) (e3 : blk1 V c 3 t = x3) :
    ∑ q : Fin 16, x2 (ix2 r q) * x3 (ix2 q f) = ∑ q : Fin 16, X6 (ix2 M q) * X4 (ix2 q N) := by
  subst h6 h4 e2 e3
  exact Finset.sum_congr rfl fun q _ => by
    rw [blk1_2_apply V c t r q M q hM rfl, blk1_3_apply V c t q f q N rfl hN]

/-- The bias block's entry at point t is the bias row's entry. -/
theorem biasEntry (c : Dev nD) (t : Fin cfg1.N) (f : Fin 1024) (N : Fin 4096) (hN : N.val = 1024 * (t.val / 4 % 4) + f.val)
    (X5 : FVec Ideal S1x4096 .f32) (h5 : V c main_v5 = X5) (x4 : FVec Ideal S1x1024 .f32) (e4 : blk1 V c 4 t = x4) :
    x4 (ix2 (0 : Fin 1) f) = X5 (ix2 (0 : Fin 1) N) := by
  subst h5 e4
  exact blk1_4_apply V c t 0 f 0 N rfl hN

/-- What the last point of a group stores at the entry (r, f) of the output block. -/
theorem out_entry (c : Dev nD) (n : ℕ) (hn : n + 3 < cfg1.N) (hb : n % 4 = 0) (r f : Fin 1024) (M : Fin 16384) (N : Fin 4096)
    (hM : M.val = 1024 * (n / 16) + r.val) (hN : N.val = 1024 * (n / 4 % 4) + f.val) (X1 : FVec Ideal S16384x4096 .bf16) (X2 : FVec Ideal S4096x4096 .bf16) (X6 : FVec Ideal S16384x16 .bf16) (X4 : FVec Ideal S16x4096 .bf16) (X5 : FVec Ideal S1x4096 .f32) (h1 : V c main_v1 = X1) (h2 : V c main_v2 = X2) (h6 : V c main_v6 = X6) (h4 : V c main_v4 = X4) (h5 : V c main_v5 = X5) :
    outAt1 V c ⟨n + 3, hn⟩ (ix2 r f) = denseEntry X1 X2 X6 X4 X5 M N := by
  have hNN : cfg1.N = 256 := N_1
  have h0 : ¬(n + 3) % 4 = 0 := by omega
  have h3 : (n + 3) % 4 = 3 := by omega
  have hF : ¬atFirst1 (grid1.coords ⟨n + 3, hn⟩) := fun h => h0 ((atFirst1_iff ⟨n + 3, hn⟩).mp h)
  have hL : atLast1 (grid1.coords ⟨n + 3, hn⟩) := (atLast1_iff ⟨n + 3, hn⟩).mpr h3
  have hM' : M.val = 1024 * ((n + 3) / 16) + r.val := by omega
  have hN' : N.val = 1024 * ((n + 3) / 4 % 4) + f.val := by omega
  -- the accumulated block the store reads is the accumulator after this point
  have eacc : k1_pay2 (F := Ideal) (accAt1 V c (n + 2) (Nat.lt_of_succ_lt hn)) (blk1 V c 0 ⟨n + 3, hn⟩) (blk1 V c 1 ⟨n + 3, hn⟩)
      = accAt1 V c (n + 3) hn :=
    ((accAt1_last V c ⟨n + 3, hn⟩ h0 h3 hF hL).trans
      (scrLast1_eq c (grid1.coords ⟨n + 3, hn⟩) (ms1_0 ⟨n + 3, hn⟩) (hs1_0 ⟨n + 3, hn⟩) (ms1_1 ⟨n + 3, hn⟩) (hs1_1 ⟨n + 3, hn⟩) (ms1_2 ⟨n + 3, hn⟩) (hs1_2 ⟨n + 3, hn⟩) (ms1_3 ⟨n + 3, hn⟩) (hs1_3 ⟨n + 3, hn⟩) (ms1_4 ⟨n + 3, hn⟩) (hs1_4 ⟨n + 3, hn⟩) (ms1_5 ⟨n + 3, hn⟩) (hs1_5 ⟨n + 3, hn⟩) scM1 (Memref.isWhole_whole _) hF hL (blk1 V c 0 ⟨n + 3, hn⟩) (blk1 V c 1 ⟨n + 3, hn⟩) (blk1 V c 2 ⟨n + 3, hn⟩) (blk1 V c 3 ⟨n + 3, hn⟩) (blk1 V c 4 ⟨n + 3, hn⟩) (accAt1 V c (n + 2) (Nat.lt_of_succ_lt hn)))).symm
  refine (congrFun (outAt1_last V c ⟨n + 3, hn⟩ h3 hF hL) (ix2 r f)).trans ?_
  refine (congrFun (outLast1_eq c (grid1.coords ⟨n + 3, hn⟩) (ms1_0 ⟨n + 3, hn⟩) (hs1_0 ⟨n + 3, hn⟩) (ms1_1 ⟨n + 3, hn⟩) (hs1_1 ⟨n + 3, hn⟩) (ms1_2 ⟨n + 3, hn⟩) (hs1_2 ⟨n + 3, hn⟩) (ms1_3 ⟨n + 3, hn⟩) (hs1_3 ⟨n + 3, hn⟩) (ms1_4 ⟨n + 3, hn⟩) (hs1_4 ⟨n + 3, hn⟩) (ms1_5 ⟨n + 3, hn⟩) (hs1_5 ⟨n + 3, hn⟩) scM1 (Memref.isWhole_whole _) hF hL (blk1 V c 0 ⟨n + 3, hn⟩) (blk1 V c 1 ⟨n + 3, hn⟩) (blk1 V c 2 ⟨n + 3, hn⟩) (blk1 V c 3 ⟨n + 3, hn⟩) (blk1 V c 4 ⟨n + 3, hn⟩) (accAt1 V c (n + 2) (Nat.lt_of_succ_lt hn))) (ix2 r f)).trans ?_
  refine (k1_pay3_apply (blk1 V c 2 ⟨n + 3, hn⟩) (blk1 V c 3 ⟨n + 3, hn⟩)
    (k1_pay2 (F := Ideal) (accAt1 V c (n + 2) (Nat.lt_of_succ_lt hn)) (blk1 V c 0 ⟨n + 3, hn⟩) (blk1 V c 1 ⟨n + 3, hn⟩))
    (blk1 V c 4 ⟨n + 3, hn⟩) r f).trans ?_
  unfold denseEntry
  refine congrArg₂ (· + ·) (congrArg₂ (· + ·) ?_ (congrArg (· * Ideal.ofBits .f32 0x3F800000#32) ?_)) ?_
  · exact (congrFun eacc (ix2 r f)).trans (acc_group V c n hn hb r f M N hM hN X1 X2 h1 h2)
  · exact lowRankProd V c ⟨n + 3, hn⟩ r f M N hM' hN' X6 X4 h6 h4 (blk1 V c 2 ⟨n + 3, hn⟩) (blk1 V c 3 ⟨n + 3, hn⟩) rfl rfl
  · exact biasEntry V c ⟨n + 3, hn⟩ f N hN' X5 h5 (blk1 V c 4 ⟨n + 3, hn⟩) rfl

/-- An index of the output array is in point t's block iff each coordinate is in the block's range on its axis. -/
theorem mem_blk5 (t : Fin cfg1.N) (i : S16384x4096.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v7).slice (win1_5.rect t)).set ↔ _
  rw [View.set_slice_whole, Rect.mem_set_unit]
  exact Iff.rfl

/-- What a point that writes back writes is its block of the dense layer's array. -/
theorem flushed_eq (c : Dev nD) (X1 : FVec Ideal S16384x4096 .bf16) (X2 : FVec Ideal S4096x4096 .bf16) (X6 : FVec Ideal S16384x16 .bf16) (X4 : FVec Ideal S16x4096 .bf16) (X5 : FVec Ideal S1x4096 .f32) (h1 : V c main_v1 = X1) (h2 : V c main_v2 = X2) (h6 : V c main_v6 = X6) (h4 : V c main_v4 = X4) (h5 : V c main_v5 = X5) (t : Fin cfg1.N) (hf : (cfg1.win 5).flush t = true) :
    (dat1 V c).flushed 5 t = ((cfg1.win 5).blk t).view.read (Elt Ideal) (denseG X1 X2 X6 X4 X5) := by
  have hNN : cfg1.N = 256 := N_1
  have h3 : t.val % 4 = 3 := (flush1_5 t).mp hf
  obtain ⟨tv, ht⟩ := t
  obtain ⟨n, rfl⟩ : ∃ n, tv = n + 3 := ⟨tv - 3, by dsimp only at h3; omega⟩
  have hb : n % 4 = 0 := by dsimp only at h3; omega
  show (cfg1.win 5).cut (grid1.coords ⟨n + 3, ht⟩) ((dat1 V c).after 5 ⟨n + 3, ht⟩) = _
  rw [after1_5]
  funext y
  have hr : (y 0).val < 1024 := (y 0).isLt
  have hc : (y 1).val < 1024 := (y 1).isLt
  have hx : (cfg1.win 5).xinj (grid1.coords ⟨n + 3, ht⟩) y = ix2 (⟨(y 0).val, hr⟩ : Fin 1024) (⟨(y 1).val, hc⟩ : Fin 1024) :=
    funext fun a => match a with
      | ⟨0, _⟩ => rfl
      | ⟨1, _⟩ => rfl
  have hi := idx1_5 ⟨n + 3, ht⟩
  have he : ((cfg1.win 5).blk ⟨n + 3, ht⟩).view.emb y
      = ix2 (⟨1024 * (n / 16) + (y 0).val, by omega⟩ : Fin 16384) (⟨1024 * (n / 4 % 4) + (y 1).val, by omega⟩ : Fin 4096) := by
    funext a; apply Fin.ext
    match a with
    | ⟨0, _⟩ => show win1_5.index ⟨n + 3, ht⟩ (0 : Fin 2) * 1024 + 1 * (y 0).val = 1024 * (n / 16) + (y 0).val; rw [hi.1]; dsimp only; omega
    | ⟨1, _⟩ => show win1_5.index ⟨n + 3, ht⟩ (1 : Fin 2) * 1024 + 1 * (y 1).val = 1024 * (n / 4 % 4) + (y 1).val; rw [hi.2]; dsimp only; omega
  show outAt1 V c ⟨n + 3, ht⟩ ((cfg1.win 5).xinj (grid1.coords ⟨n + 3, ht⟩) y) = denseG X1 X2 X6 X4 X5 (((cfg1.win 5).blk ⟨n + 3, ht⟩).view.emb y)
  rw [hx, he, denseG_ix2]
  exact out_entry V c n ht hb _ _ _ _ rfl rfl X1 X2 X6 X4 X5 h1 h2 h6 h4 h5

/-- Every entry of the output array is in the block of a point that writes back: entry (M, N) in that of the point
    16 (M / 1024) + 4 (N / 1024) + 3. -/
theorem covered (i : S16384x4096.Idx) :
    ∃ t : Fin cfg1.N, (cfg1.win 5).flush t = true ∧ i ∈ ((cfg1.win 5).blk t).view.set := by
  have hNN : cfg1.N = 256 := N_1
  have h0 : (i 0).val < 16384 := idx2_lt0 i
  have h1 : (i 1).val < 4096 := idx2_lt1 i
  refine ⟨⟨16 * ((i 0).val / 1024) + 4 * ((i 1).val / 1024) + 3, by omega⟩, (flush1_5 _).mpr (by dsimp only; omega), ?_⟩
  rw [mem_blk5]
  have hi := idx1_5 ⟨16 * ((i 0).val / 1024) + 4 * ((i 1).val / 1024) + 3, by omega⟩
  intro a
  match a with
  | ⟨0, _⟩ =>
    show win1_5.index _ (0 : Fin 2) * 1024 ≤ (i 0).val ∧ (i 0).val < win1_5.index _ (0 : Fin 2) * 1024 + 1024
    rw [hi.1]; dsimp only; omega
  | ⟨1, _⟩ =>
    show win1_5.index _ (1 : Fin 2) * 1024 ≤ (i 1).val ∧ (i 1).val < win1_5.index _ (1 : Fin 2) * 1024 + 1024
    rw [hi.2]; dsimp only; omega

/-- The output array after the region is the dense layer's array. -/
theorem dense_final (c : Dev nD) (X1 : FVec Ideal S16384x4096 .bf16) (X2 : FVec Ideal S4096x4096 .bf16) (X6 : FVec Ideal S16384x16 .bf16) (X4 : FVec Ideal S16x4096 .bf16) (X5 : FVec Ideal S1x4096 .f32) (h1 : V c main_v1 = X1) (h2 : V c main_v2 = X2) (h6 : V c main_v6 = X6) (h4 : V c main_v4 = X4) (h5 : V c main_v5 = X5) :
    (dat1 V c).arrAt 5 cfg1.N = denseG X1 X2 X6 X4 X5 :=
  (dat1 V c).arrAt_eq_of_cover 5 (denseG X1 X2 X6 X4 X5) (flushed_eq V c X1 X2 X6 X4 X5 h1 h2 h6 h4 h5) covered

/-- The output array after the region, at the entry (M, f): the sum over the 4096 contraction positions d of
    x[M, d] * W[d, f], plus the sum over the 16 low-rank positions r of a[M, r] * b[r, f] times the scale word, plus
    the bias entry f. -/
theorem dense_final_apply (c : Dev nD) (X1 : FVec Ideal S16384x4096 .bf16) (X2 : FVec Ideal S4096x4096 .bf16) (X6 : FVec Ideal S16384x16 .bf16) (X4 : FVec Ideal S16x4096 .bf16) (X5 : FVec Ideal S1x4096 .f32) (h1 : V c main_v1 = X1) (h2 : V c main_v2 = X2) (h6 : V c main_v6 = X6) (h4 : V c main_v4 = X4) (h5 : V c main_v5 = X5) (M : Fin 16384) (f : Fin 4096) :
    (dat1 V c).arrAt 5 cfg1.N (ix2 M f)
      = ((∑ d : Fin 4096, X1 (ix2 M d) * X2 (ix2 d f)) + (∑ r : Fin 16, X6 (ix2 M r) * X4 (ix2 r f)) * Ideal.ofBits .f32 0x3F800000#32)
        + X5 (ix2 (0 : Fin 1) f) :=
  (congrFun (dense_final V c X1 X2 X6 X4 X5 h1 h2 h6 h4 h5) (ix2 M f)).trans (denseG_ix2 X1 X2 X6 X4 X5 M f)

end Cert.KernelIdeal.DenseValue

end
-- ==== Proof.KernelIsLora.lean ====
import proofs.«123511_j75531294867844_2_alg».proof.Proof.BoundaryReads
import proofs.«123511_j75531294867844_2_alg».proof.Proof.LoraSpec
import proofs.«123511_j75531294867844_2_alg».proof.Proof.ProjFinal
import proofs.«123511_j75531294867844_2_alg».proof.Proof.DenseFinal
import Idealize.ShloMosaic.Lib.Pipeline.Value
import Idealize.ShloMosaic.Lib.ValueIdx

set_option maxRecDepth 16384

noncomputable section

namespace Cert.KernelIdeal.LoraValue

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

/-! # The kernel program's returned buffer is the specification's function of the argument arrays -/

variable (m : (ℓ : Loc nD τ sig) → Buf (Elt Ideal) ℓ) (ρ : Dev nD → PrngReg)

/-- Row M = 4096·b + s of the [16384, 4096] re-reading of x is row (b, s) of x. -/
theorem rows_of_x (x : FVec Ideal S4x4096x4096 .f32) (b : Fin 4) (s : Fin 4096) (d : Fin 4096) (M : Fin 16384) (hM : M.val = b.val * 4096 + s.val) :
    (shapeCast S16384x4096 x shapeCasts_S4x4096x4096_S16384x4096 : FVec Ideal S16384x4096 .f32) (ix2 M d) = x (ix3 b s d) :=
  shapeCast_apply x _ (ix2 M d) (ix3 b s d) (by
    rw [Shape.rowMajor_val_three, Shape.rowMajor_val_two]
    show (b.val * 4096 + s.val) * 4096 + d.val = M.val * 4096 + d.val
    rw [hM])

/-- The bias as a single row, read at column f. -/
theorem row_of_bias (bias : FVec Ideal S4096 .f32) (f : Fin 4096) :
    (shapeCast S1x4096 bias shapeCasts_S4096_S1x4096 : FVec Ideal S1x4096 .f32) (ix2 (0 : Fin 1) f) = bias (ix1 f) :=
  shapeCast_apply bias _ (ix2 (0 : Fin 1) f) (ix1 f) (by
    rw [Shape.rowMajor_val_one, Shape.rowMajor_val_two]
    show f.val = 0 * 4096 + f.val
    omega)

/-- x, W, A, B and the bias as the two regions read them: the arguments re-read and changed of format (the identity on the extended reals). -/
abbrev xRows (c : Dev nD) : FVec Ideal S16384x4096 .bf16 :=
  truncf .bf16 (shapeCast S16384x4096 (m ((c : Thread nD τ).loc main_arg0)) shapeCasts_S4x4096x4096_S16384x4096) bitsLt_bf16_f32
abbrev wMat (c : Dev nD) : FVec Ideal S4096x4096 .bf16 := truncf .bf16 (m ((c : Thread nD τ).loc main_arg1)) bitsLt_bf16_f32
abbrev aMat (c : Dev nD) : FVec Ideal S4096x16 .bf16 := truncf .bf16 (m ((c : Thread nD τ).loc main_arg3)) bitsLt_bf16_f32
abbrev bMat (c : Dev nD) : FVec Ideal S16x4096 .bf16 := truncf .bf16 (m ((c : Thread nD τ).loc main_arg4)) bitsLt_bf16_f32
abbrev biasRow (c : Dev nD) : FVec Ideal S1x4096 .f32 := shapeCast S1x4096 (m ((c : Thread nD τ).loc main_arg2)) shapeCasts_S4096_S1x4096

/-- THE KERNEL'S VALUE. The returned array is the specification's function of the five argument arrays: entry (b, s, f) is row
    4096·b + s, column f of region 1's output, which is the dense product plus the low-rank correction (over region 0's projection)
    times the scale plus the bias, each traced back through the boundaries to the arguments. -/
theorem result_eq  (c : Dev nD) :
    (B4 (F := Ideal) m ρ c (Proc.devRef .tc main_v8) : FVec Ideal S4x4096x4096 .f32)
      = Cert.LoraLinear.G (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, s, f, rfl⟩ : ∃ (b : Fin 4) (s : Fin 4096) (f : Fin 4096), i = ix3 b s f := ⟨i 0, i 1, i 2, eq_ix3 i⟩
  have hMlt : b.val * 4096 + s.val < 16384 := by have := b.isLt; have := s.isLt; omega
  rw [B4_main_v8, Cert.LoraLinear.G_ix3, Cert.LoraLinear.entry_eq]
  rw [shapeCast_apply _ _ (ix3 b s f) (ix2 (⟨b.val * 4096 + s.val, hMlt⟩ : Fin 16384) f) (by
    rw [Shape.rowMajor_val_three, Shape.rowMajor_val_two]; rfl)]
  rw [B3_main_v7]
  refine (Cert.KernelIdeal.DenseValue.dense_final_apply (E2 m ρ) c (xRows m c) (wMat m c) ((dat0 (F := Ideal) (E1 m ρ) c).arrAt 2 cfg0.N) (bMat m c) (biasRow m c)
    ((E2_main_v1 m ρ c).trans (E1_main_v1 m ρ c)) ((E2_main_v2 m ρ c).trans (E1_main_v2 m ρ c)) (E2_main_v6 m ρ c)
    ((E2_main_v4 m ρ c).trans (E1_main_v4 m ρ c)) ((E2_main_v5 m ρ c).trans (E1_main_v5 m ρ c)) ⟨b.val * 4096 + s.val, hMlt⟩ f).trans ?_
  simp only [Cert.KernelIdeal.ProjValue.proj_final_apply (E1 m ρ) c (xRows m c) (aMat m c) (E1_main_v1 m ρ c) (E1_main_v3 m ρ c) ⟨b.val * 4096 + s.val, hMlt⟩,
    xRows, wMat, aMat, bMat, biasRow, truncf_apply, rows_of_x _ b s _ ⟨b.val * 4096 + s.val, hMlt⟩ rfl, row_of_bias]

end Cert.KernelIdeal.LoraValue

end
-- ==== Proof.ReferenceIsLora.lean ====
/-
  The reference program computes the low-rank-adapted linear map.

  The value the reference leaves in its result, read at an index one operation at a time (two contractions over the
  4096 input coordinates, one over the 16 low-rank coordinates, the scaling by a broadcast constant, two additions,
  the bias broadcast along the last axis), is the specification G of the five argument arrays.
-/
import proofs.«123511_j75531294867844_2_alg».proof.Proof.LoraSpec
import proofs.«123511_j75531294867844_2_alg».proof.Proof.Gen.ReferenceIdeal.Read

noncomputable section

open scoped BigOperators

namespace Cert.LoraLinear.Reference

open Cert.ReferenceIdeal Cert.ReferenceIdeal.Gen Cert.ReferenceIdeal.Read
open Idealize.ShloMosaic Idealize.ShloMosaic.ValueIdx Idealize.ShloMosaic.StableHlo
open Idealize.ShloMosaic.TcCoe Idealize.SL.Sem

/-- The left operand of the dense contraction is read at (i 0, i 1, d). -/
theorem lidx_dense (i : S4x4096x4096.Idx) (d : Fin 4096) : lidx_main_v0 i d = ix3 (i 0) (i 1) d :=
  funext fun a => Fin.ext (by match a with | ⟨0, _⟩ => rfl | ⟨1, _⟩ => rfl | ⟨2, _⟩ => rfl)

/-- The right operand of the dense contraction is read at (d, i 2). -/
theorem ridx_dense (i : S4x4096x4096.Idx) (d : Fin 4096) : ridx_main_v0 i d = ix2 d (i 2) :=
  funext fun a => Fin.ext (by match a with | ⟨0, _⟩ => rfl | ⟨1, _⟩ => rfl)

/-- Inside the low-rank contraction at r, the left operand of the projection is read at (i 0, i 1, d). -/
theorem lidx_down (i : S4x4096x4096.Idx) (r : Fin 16) (d : Fin 4096) :
    lidx_main_v1 (lidx_main_v2 i r) d = ix3 (i 0) (i 1) d :=
  funext fun a => Fin.ext (by match a with | ⟨0, _⟩ => rfl | ⟨1, _⟩ => rfl | ⟨2, _⟩ => rfl)

/-- Inside the low-rank contraction at r, the right operand of the projection is read at (d, r). -/
theorem ridx_down (i : S4x4096x4096.Idx) (r : Fin 16) (d : Fin 4096) :
    ridx_main_v1 (lidx_main_v2 i r) d = ix2 d r :=
  funext fun a => Fin.ext (by match a with | ⟨0, _⟩ => rfl | ⟨1, _⟩ => rfl)

/-- The right operand of the low-rank contraction is read at (r, i 2). -/
theorem ridx_lowRank (i : S4x4096x4096.Idx) (r : Fin 16) : ridx_main_v2 i r = ix2 r (i 2) :=
  funext fun a => Fin.ext (by match a with | ⟨0, _⟩ => rfl | ⟨1, _⟩ => rfl)

/-- The bias, broadcast along the last axis in two steps, is read at (i 2). -/
theorem idx_bias (i : S4x4096x4096.Idx) : idx_main_v6 (idx_main_v7 i) = ix1 (i 2) :=
  funext fun a => Fin.ext (by match a with | ⟨0, _⟩ => rfl)

/-- The last stage of the reference, as a function of the five argument arrays, is G. -/
theorem val_main_v8_eq_G (x0 : (⟨S4x4096x4096, .f32⟩ : BufTy).Contents (Elt Ideal))
    (x1 : (⟨S4096x4096, .f32⟩ : BufTy).Contents (Elt Ideal)) (x2 : (⟨S4096, .f32⟩ : BufTy).Contents (Elt Ideal))
    (x3 : (⟨S4096x16, .f32⟩ : BufTy).Contents (Elt Ideal)) (x4 : (⟨S16x4096, .f32⟩ : BufTy).Contents (Elt Ideal)) :
    val_main_v8 (F := Ideal) x0 x1 x2 x3 x4 = G x0 x1 x2 x3 x4 := by
  funext i
  rw [val_main_v8_apply, val_main_v5_apply, val_main_v0_apply, val_main_v4_apply, val_main_v2_apply,
    val_main_v3_apply, val_main_cst_apply, val_main_v7_apply, val_main_v6_apply]
  simp only [val_main_v1_apply, lidx_dense, ridx_dense, lidx_down, ridx_down, ridx_lowRank, idx_bias,
    Ideal.addf_def, Ideal.mulf_def, Ideal.ofBits_def]
  rfl

/-- The term the reference's run states for its result is G of the five argument buffers. -/
theorem run_term_eq_G (x0 : FVec Ideal S4x4096x4096 .f32) (x1 : FVec Ideal S4096x4096 .f32)
    (x2 : FVec Ideal S4096 .f32) (x3 : FVec Ideal S4096x16 .f32) (x4 : FVec Ideal S16x4096 .f32) :
    addf (F := Ideal) (addf (F := Ideal) (Host.dotGeneral (F := Ideal) dot_S4x4096x4096_S4096x4096_S4x4096x4096_2_0_01_1_n_n none (x0) (x1)) (mulf (F := Ideal) (Host.dotGeneral (F := Ideal) dot_S4x4096x16_S16x4096_S4x4096x4096_2_0_01_1_n_n none (Host.dotGeneral (F := Ideal) dot_S4x4096x4096_S4096x16_S4x4096x16_2_0_01_1_n_n none (x0) (x3)) (x4)) (broadcastInDim S4x4096x4096 ![] bcast_S_S4x4096x4096 (constant (F := Ideal) S_ .f32 0x3F800000#32)))) (broadcastInDim S4x4096x4096 ![0, 1, 2] bcast_S1x1x4096_S4x4096x4096_0_1_2 (broadcastInDim S1x1x4096 ![2] bcast_S4096_S1x1x4096_2 (x2)))
      = G x0 x1 x2 x3 x4 :=
  (val_main_v8_eq (F := Ideal) x0 x1 x2 x3 x4).trans (val_main_v8_eq_G x0 x1 x2 x3 x4)

/-- On every device, from any memory with zero counters, every weakly fair execution of the reference terminates
with its result equal to G of the five argument buffers at launch, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨by rw [(h c).1, run_term_eq_G], (h c).2⟩)
    (Cert.ReferenceIdeal.Value.run (F := Ideal) m ρ)

end Cert.LoraLinear.Reference

end
-- ==== Proof.lean ====
/-
  A dense layer with a low-rank correction: out = x·W + ((x·A)·B)·scale + bias over x : f32[4, 4096, 4096], W : [4096, 4096],
  A : [4096, 16], B : [16, 4096], bias : [4096], as two pipelined kernels against its plain jnp form.

  The kernel program re-reads x as 16384 rows; its first kernel accumulates the projection xa = x·A over the four blocks of 1024
  columns of x, in an accumulator it zeroes at the first block and stores at the last; its second kernel accumulates x·W the
  same way over a 16 × 4 grid of 1024 × 1024 output blocks and, at the last block, adds (xa·B)·scale and the bias row. The
  reference computes the two products as single sums over 4096. On the extended reals the changes of float format are the identity
  and a sum of four block sums from zero is the whole sum (addition there is commutative and associative with 0 + a = a), so both
  programs compute, at (b, s, f),  (Σ_d x[b,s,d]·W[d,f] + (Σ_r (Σ_d x[b,s,d]·A[d,r])·B[r,f])·scale) + bias[f]:
  the specification G. No finiteness of the inputs is used.

  The frames: each kernel's body is run once per case of its two conditionals (first, middle, last block); the accumulator's
  contents are carried in the region invariant point by point; the two regions and the two host stretches are chained from the
  launch to the return, at the word-level instance and at the ideal one by the same text.
-/
import proofs.«123511_j75531294867844_2_alg».proof.Defs
import proofs.«123511_j75531294867844_2_alg».proof.Proof.Gen.Kernel
import proofs.«123511_j75531294867844_2_alg».proof.Proof.Gen.KernelIdeal
import proofs.«123511_j75531294867844_2_alg».proof.Proof.Gen.ReferenceIdeal
import proofs.«123511_j75531294867844_2_alg».proof.Proof.Gen.Pre_finite_inputs
import proofs.«123511_j75531294867844_2_alg».proof.Proof.BitsWholeRun
import proofs.«123511_j75531294867844_2_alg».proof.Proof.KernelIsLora
import proofs.«123511_j75531294867844_2_alg».proof.Proof.ReferenceIsLora
import Idealize.ShloMosaic.Adequacy
import Idealize.ShloMosaic.Init

noncomputable section

namespace Cert.Proof

open Idealize.ShloMosaic Idealize.SL.Sem

/-- The word-level program runs to the end, faults nowhere and leaves its arguments as launched. -/
theorem frame_kernel : Cert.frame_Kernel := fun m ρ _ => Cert.Kernel.Fr.frame m ρ
/-- So does the program read at the ideal instance. -/
theorem frame_kernelIdeal : Cert.frame_KernelIdeal := fun m ρ _ => Cert.KernelIdeal.Fr.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- From memories agreeing on the arguments both programs end with the specification's function G of the argument arrays in
    their result: the kernel program by its run and the value of its returned buffer, the reference by its run. -/
theorem algebraic : Cert.algebraic_KernelIdeal_ReferenceIdeal := by
  intro m ρ m' ρ' _ hagree
  refine ⟨fun c => Cert.LoraLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Fr.run (F := Ideal) m ρ)
    · exact (h c _ (Cert.KernelIdeal.Fr.mem_uc Cert.KernelIdeal.main_v8 (by decide))).trans (Cert.KernelIdeal.LoraValue.result_eq m ρ c)
    · exact (h c _ (Cert.KernelIdeal.Fr.mem_uc Cert.KernelIdeal.main_arg0 (by decide))).trans (Cert.KernelIdeal.Fr.B4_main_arg0 m ρ c)
    · exact (h c _ (Cert.KernelIdeal.Fr.mem_uc Cert.KernelIdeal.main_arg1 (by decide))).trans (Cert.KernelIdeal.Fr.B4_main_arg1 m ρ c)
    · exact (h c _ (Cert.KernelIdeal.Fr.mem_uc Cert.KernelIdeal.main_arg2 (by decide))).trans (Cert.KernelIdeal.Fr.B4_main_arg2 m ρ c)
    · exact (h c _ (Cert.KernelIdeal.Fr.mem_uc Cert.KernelIdeal.main_arg3 (by decide))).trans (Cert.KernelIdeal.Fr.B4_main_arg3 m ρ c)
    · exact (h c _ (Cert.KernelIdeal.Fr.mem_uc Cert.KernelIdeal.main_arg4 (by decide))).trans (Cert.KernelIdeal.Fr.B4_main_arg4 m ρ c)
  · refine (θ_run Cert.ReferenceIdeal.defs _ _).mono (fun r h c => ⟨?_, (h c).2⟩) (Cert.LoraLinear.Reference.run m' ρ')
    rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
